-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x96 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x4 : Shape := ⟨3, ![64, 3, 4]⟩
abbrev S64x65536x3 : Shape := ⟨3, ![64, 65536, 3]⟩
abbrev S64x1x32x32x32 : Shape := ⟨5, ![64, 1, 32, 32, 32]⟩
abbrev S64x32x32x32x3 : Shape := ⟨5, ![64, 32, 32, 32, 3]⟩
abbrev S_ : Shape := ⟨0, ![]⟩

class Facts : Prop where
  bcast_S_S64x3x4 : S_.BroadcastsInDim S64x3x4 (![] : Fin 0 → Fin S64x3x4.rank)
  reducesTo_S64x3x4_S_d0_1_2 : S64x3x4.ReducesTo [0, 1, 2] S_
  h_S_ : 0 < S_.numel
  bcast_S_S64x65536x3 : S_.BroadcastsInDim S64x65536x3 (![] : Fin 0 → Fin S64x65536x3.rank)
  reducesTo_S64x65536x3_S_d0_1_2 : S64x65536x3.ReducesTo [0, 1, 2] S_
  bcast_S_S64x1x32x32x32 : S_.BroadcastsInDim S64x1x32x32x32 (![] : Fin 0 → Fin S64x1x32x32x32.rank)
  reducesTo_S64x1x32x32x32_S_d0_1_2_3_4 : S64x1x32x32x32.ReducesTo [0, 1, 2, 3, 4] S_
  bcast_S_S64x32x32x32x3 : S_.BroadcastsInDim S64x32x32x32x3 (![] : Fin 0 → Fin S64x32x32x32x3.rank)
  reducesTo_S64x32x32x32x3_S_d0_1_2_3_4 : S64x32x32x32x3.ReducesTo [0, 1, 2, 3, 4] S_

variable [Facts]

def fn_part1 {F : FTy → Type} [FloatOps F] (main_v13 : IVec S_ 1) (main_v16 : IVec S64x32x32x32x3 1) : IVec S_ 1 :=
  let main_c_5 : IVec S_ 1 := constantI S_ 1 1#1
  let main_v17 : IVec S_ 1 := (fun x v => Host.reduce IntOp.andi x v reducesTo_S64x32x32x32x3_S_d0_1_2_3_4 h_S_) main_v16 main_c_5
  let main_v18 : IVec S_ 1 := andi main_v13 main_v17
  main_v18

def fn {F : FTy → Type} [FloatOps F] (main_arg0 : FVec F S64x3x4 .f32) (main_arg1 : FVec F S64x65536x3 .f32) (main_arg2 : FVec F S64x1x32x32x32 .f32) (main_arg3 : FVec F S64x32x32x32x3 .f32) : IVec S_ 1 :=
  let main_v0 : FVec F S64x3x4 .f32 := Host.absf main_arg0
  let main_cst : FVec F S_ .f32 := constant S_ .f32 0x7F800000#32
  let main_v1 : FVec F S64x3x4 .f32 := broadcastInDim S64x3x4 ![] bcast_S_S64x3x4 main_cst
  let main_v2 : IVec S64x3x4 1 := cmpf .olt main_v0 main_v1
  let main_c : IVec S_ 1 := constantI S_ 1 1#1
  let main_v3 : IVec S_ 1 := (fun x v => Host.reduce IntOp.andi x v reducesTo_S64x3x4_S_d0_1_2 h_S_) main_v2 main_c
  let main_v4 : FVec F S64x65536x3 .f32 := Host.absf main_arg1
  let main_cst_0 : FVec F S_ .f32 := constant S_ .f32 0x7F800000#32
  let main_v5 : FVec F S64x65536x3 .f32 := broadcastInDim S64x65536x3 ![] bcast_S_S64x65536x3 main_cst_0
  let main_v6 : IVec S64x65536x3 1 := cmpf .olt main_v4 main_v5
  let main_c_1 : IVec S_ 1 := constantI S_ 1 1#1
  let main_v7 : IVec S_ 1 := (fun x v => Host.reduce IntOp.andi x v reducesTo_S64x65536x3_S_d0_1_2 h_S_) main_v6 main_c_1
  let main_v8 : IVec S_ 1 := andi main_v3 main_v7
  let main_v9 : FVec F S64x1x32x32x32 .f32 := Host.absf main_arg2
  let main_cst_2 : FVec F S_ .f32 := constant S_ .f32 0x7F800000#32
  let main_v10 : FVec F S64x1x32x32x32 .f32 := broadcastInDim S64x1x32x32x32 ![] bcast_S_S64x1x32x32x32 main_cst_2
  let main_v11 : IVec S64x1x32x32x32 1 := cmpf .olt main_v9 main_v10
  let main_c_3 : IVec S_ 1 := constantI S_ 1 1#1
  let main_v12 : IVec S_ 1 := (fun x v => Host.reduce IntOp.andi x v reducesTo_S64x1x32x32x32_S_d0_1_2_3_4 h_S_) main_v11 main_c_3
  let main_v13 : IVec S_ 1 := andi main_v8 main_v12
  let main_v14 : FVec F S64x32x32x32x3 .f32 := Host.absf main_arg3
  let main_cst_4 : FVec F S_ .f32 := constant S_ .f32 0x7F800000#32
  let main_v15 : FVec F S64x32x32x32x3 .f32 := broadcastInDim S64x32x32x32x3 ![] bcast_S_S64x32x32x32x3 main_cst_4
  let main_v16 : IVec S64x32x32x32x3 1 := cmpf .olt main_v14 main_v15
  fn_part1 (F := F) main_v13 main_v16
-- ==== Kernel.lean ====
abbrev S64x3x4 : Shape := ⟨3, ![64, 3, 4]⟩
abbrev S64x65536x3 : Shape := ⟨3, ![64, 65536, 3]⟩
abbrev S64x1x32x32x32 : Shape := ⟨5, ![64, 1, 32, 32, 32]⟩
abbrev S64x32x32x32x3 : Shape := ⟨5, ![64, 32, 32, 32, 3]⟩
abbrev S64x3x3 : Shape := ⟨3, ![64, 3, 3]⟩
abbrev S_ : Shape := ⟨0, ![]⟩
abbrev S64x3 : Shape := ⟨2, ![64, 3]⟩
abbrev S64x3x1 : Shape := ⟨3, ![64, 3, 1]⟩
abbrev S64x1024x96 : Shape := ⟨3, ![64, 1024, 96]⟩
abbrev S1x2048x3 : Shape := ⟨3, ![1, 2048, 3]⟩
abbrev S1x3x4 : Shape := ⟨3, ![1, 3, 4]⟩
abbrev S1x1024x96 : Shape := ⟨3, ![1, 1024, 96]⟩
abbrev S1x3x1 : Shape := ⟨3, ![1, 3, 1]⟩
abbrev S2048x3 : Shape := ⟨2, ![2048, 3]⟩
abbrev S1024x96 : Shape := ⟨2, ![1024, 96]⟩
abbrev S2048x1024 : Shape := ⟨2, ![2048, 1024]⟩
abbrev S2048x96 : Shape := ⟨2, ![2048, 96]⟩
abbrev S1x1x3 : Shape := ⟨3, ![1, 1, 3]⟩
abbrev S3 : Shape := ⟨1, ![3]⟩
abbrev S1x1x1 : Shape := ⟨3, ![1, 1, 1]⟩
abbrev S1x3 : Shape := ⟨2, ![1, 3]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S3x3 : Shape := ⟨2, ![3, 3]⟩
abbrev S1x3x3 : Shape := ⟨3, ![1, 3, 3]⟩
abbrev S64 : Shape := ⟨1, ![64]⟩

abbrev nBuf : Space → Nat
  | .hbm => 41
  | .vmem => 9
  | .smem => 0
  | _ => 0

abbrev bufTy : (tb : Table) → Fin (tcTables nBuf tb) → BufTy
  | .hbm, ⟨0, _⟩ => ⟨S64x3x4, .f32⟩
  | .hbm, ⟨1, _⟩ => ⟨S64x65536x3, .f32⟩
  | .hbm, ⟨2, _⟩ => ⟨S64x1x32x32x32, .f32⟩
  | .hbm, ⟨3, _⟩ => ⟨S64x32x32x32x3, .f32⟩
  | .hbm, ⟨4, _⟩ => ⟨S64x3x3, .f32⟩
  | .hbm, ⟨5, _⟩ => ⟨S64x3x3, .f32⟩
  | .hbm, ⟨6, _⟩ => ⟨S_, .f32⟩
  | .hbm, ⟨7, _⟩ => ⟨S64x3, .f32⟩
  | .hbm, ⟨8, _⟩ => ⟨S64x3x1, .f32⟩
  | .hbm, ⟨9, _⟩ => ⟨S64x3x1, .f32⟩
  | .hbm, ⟨10, _⟩ => ⟨S64x3x3, .f32⟩
  | .hbm, ⟨11, _⟩ => ⟨S64x3x3, .f32⟩
  | .hbm, ⟨12, _⟩ => ⟨S64x3x1, .f32⟩
  | .hbm, ⟨13, _⟩ => ⟨S64x3x4, .f32⟩
  | .hbm, ⟨14, _⟩ => ⟨S64x1024x96, .f32⟩
  | .hbm, ⟨15, _⟩ => ⟨S64x3x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x3x3, .f32⟩
  | .hbm, ⟨21, _⟩ => ⟨S3x3, .i32⟩
  | .hbm, ⟨22, _⟩ => ⟨S3x3, .i32⟩
  | .hbm, ⟨23, _⟩ => ⟨S_, .i32⟩
  | .hbm, ⟨24, _⟩ => ⟨S3x3, .i32⟩
  | .hbm, ⟨25, _⟩ => ⟨S3x3, .i32⟩
  | .hbm, ⟨26, _⟩ => ⟨S3x3, .i1⟩
  | .hbm, ⟨27, _⟩ => ⟨S3x3, .f32⟩
  | .hbm, ⟨28, _⟩ => ⟨S1x3x3, .f32⟩
  | .hbm, ⟨29, _⟩ => ⟨S64x3x3, .f32⟩
  | .hbm, ⟨30, _⟩ => ⟨S64x3x3, .f32⟩
  | .hbm, ⟨31, _⟩ => ⟨S64x3x3, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .local _ .vmem, ⟨0, _⟩ => ⟨S1x2048x3, .f32⟩
  | .local _ .vmem, ⟨1, _⟩ => ⟨S1x2048x3, .f32⟩
  | .local _ .vmem, ⟨2, _⟩ => ⟨S1x3x4, .f32⟩
  | .local _ .vmem, ⟨3, _⟩ => ⟨S1x3x4, .f32⟩
  | .local _ .vmem, ⟨4, _⟩ => ⟨S1x1024x96, .f32⟩
  | .local _ .vmem, ⟨5, _⟩ => ⟨S1x1024x96, .f32⟩
  | .local _ .vmem, ⟨6, _⟩ => ⟨S1x3x1, .f32⟩
  | .local _ .vmem, ⟨7, _⟩ => ⟨S1x3x1, .f32⟩
  | .local _ .vmem, ⟨8, _⟩ => ⟨S1x3x1, .f32⟩
  | _, _ => ⟨S64x3x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 32], ![false, false]⟩

def k0_cond2 (i : grid0.Coords) : BitVec 1 :=
  let arg1 : BitVec 32 := BitVec.ofNat 32 (i 1).val
  let c31_i32 : BitVec 32 := 31#32
  let v296 : BitVec 1 := Scalar.cmpi .eq arg1 c31_i32
  let v297 : BitVec 32 := Scalar.extui v296
  let c0_i32_79 : BitVec 32 := 0#32
  let v298 : BitVec 1 := Scalar.cmpi .ne v297 c0_i32_79
  v298

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S64x3x4_S64x3x3_0_0_0 : S64x3x4.Slices ![0, 0, 0] S64x3x3
  reducesTo_S64x3x3_S64x3_d2 : S64x3x3.ReducesTo [2] S64x3
  h_S_ : 0 < S_.numel
  bcast_S64x3_S64x3x1_0_1 : S64x3.BroadcastsInDim S64x3x1 (![0, 1] : Fin 2 → Fin S64x3x1.rank)
  bcast_S64x3x1_S64x3x3_0_1_2 : S64x3x1.BroadcastsInDim S64x3x3 (![0, 1, 2] : Fin 3 → Fin S64x3x3.rank)
  slices_S64x3x4_S64x3x1_0_0_3 : S64x3x4.Slices ![0, 0, 3] S64x3x1
  concatenates_S64x3x3_S64x3x1_S64x3x4_d2 : Shape.Concatenates [S64x3x3, S64x3x1] S64x3x4 2
  shapeCasts_S64x32x32x32x3_S64x1024x96 : S64x32x32x32x3.ShapeCasts S64x1024x96
  inb_S1x3x1_S1x3x1_0_0_0 : ∀ a, (![0, 0, 0] : Fin 3 → Nat) a + S1x3x1.size a ≤ S1x3x1.size a
  h_S1x3x1 : 0 < S1x3x1.numel
  shapeCasts_S1x3x1_S1x3x1 : S1x3x1.ShapeCasts S1x3x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x96_S1x1024x96_0_0_0 : ∀ a, (![0, 0, 0] : Fin 3 → Nat) a + S1x1024x96.size a ≤ S1x1024x96.size a
  h_S1x1024x96 : 0 < S1x1024x96.numel
  shapeCasts_S1x1024x96_S1024x96 : S1x1024x96.ShapeCasts S1024x96
  bitsLt_bf16_f32 : FTy.bits .bf16 < FTy.bits .f32
  iota_S2048x1024_d1_w32 : S2048x1024.Iotas .tc 32 [1]
  iota_S2048x96_d1_w32 : S2048x96.Iotas .tc 32 [1]
  inb_S1x3x4_S1x1x3_0_0_0 : ∀ a, (![0, 0, 0] : Fin 3 → Nat) a + S1x1x3.size a ≤ S1x3x4.size a
  h_S1x1x3 : 0 < S1x1x3.numel
  shapeCasts_S1x1x3_S3 : S1x1x3.ShapeCasts S3
  inb_S1x3x4_S1x1x1_0_0_3 : ∀ a, (![0, 0, 3] : Fin 3 → Nat) a + S1x1x1.size a ≤ S1x3x4.size a
  h_S1x1x1 : 0 < S1x1x1.numel
  inpos_S1x1x1_p0_0_0 : ∀ a, (![0, 0, 0] : Fin 3 → Nat) a < S1x1x1.size a
  shapeCasts_S3_S1x3 : S3.ShapeCasts S1x3
  broadcasts_S1x3_S2048x3 : S1x3.Broadcasts S2048x3
  reduces_S2048x3_S2048 : S2048x3.Reduces [1] S2048
  shapeCasts_S2048_S2048x1 : S2048.ShapeCasts S2048x1
  broadcasts_S2048x1_S2048x3 : S2048x1.Broadcasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  broadcasts_S2048x1_S2048x1024 : S2048x1.Broadcasts S2048x1024
  natLt_1_32 : 1 < 32
  broadcasts_S2048x1_S2048x96 : S2048x1.Broadcasts S2048x96
  reduces_S2048x96_S2048 : S2048x96.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inb_S1x3x4_S1x1x3_0_1_0 : ∀ a, (![0, 1, 0] : Fin 3 → Nat) a + S1x1x3.size a ≤ S1x3x4.size a
  inb_S1x3x4_S1x1x1_0_1_3 : ∀ a, (![0, 1, 3] : Fin 3 → Nat) a + S1x1x1.size a ≤ S1x3x4.size a
  inb_S1x3x4_S1x1x3_0_2_0 : ∀ a, (![0, 2, 0] : Fin 3 → Nat) a + S1x1x3.size a ≤ S1x3x4.size a
  inb_S1x3x4_S1x1x1_0_2_3 : ∀ a, (![0, 2, 3] : Fin 3 → Nat) a + S1x1x1.size a ≤ S1x3x4.size a
  concatenates_S1_S1_S1_S3_d0 : Shape.Concatenates [S1, S1, S1] S3 0
  shapeCasts_S3_S1x3x1 : S3.ShapeCasts S1x3x1
  reducesTo_S64x3x1_S_d0_1_2 : S64x3x1.ReducesTo [0, 1, 2] S_
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S64x3x3_0_1_2 : S1x3x3.BroadcastsInDim S64x3x3 (![0, 1, 2] : Fin 3 → Fin S64x3x3.rank)
  reducesTo_S64x3x3_S64_d1_2 : S64x3x3.ReducesTo [1, 2] S64
  reducesTo_S64_S_d0 : S64.ReducesTo [0] S_
  shapeCasts_S_S1 : S_.ShapeCasts S1
  dot_S2048x1024_S1024x96_S2048x96_1_0_0_1_n_n_wf : DotDims.WF S2048x1024 S1024x96 S2048x96 [1] [0] [0] [1] [] []
  dot_S64x3x3_S64x3x3_S64x3x3_2_2_1_1_0_0_wf : DotDims.WF S64x3x3 S64x3x3 S64x3x3 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S64x65536x3.size a
  hwx0_0 : ∀ i : grid0.Coords, EltTy.bits .f32 = 32 ∨ (Rect.block (s := S64x65536x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4.size a ≤ S64x3x4.size a
  hwx0_1 : ∀ i : grid0.Coords, EltTy.bits .f32 = 32 ∨ (Rect.block (s := S64x3x4) S1x3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x96.size a ≤ S64x1024x96.size a
  hwx0_2 : ∀ i : grid0.Coords, EltTy.bits .f32 = 32 ∨ (Rect.block (s := S64x1024x96) S1x1024x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1.size a ≤ S64x3x1.size a
  hwx0_3 : ∀ i : grid0.Coords, EltTy.bits .f32 = 32 ∨ (Rect.block (s := S64x3x1) S1x3x1.size (cc0_transform_3 i) (hinb0_3 i)).WholeWords (EltTy.packing .f32)

variable [Facts₀]

def dot_S2048x1024_S1024x96_S2048x96_1_0_0_1_n_n : DotDims S2048x1024 S1024x96 S2048x96 where
  lhsContracting := [1]
  rhsContracting := [0]
  lhsNonContracting := [0]
  rhsNonContracting := [1]
  lhsBatch := []
  rhsBatch := []
  wf := dot_S2048x1024_S1024x96_S2048x96_1_0_0_1_n_n_wf
def dot_S64x3x3_S64x3x3_S64x3x3_2_2_1_1_0_0 : DotDims S64x3x3 S64x3x3 S64x3x3 where
  lhsContracting := [2]
  rhsContracting := [2]
  lhsNonContracting := [1]
  rhsNonContracting := [1]
  lhsBatch := [0]
  rhsBatch := [0]
  wf := dot_S64x3x3_S64x3x3_S64x3x3_2_2_1_1_0_0_wf

abbrev win0_0 : Pipeline.Window sig grid0 :=
  Pipeline.Window.ofSpec (Memref.whole main_arg1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x3x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x3x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x3x4 : Shape := ⟨3, ![64, 3, 4]⟩
abbrev S64x65536x3 : Shape := ⟨3, ![64, 65536, 3]⟩
abbrev S64x1x32x32x32 : Shape := ⟨5, ![64, 1, 32, 32, 32]⟩
abbrev S64x32x32x32x3 : Shape := ⟨5, ![64, 32, 32, 32, 3]⟩
abbrev S64x3x3 : Shape := ⟨3, ![64, 3, 3]⟩
abbrev S_ : Shape := ⟨0, ![]⟩
abbrev S64x3 : Shape := ⟨2, ![64, 3]⟩
abbrev S64x3x1 : Shape := ⟨3, ![64, 3, 1]⟩
abbrev S64x3x65536 : Shape := ⟨3, ![64, 3, 65536]⟩
abbrev S64x1x65536x3 : Shape := ⟨4, ![64, 1, 65536, 3]⟩
abbrev S64x3x65536x1 : Shape := ⟨4, ![64, 3, 65536, 1]⟩
abbrev S64x3x1x3 : Shape := ⟨4, ![64, 3, 1, 3]⟩
abbrev S64x3x65536x3 : Shape := ⟨4, ![64, 3, 65536, 3]⟩
abbrev S3x3 : Shape := ⟨2, ![3, 3]⟩
abbrev S1x3x3 : Shape := ⟨3, ![1, 3, 3]⟩
abbrev S64 : Shape := ⟨1, ![64]⟩
abbrev S1 : Shape := ⟨1, ![1]⟩

abbrev nBuf : Space → Nat
  | .hbm => 114
  | .vmem => 0
  | .smem => 0
  | _ => 0

abbrev bufTy : (tb : Table) → Fin (tcTables nBuf tb) → BufTy
  | .hbm, ⟨0, _⟩ => ⟨S64x3x4, .f32⟩
  | .hbm, ⟨1, _⟩ => ⟨S64x65536x3, .f32⟩
  | .hbm, ⟨2, _⟩ => ⟨S64x1x32x32x32, .f32⟩
  | .hbm, ⟨3, _⟩ => ⟨S64x32x32x32x3, .f32⟩
  | .hbm, ⟨4, _⟩ => ⟨S64x3x3, .f32⟩
  | .hbm, ⟨5, _⟩ => ⟨S64x3x3, .f32⟩
  | .hbm, ⟨6, _⟩ => ⟨S_, .f32⟩
  | .hbm, ⟨7, _⟩ => ⟨S64x3, .f32⟩
  | .hbm, ⟨8, _⟩ => ⟨S64x3x1, .f32⟩
  | .hbm, ⟨9, _⟩ => ⟨S64x3x1, .f32⟩
  | .hbm, ⟨10, _⟩ => ⟨S64x3x3, .f32⟩
  | .hbm, ⟨11, _⟩ => ⟨S64x3x3, .f32⟩
  | .hbm, ⟨12, _⟩ => ⟨S64x3x1, .f32⟩
  | .hbm, ⟨13, _⟩ => ⟨S64x3, .f32⟩
  | .hbm, ⟨14, _⟩ => ⟨S64x3x65536, .f32⟩
  | .hbm, ⟨15, _⟩ => ⟨S64x3x1, .f32⟩
  | .hbm, ⟨16, _⟩ => ⟨S64x3x65536, .f32⟩
  | .hbm, ⟨17, _⟩ => ⟨S64x3x65536, .f32⟩
  | .hbm, ⟨18, _⟩ => ⟨S64x1x65536x3, .f32⟩
  | .hbm, ⟨19, _⟩ => ⟨S64x3x65536x1, .f32⟩
  | .hbm, ⟨20, _⟩ => ⟨S_, .f32⟩
  | .hbm, ⟨21, _⟩ => ⟨S64x3x65536x1, .f32⟩
  | .hbm, ⟨22, _⟩ => ⟨S64x3x65536x1, .f32⟩
  | .hbm, ⟨23, _⟩ => ⟨S64x3x1x3, .f32⟩
  | .hbm, ⟨24, _⟩ => ⟨S64x3x65536x3, .f32⟩
  | .hbm, ⟨25, _⟩ => ⟨S64x3x65536x3, .f32⟩
  | .hbm, ⟨26, _⟩ => ⟨S64x3x65536x3, .f32⟩
  | .hbm, ⟨27, _⟩ => ⟨S64x3x65536x3, .f32⟩
  | .hbm, ⟨28, _⟩ => ⟨S64x3x65536x3, .f32⟩
  | .hbm, ⟨29, _⟩ => ⟨S_, .f32⟩
  | .hbm, ⟨30, _⟩ => ⟨S64x3x65536x3, .f32⟩
  | .hbm, ⟨31, _⟩ => ⟨S64x3x65536x3, .f32⟩
  | .hbm, ⟨32, _⟩ => ⟨S64x3x65536x3, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S64x3x65536x3, .f32⟩
  | .hbm, ⟨37, _⟩ => ⟨S64x3x65536x3, .f32⟩
  | .hbm, ⟨38, _⟩ => ⟨S_, .f32⟩
  | .hbm, ⟨39, _⟩ => ⟨S64x3x65536x3, .f32⟩
  | .hbm, ⟨40, _⟩ => ⟨S64x3x65536x3, .f32⟩
  | .hbm, ⟨41, _⟩ => ⟨S64x3x65536x3, .i32⟩
  | .hbm, ⟨42, _⟩ => ⟨S64x3x65536x1, .i32⟩
  | .hbm, ⟨43, _⟩ => ⟨S64x3x65536, .i32⟩
  | .hbm, ⟨44, _⟩ => ⟨S64x3x65536x1, .i32⟩
  | .hbm, ⟨45, _⟩ => ⟨S64x3x65536, .i32⟩
  | .hbm, ⟨46, _⟩ => ⟨S64x3x65536x1, .i32⟩
  | .hbm, ⟨47, _⟩ => ⟨S64x3x65536, .i32⟩
  | .hbm, ⟨48, _⟩ => ⟨S_, .i32⟩
  | .hbm, ⟨49, _⟩ => ⟨S64x3x65536, .i32⟩
  | .hbm, ⟨50, _⟩ => ⟨S64x3x65536, .i1⟩
  | .hbm, ⟨51, _⟩ => ⟨S_, .i32⟩
  | .hbm, ⟨52, _⟩ => ⟨S64x3x65536, .i32⟩
  | .hbm, ⟨53, _⟩ => ⟨S64x3x65536, .i32⟩
  | .hbm, ⟨54, _⟩ => ⟨S64x3x65536, .i32⟩
  | .hbm, ⟨55, _⟩ => ⟨S_, .i32⟩
  | .hbm, ⟨56, _⟩ => ⟨S64x3x65536, .i32⟩
  | .hbm, ⟨57, _⟩ => ⟨S64x3x65536, .i1⟩
  | .hbm, ⟨58, _⟩ => ⟨S_, .i32⟩
  | .hbm, ⟨59, _⟩ => ⟨S64x3x65536, .i32⟩
  | .hbm, ⟨60, _⟩ => ⟨S64x3x65536, .i32⟩
  | .hbm, ⟨61, _⟩ => ⟨S64x3x65536, .i32⟩
  | .hbm, ⟨62, _⟩ => ⟨S_, .i32⟩
  | .hbm, ⟨63, _⟩ => ⟨S64x3x65536, .i32⟩
  | .hbm, ⟨64, _⟩ => ⟨S64x3x65536, .i1⟩
  | .hbm, ⟨65, _⟩ => ⟨S_, .i32⟩
  | .hbm, ⟨66, _⟩ => ⟨S64x3x65536, .i32⟩
  | .hbm, ⟨67, _⟩ => ⟨S64x3x65536, .i32⟩
  | .hbm, ⟨68, _⟩ => ⟨S64x3x65536, .i32⟩
  | .hbm, ⟨69, _⟩ => ⟨S64x3x65536x1, .i32⟩
  | .hbm, ⟨70, _⟩ => ⟨S64x3x65536x1, .i32⟩
  | .hbm, ⟨71, _⟩ => ⟨S64x3x65536x1, .i32⟩
  | .hbm, ⟨72, _⟩ => ⟨S64x3x65536x3, .i32⟩
  | .hbm, ⟨73, _⟩ => ⟨S64x3x65536x3, .f32⟩
  | .hbm, ⟨74, _⟩ => ⟨S64x3x65536x3, .f32⟩
  | .hbm, ⟨75, _⟩ => ⟨S64x3x65536x3, .f32⟩
  | .hbm, ⟨76, _⟩ => ⟨S_, .f32⟩
  | .hbm, ⟨77, _⟩ => ⟨S64x3x65536, .f32⟩
  | .hbm, ⟨78, _⟩ => ⟨S64x3x65536, .f32⟩
  | .hbm, ⟨79, _⟩ => ⟨S_, .f32⟩
  | .hbm, ⟨80, _⟩ => ⟨S64x3, .f32⟩
  | .hbm, ⟨81, _⟩ => ⟨S_, .f32⟩
  | .hbm, ⟨82, _⟩ => ⟨S64x3, .f32⟩
  | .hbm, ⟨83, _⟩ => ⟨S64x3, .f32⟩
  | .hbm, ⟨84, _⟩ => ⟨S_, .f32⟩
  | .hbm, ⟨85, _⟩ => ⟨S_, .f32⟩
  | .hbm, ⟨86, _⟩ => ⟨S64x3x3, .f32⟩
  | .hbm, ⟨87, _⟩ => ⟨S_, .f32⟩
  | .hbm, ⟨88, _⟩ => ⟨S64x3, .f32⟩
  | .hbm, ⟨89, _⟩ => ⟨S64x3x1, .f32⟩
  | .hbm, ⟨90, _⟩ => ⟨S64x3x1, .f32⟩
  | .hbm, ⟨91, _⟩ => ⟨S64x3x3, .f32⟩
  | .hbm, ⟨92, _⟩ => ⟨S64x3x3, .f32⟩
  | .hbm, ⟨93, _⟩ => ⟨S64x3x3, .f32⟩
  | .hbm, ⟨94, _⟩ => ⟨S3x3, .i32⟩
  | .hbm, ⟨95, _⟩ => ⟨S3x3, .i32⟩
  | .hbm, ⟨96, _⟩ => ⟨S_, .i32⟩
  | .hbm, ⟨97, _⟩ => ⟨S3x3, .i32⟩
  | .hbm, ⟨98, _⟩ => ⟨S3x3, .i32⟩
  | .hbm, ⟨99, _⟩ => ⟨S3x3, .i1⟩
  | .hbm, ⟨100, _⟩ => ⟨S3x3, .f32⟩
  | .hbm, ⟨101, _⟩ => ⟨S1x3x3, .f32⟩
  | .hbm, ⟨102, _⟩ => ⟨S64x3x3, .f32⟩
  | .hbm, ⟨103, _⟩ => ⟨S64x3x3, .f32⟩
  | .hbm, ⟨104, _⟩ => ⟨S64x3x3, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S1, .f32⟩
  | _, _ => ⟨S64x3x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_v0 : Ref sig .tc := ⟨.hbm, 75, rfl⟩
abbrev main_call2_cst : Ref sig .tc := ⟨.hbm, 76, rfl⟩
abbrev main_call2_v1 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_call3_v0 : Ref sig .tc := ⟨.hbm, 86, rfl⟩
abbrev main_call3_cst : Ref sig .tc := ⟨.hbm, 87, rfl⟩
abbrev main_call3_v1 : Ref sig .tc := ⟨.hbm, 88, rfl⟩
abbrev main_call3_v2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  slices_S64x3x4_S64x3x3_0_0_0 : S64x3x4.Slices ![0, 0, 0] S64x3x3
  reducesTo_S64x3x3_S64x3_d2 : S64x3x3.ReducesTo [2] S64x3
  h_S_ : 0 < S_.numel
  bcast_S64x3_S64x3x1_0_1 : S64x3.BroadcastsInDim S64x3x1 (![0, 1] : Fin 2 → Fin S64x3x1.rank)
  bcast_S64x3x1_S64x3x3_0_1_2 : S64x3x1.BroadcastsInDim S64x3x3 (![0, 1, 2] : Fin 3 → Fin S64x3x3.rank)
  slices_S64x3x4_S64x3x1_0_0_3 : S64x3x4.Slices ![0, 0, 3] S64x3x1
  shapeCasts_S64x3x1_S64x3 : S64x3x1.ShapeCasts S64x3
  bcast_S64x3x1_S64x3x65536_0_1_2 : S64x3x1.BroadcastsInDim S64x3x65536 (![0, 1, 2] : Fin 3 → Fin S64x3x65536.rank)
  bcast_S64x65536x3_S64x1x65536x3_0_2_3 : S64x65536x3.BroadcastsInDim S64x1x65536x3 (![0, 2, 3] : Fin 3 → Fin S64x1x65536x3.rank)
  bcast_S64x3x65536_S64x3x65536x1_0_1_2 : S64x3x65536.BroadcastsInDim S64x3x65536x1 (![0, 1, 2] : Fin 3 → Fin S64x3x65536x1.rank)
  bcast_S_S64x3x65536x1 : S_.BroadcastsInDim S64x3x65536x1 (![] : Fin 0 → Fin S64x3x65536x1.rank)
  bcast_S64x3x3_S64x3x1x3_0_1_3 : S64x3x3.BroadcastsInDim S64x3x1x3 (![0, 1, 3] : Fin 3 → Fin S64x3x1x3.rank)
  bcast_S64x3x65536x1_S64x3x65536x3_0_1_2_3 : S64x3x65536x1.BroadcastsInDim S64x3x65536x3 (![0, 1, 2, 3] : Fin 4 → Fin S64x3x65536x3.rank)
  bcast_S64x3x1x3_S64x3x65536x3_0_1_2_3 : S64x3x1x3.BroadcastsInDim S64x3x65536x3 (![0, 1, 2, 3] : Fin 4 → Fin S64x3x65536x3.rank)
  bcast_S64x1x65536x3_S64x3x65536x3_0_1_2_3 : S64x1x65536x3.BroadcastsInDim S64x3x65536x3 (![0, 1, 2, 3] : Fin 4 → Fin S64x3x65536x3.rank)
  bcast_S_S64x3x65536x3 : S_.BroadcastsInDim S64x3x65536x3 (![] : Fin 0 → Fin S64x3x65536x3.rank)
  slices_S64x3x65536x3_S64x3x65536x1_0_0_0_0 : S64x3x65536x3.Slices ![0, 0, 0, 0] S64x3x65536x1
  shapeCasts_S64x3x65536x1_S64x3x65536 : S64x3x65536x1.ShapeCasts S64x3x65536
  slices_S64x3x65536x3_S64x3x65536x1_0_0_0_1 : S64x3x65536x3.Slices ![0, 0, 0, 1] S64x3x65536x1
  slices_S64x3x65536x3_S64x3x65536x1_0_0_0_2 : S64x3x65536x3.Slices ![0, 0, 0, 2] S64x3x65536x1
  bcast_S_S64x3x65536 : S_.BroadcastsInDim S64x3x65536 (![] : Fin 0 → Fin S64x3x65536.rank)
  concatenates_S64x3x65536x1_S64x3x65536x1_S64x3x65536x1_S64x3x65536x3_d3 : Shape.Concatenates [S64x3x65536x1, S64x3x65536x1, S64x3x65536x1] S64x3x65536x3 3
  reducesTo_S64x3x65536x3_S64x3x65536_d3 : S64x3x65536x3.ReducesTo [3] S64x3x65536
  reducesTo_S64x3x65536_S64x3_d2 : S64x3x65536.ReducesTo [2] S64x3
  bcast_S_S64x3 : S_.BroadcastsInDim S64x3 (![] : Fin 0 → Fin S64x3.rank)
  reducesTo_S64x3_S_d0_1 : S64x3.ReducesTo [0, 1] S_
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S64x3x3_0_1_2 : S1x3x3.BroadcastsInDim S64x3x3 (![0, 1, 2] : Fin 3 → Fin S64x3x3.rank)
  reducesTo_S64x3x3_S64_d1_2 : S64x3x3.ReducesTo [1, 2] S64
  reducesTo_S64_S_d0 : S64.ReducesTo [0] S_
  shapeCasts_S_S1 : S_.ShapeCasts S1
  dot_S64x3x3_S64x65536x3_S64x3x65536_2_2_1_1_0_0_wf : DotDims.WF S64x3x3 S64x65536x3 S64x3x65536 [2] [2] [1] [1] [0] [0]
  gather_S64x32x32x32x3_S64x3x65536x3_S64x3x65536x3_3_123_0_0_123_3_11113_wf : GatherDims.WF S64x32x32x32x3 S64x3x65536x3 S64x3x65536x3 [3] [1, 2, 3] [0] [1, 2, 3] [0] 3 ![1, 1, 1, 1, 3]
  dot_S64x3x3_S64x3x3_S64x3x3_2_2_1_1_0_0_wf : DotDims.WF S64x3x3 S64x3x3 S64x3x3 [2] [2] [1] [1] [0] [0]

variable [Facts₀]

def dot_S64x3x3_S64x65536x3_S64x3x65536_2_2_1_1_0_0 : DotDims S64x3x3 S64x65536x3 S64x3x65536 where
  lhsContracting := [2]
  rhsContracting := [2]
  lhsNonContracting := [1]
  rhsNonContracting := [1]
  lhsBatch := [0]
  rhsBatch := [0]
  wf := dot_S64x3x3_S64x65536x3_S64x3x65536_2_2_1_1_0_0_wf
def gather_S64x32x32x32x3_S64x3x65536x3_S64x3x65536x3_3_123_0_0_123_3_11113 : GatherDims S64x32x32x32x3 S64x3x65536x3 S64x3x65536x3 where
  offsetDims := [3]
  collapsedSliceDims := [1, 2, 3]
  operandBatchingDims := [0]
  startIndicesBatchingDims := [0]
  startIndexMap := [1, 2, 3]
  indexVectorDim := 3
  sliceSizes := ![1, 1, 1, 1, 3]
  wf := gather_S64x32x32x32x3_S64x3x65536x3_S64x3x65536x3_3_123_0_0_123_3_11113_wf
def dot_S64x3x3_S64x3x3_S64x3x3_2_2_1_1_0_0 : DotDims S64x3x3 S64x3x3 S64x3x3 where
  lhsContracting := [2]
  rhsContracting := [2]
  lhsNonContracting := [1]
  rhsNonContracting := [1]
  lhsBatch := [0]
  rhsBatch := [0]
  wf := dot_S64x3x3_S64x3x3_S64x3x3_2_2_1_1_0_0_wf

class Facts : Prop extends Facts₀ where

variable [Facts]
-- ==== Proof.Finite.lean ====
/-
  From the precondition to real entries.

  The precondition is the conjunction, over the four arguments, of "every entry's absolute value is below `+∞`",
  each written as a reduction by `and` of the entrywise comparisons, and it is stated to be 1. A conjunction that is 1
  has both sides 1; a reduction by `and` over all axes that is 1 met a 1 at every entry; and an extended real `x`
  with `max x (-x) < ⊤` is neither `⊤` nor `⊥`, so it is a real number.
-/
import proofs.«118956_j35338990911546_2_alg».proof.Defs
import Idealize.ShloMosaic.Lib.ReduceAll
import Idealize.ShloMosaic.Lib.ValueIdx

noncomputable section

namespace Cert.Proof.Finite

open Idealize.ShloMosaic Idealize.SL.Sem

/-- A rank-0 array has one index. -/
instance : Subsingleton Cert.Pre_finite_inputs.S_.Idx := ⟨fun a b => funext fun d => d.elim0⟩

/-- An extended real whose absolute value compares below `+∞` is a real number. -/
theorem real_of_abs_lt (x : Ideal .f32)
    (h : FloatOps.cmpf (F := Ideal) .olt (FloatOps.hostAbsf (F := Ideal) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨r, rfl⟩

section Predicate

variable [Cert.Pre_finite_inputs.Facts]
  (a0 : FVec Ideal Cert.Pre_finite_inputs.S64x3x4 .f32) (a1 : FVec Ideal Cert.Pre_finite_inputs.S64x65536x3 .f32)
  (a2 : FVec Ideal Cert.Pre_finite_inputs.S64x1x32x32x32 .f32) (a3 : FVec Ideal Cert.Pre_finite_inputs.S64x32x32x32x3 .f32)
  (h : Cert.Pre_finite_inputs.fn (F := Ideal) a0 a1 a2 a3 = fun _ => 1#1)

include h

/-- The predicate, all ones on four arrays, makes every entry of the first a real number. -/
theorem fn_arg0 (i : Cert.Pre_finite_inputs.S64x3x4.Idx) : ∃ r : ℝ, a0 i = (r : EReal) := by
  have e := congrFun h ValueIdx.ix0
  unfold Cert.Pre_finite_inputs.fn Cert.Pre_finite_inputs.fn_part1 at e
  dsimp only [andi] at e
  have e0 := (IntOp.andi_eq_one.1 (IntOp.andi_eq_one.1 (IntOp.andi_eq_one.1 e).1).1).1
  exact real_of_abs_lt (a0 i) (Host.reduce_andi_all _ _ _ _ _ e0 i)

/-- The predicate, all ones on four arrays, makes every entry of the second a real number. -/
theorem fn_arg1 (i : Cert.Pre_finite_inputs.S64x65536x3.Idx) : ∃ r : ℝ, a1 i = (r : EReal) := by
  have e := congrFun h ValueIdx.ix0
  unfold Cert.Pre_finite_inputs.fn Cert.Pre_finite_inputs.fn_part1 at e
  dsimp only [andi] at e
  have e1 := (IntOp.andi_eq_one.1 (IntOp.andi_eq_one.1 (IntOp.andi_eq_one.1 e).1).1).2
  exact real_of_abs_lt (a1 i) (Host.reduce_andi_all _ _ _ _ _ e1 i)

/-- The predicate, all ones on four arrays, makes every entry of the third a real number. -/
theorem fn_arg2 (i : Cert.Pre_finite_inputs.S64x1x32x32x32.Idx) : ∃ r : ℝ, a2 i = (r : EReal) := by
  have e := congrFun h ValueIdx.ix0
  unfold Cert.Pre_finite_inputs.fn Cert.Pre_finite_inputs.fn_part1 at e
  dsimp only [andi] at e
  have e2 := (IntOp.andi_eq_one.1 (IntOp.andi_eq_one.1 e).1).2
  exact real_of_abs_lt (a2 i) (Host.reduce_andi_all _ _ _ _ _ e2 i)

/-- The predicate, all ones on four arrays, makes every entry of the fourth a real number. -/
theorem fn_arg3 (i : Cert.Pre_finite_inputs.S64x32x32x32x3.Idx) : ∃ r : ℝ, a3 i = (r : EReal) := by
  have e := congrFun h ValueIdx.ix0
  unfold Cert.Pre_finite_inputs.fn Cert.Pre_finite_inputs.fn_part1 at e
  dsimp only [andi] at e
  have e3 := (IntOp.andi_eq_one.1 e).2
  exact real_of_abs_lt (a3 i) (Host.reduce_andi_all _ _ _ _ _ e3 i)

end Predicate

section Memory

variable [Cert.KernelIdeal.Facts] [Cert.Pre_finite_inputs.Facts]
  (m : (ℓ : Loc Cert.KernelIdeal.nD Cert.KernelIdeal.τ Cert.KernelIdeal.sig) → Buf (Elt Ideal) ℓ)
  (hpre : Cert.Pre_KernelIdeal m) (c : Dev Cert.KernelIdeal.nD)

include hpre

/-- Under the precondition, every entry of the first argument, on every device, is a real number. -/
theorem arg0_real (i : Cert.KernelIdeal.S64x3x4.Idx) :
    ∃ r : ℝ, m ((c.tc : Thread Cert.KernelIdeal.nD Cert.KernelIdeal.τ).loc Cert.KernelIdeal.main_arg0) i = (r : EReal) :=
  fn_arg0 _ _ _ _ (hpre c) i

/-- Under the precondition, every entry of the second argument, on every device, is a real number. -/
theorem arg1_real (i : Cert.KernelIdeal.S64x65536x3.Idx) :
    ∃ r : ℝ, m ((c.tc : Thread Cert.KernelIdeal.nD Cert.KernelIdeal.τ).loc Cert.KernelIdeal.main_arg1) i = (r : EReal) :=
  fn_arg1 _ _ _ _ (hpre c) i

/-- Under the precondition, every entry of the third argument, on every device, is a real number. -/
theorem arg2_real (i : Cert.KernelIdeal.S64x1x32x32x32.Idx) :
    ∃ r : ℝ, m ((c.tc : Thread Cert.KernelIdeal.nD Cert.KernelIdeal.τ).loc Cert.KernelIdeal.main_arg2) i = (r : EReal) :=
  fn_arg2 _ _ _ _ (hpre c) i

/-- Under the precondition, every entry of the fourth argument, on every device, is a real number. -/
theorem arg3_real (i : Cert.KernelIdeal.S64x32x32x32x3.Idx) :
    ∃ r : ℝ, m ((c.tc : Thread Cert.KernelIdeal.nD Cert.KernelIdeal.τ).loc Cert.KernelIdeal.main_arg3) i = (r : EReal) :=
  fn_arg3 _ _ _ _ (hpre c) i

end Memory

end Cert.Proof.Finite

end
-- ==== Proof.Head.lean ====
/-
  One plane's share of a block of sample points, as the kernel's body computes it: from the block of points `v4`,
  the table block split into a high and a low bf16 part (`v7`, `v10`), the two lane counters (`v11`, `v12`) and the
  plane's row (its normal `v13` and offset `v15`), the sum over the block's points of the distance between the
  reflected point and the table entry its voxel selects. The selection is a product with a one-hot row: the lane
  counter compared with `32 ix + iy` picks the table row, and compared with `3 iz + c` the entry in that row.
  The body repeats this sequence of operations once per plane; here it is written once.
-/
import proofs.«118956_j35338990911546_2_alg».proof.Proof.Gen.KernelIdeal.Skeleton

set_option synthInstance.maxSize 4096

noncomputable section

namespace Cert.KernelIdeal.Head

open Idealize.ShloMosaic Idealize.SL.Sem Cert.KernelIdeal Cert.KernelIdeal.Gen

variable {F : FTy → Type} [FloatOps F]

/-- The sum, over the 2048 points of a block, of the distance from the point reflected in one plane to the table
    entry its voxel selects (one plane's term of the block's update of the accumulator). -/
noncomputable def headDist (v4 : FVec F S2048x3 .f32) (v7 : FVec F S1024x96 .bf16) (v10 : FVec F S1024x96 .bf16)
    (v11 : IVec S2048x1024 32) (v12 : IVec S2048x96 32) (v13 : Vec F S1x1x3 .f32) (v15 : Vec F S1x1x1 .f32) : F .f32 :=
  have v14 : FVec F S3 .f32 := shapeCast S3 v13 shapeCasts_S1x1x3_S3
  have v16 : F .f32 := extractAt ![0, 0, 0] v15 inpos_S1x1x1_p0_0_0
  have v17 : FVec F S1x3 .f32 := shapeCast S1x3 v14 shapeCasts_S3_S1x3
  have v18 : FVec F S2048x3 .f32 := broadcastTo S2048x3 v17 broadcasts_S1x3_S2048x3
  have v19 : FVec F S2048x3 .f32 := mulf v4 v18
  have cst : FVec F S2048 .f32 := constant S2048 .f32 0x00000000#32
  have v20 : FVec F S2048 .f32 := multiReduction .add [1] S2048 v19 0x00000000#32 reduces_S2048x3_S2048 (.inl rfl) rfl
  have v21 : FVec F S2048 .f32 := broadcast S2048 v16
  have v22 : FVec F S2048 .f32 := addf v20 v21
  have v23 : FVec F S2048x1 .f32 := shapeCast S2048x1 v22 shapeCasts_S2048_S2048x1
  have cst_11 : F .f32 := Scalar.ofBits .f32 0x40000000#32
  have v24 : FVec F S2048x1 .f32 := broadcast S2048x1 cst_11
  have v25 : FVec F S2048x1 .f32 := mulf v24 v23
  have v26 : FVec F S1x3 .f32 := shapeCast S1x3 v14 shapeCasts_S3_S1x3
  have v27 : FVec F S2048x3 .f32 := broadcastTo S2048x3 v25 broadcasts_S2048x1_S2048x3
  have v28 : FVec F S2048x3 .f32 := broadcastTo S2048x3 v26 broadcasts_S1x3_S2048x3
  have v29 : FVec F S2048x3 .f32 := mulf v27 v28
  have v30 : FVec F S2048x3 .f32 := subf v4 v29
  have cst_12 : F .f32 := Scalar.ofBits .f32 0x42000000#32
  have v31 : FVec F S2048x3 .f32 := broadcast S2048x3 cst_12
  have v32 : FVec F S2048x3 .f32 := mulf v30 v31
  have v33 : FVec F S2048x3 .f32 := floor v32
  have cst_13 : F .f32 := Scalar.ofBits .f32 0x00000000#32
  have cst_14 : F .f32 := Scalar.ofBits .f32 0x41F80000#32
  have v34 : FVec F S2048x3 .f32 := broadcast S2048x3 cst_13
  have v35 : FVec F S2048x3 .f32 := maximumf v34 v33
  have v36 : FVec F S2048x3 .f32 := broadcast S2048x3 cst_14
  have v37 : FVec F S2048x3 .f32 := minimumf v36 v35
  have v38 : IVec S2048x3 32 := fptosi 32 v37
  have v39 : IVec S2048x1 32 := extractStridedSlice S2048x1 ![0, 0] v38 slices_S2048x3_o0_0_S2048x1
  have v40 : IVec S2048x1 32 := extractStridedSlice S2048x1 ![0, 1] v38 slices_S2048x3_o0_1_S2048x1
  have v41 : IVec S2048x1 32 := extractStridedSlice S2048x1 ![0, 2] v38 slices_S2048x3_o0_2_S2048x1
  let c32_i32 : BitVec 32 := 32#32
  have v42 : IVec S2048x1 32 := broadcast S2048x1 c32_i32
  have v43 : IVec S2048x1 32 := muli v39 v42
  have v44 : IVec S2048x1 32 := addi v43 v40
  have v45 : IVec S2048x1024 32 := broadcastTo S2048x1024 v44 broadcasts_S2048x1_S2048x1024
  have v46 : IVec S2048x1024 1 := cmpi .eq v11 v45
  have v47 : IVec S2048x1024 32 := extui 32 v46 natLt_1_32
  have v48 : FVec F S2048x1024 .f32 := sitofp .f32 v47
  have v49 : FVec F S2048x1024 .bf16 := truncf .bf16 v48 bitsLt_bf16_f32
  have cst_15 : FVec F S2048x96 .f32 := constant S2048x96 .f32 0x00000000#32
  have v50 : FVec F S2048x96 .f32 := matmul dot_S2048x1024_S1024x96_S2048x96_1_0_0_1_n_n none v49 v7 cst_15
  have cst_16 : FVec F S2048x96 .f32 := constant S2048x96 .f32 0x00000000#32
  have v51 : FVec F S2048x96 .f32 := matmul dot_S2048x1024_S1024x96_S2048x96_1_0_0_1_n_n none v49 v10 cst_16
  have v52 : FVec F S2048x96 .f32 := addf v50 v51
  have cst_17 : F .f32 := Scalar.ofBits .f32 0x00000000#32
  have v53 : FVec F S2048x1 .f32 := broadcast S2048x1 cst_17
  let c3_i32 : BitVec 32 := 3#32
  have v54 : IVec S2048x1 32 := broadcast S2048x1 c3_i32
  have v55 : IVec S2048x1 32 := muli v41 v54
  let c0_i32_18 : BitVec 32 := 0#32
  have v56 : IVec S2048x1 32 := broadcast S2048x1 c0_i32_18
  have v57 : IVec S2048x1 32 := addi v55 v56
  have v58 : IVec S2048x96 32 := broadcastTo S2048x96 v57 broadcasts_S2048x1_S2048x96
  have v59 : IVec S2048x96 1 := cmpi .eq v12 v58
  have v60 : IVec S2048x96 32 := extui 32 v59 natLt_1_32
  have v61 : FVec F S2048x96 .f32 := sitofp .f32 v60
  have v62 : FVec F S2048x96 .f32 := mulf v52 v61
  have cst_19 : FVec F S2048 .f32 := constant S2048 .f32 0x00000000#32
  have v63 : FVec F S2048 .f32 := multiReduction .add [1] S2048 v62 0x00000000#32 reduces_S2048x96_S2048 (.inl rfl) rfl
  have v64 : FVec F S2048x1 .f32 := shapeCast S2048x1 v63 shapeCasts_S2048_S2048x1
  have v65 : FVec F S2048x1 .f32 := extractStridedSlice S2048x1 ![0, 0] v30 slices_S2048x3_o0_0_S2048x1
  have v66 : FVec F S2048x1 .f32 := subf v65 v64
  have v67 : FVec F S2048x1 .f32 := mulf v66 v66
  have v68 : FVec F S2048x1 .f32 := addf v53 v67
  let c3_i32_20 : BitVec 32 := 3#32
  have v69 : IVec S2048x1 32 := broadcast S2048x1 c3_i32_20
  have v70 : IVec S2048x1 32 := muli v41 v69
  let c1_i32 : BitVec 32 := 1#32
  have v71 : IVec S2048x1 32 := broadcast S2048x1 c1_i32
  have v72 : IVec S2048x1 32 := addi v70 v71
  have v73 : IVec S2048x96 32 := broadcastTo S2048x96 v72 broadcasts_S2048x1_S2048x96
  have v74 : IVec S2048x96 1 := cmpi .eq v12 v73
  have v75 : IVec S2048x96 32 := extui 32 v74 natLt_1_32
  have v76 : FVec F S2048x96 .f32 := sitofp .f32 v75
  have v77 : FVec F S2048x96 .f32 := mulf v52 v76
  have cst_21 : FVec F S2048 .f32 := constant S2048 .f32 0x00000000#32
  have v78 : FVec F S2048 .f32 := multiReduction .add [1] S2048 v77 0x00000000#32 reduces_S2048x96_S2048 (.inl rfl) rfl
  have v79 : FVec F S2048x1 .f32 := shapeCast S2048x1 v78 shapeCasts_S2048_S2048x1
  have v80 : FVec F S2048x1 .f32 := extractStridedSlice S2048x1 ![0, 1] v30 slices_S2048x3_o0_1_S2048x1
  have v81 : FVec F S2048x1 .f32 := subf v80 v79
  have v82 : FVec F S2048x1 .f32 := mulf v81 v81
  have v83 : FVec F S2048x1 .f32 := addf v68 v82
  let c3_i32_22 : BitVec 32 := 3#32
  have v84 : IVec S2048x1 32 := broadcast S2048x1 c3_i32_22
  have v85 : IVec S2048x1 32 := muli v41 v84
  let c2_i32 : BitVec 32 := 2#32
  have v86 : IVec S2048x1 32 := broadcast S2048x1 c2_i32
  have v87 : IVec S2048x1 32 := addi v85 v86
  have v88 : IVec S2048x96 32 := broadcastTo S2048x96 v87 broadcasts_S2048x1_S2048x96
  have v89 : IVec S2048x96 1 := cmpi .eq v12 v88
  have v90 : IVec S2048x96 32 := extui 32 v89 natLt_1_32
  have v91 : FVec F S2048x96 .f32 := sitofp .f32 v90
  have v92 : FVec F S2048x96 .f32 := mulf v52 v91
  have cst_23 : FVec F S2048 .f32 := constant S2048 .f32 0x00000000#32
  have v93 : FVec F S2048 .f32 := multiReduction .add [1] S2048 v92 0x00000000#32 reduces_S2048x96_S2048 (.inl rfl) rfl
  have v94 : FVec F S2048x1 .f32 := shapeCast S2048x1 v93 shapeCasts_S2048_S2048x1
  have v95 : FVec F S2048x1 .f32 := extractStridedSlice S2048x1 ![0, 2] v30 slices_S2048x3_o0_2_S2048x1
  have v96 : FVec F S2048x1 .f32 := subf v95 v94
  have v97 : FVec F S2048x1 .f32 := mulf v96 v96
  have v98 : FVec F S2048x1 .f32 := addf v83 v97
  have v99 : FVec F S2048x1 .f32 := sqrt v98
  have v100 : FVec F S1x2048x1 .f32 := shapeCast S1x2048x1 v99 shapeCasts_S2048x1_S1x2048x1
  have cst_24 : FVec F S1 .f32 := constant S1 .f32 0x00000000#32
  have v101 : FVec F S1 .f32 := multiReduction .add [1, 2] S1 v100 0x00000000#32 reduces_S1x2048x1_S1 (.inl rfl) rfl
  have v102 : FVec F S1x1x1 .f32 := shapeCast S1x1x1 v101 shapeCasts_S1_S1x1x1
  have v103 : F .f32 := extractAt ![0, 0, 0] v102 inpos_S1x1x1_p0_0_0
  v103

end Cert.KernelIdeal.Head

end
-- ==== Proof.Pieces.lean ====
/-
  What one grid point does to the accumulator. The body adds, to the three running sums it carries in a scratch
  block (one per plane), the three planes' shares of the point's block of 2048 sample points; at the first tile of a
  batch element the scratch is first reset to zero, and at the last tile it is also copied to the output block.
  Here the contents the body leaves are named as ONE function of the point's three input blocks and of the scratch
  it found: `blockUpdate`.
-/
import proofs.«118956_j35338990911546_2_alg».proof.Proof.Gen.KernelIdeal.Frame
import proofs.«118956_j35338990911546_2_alg».proof.Proof.Head
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Head

variable {F : FTy → Type} [FloatOps F]

theorem hz3 : (![0, 0, 0] : Fin 3 → Nat) = fun _ => 0 := funext fun a => by fin_cases a <;> rfl

/-- The block of points as a `[2048, 3]` array. -/
abbrev ptsOf (x0 : Vec F S1x2048x3 .f32) : FVec F S2048x3 .f32 := shapeCast S2048x3 x0 shapeCasts_S1x2048x3_S2048x3
/-- The table block as a `[1024, 96]` array. -/
abbrev tabOf (x2 : Vec F S1x1024x96 .f32) : FVec F S1024x96 .f32 := shapeCast S1024x96 x2 shapeCasts_S1x1024x96_S1024x96

/-- One plane's share of the block: `headDist` at the plane's row of the planes block (its normal, its offset). -/
abbrev planeShare (x0 : Vec F S1x2048x3 .f32) (x2 : Vec F S1x1024x96 .f32) (nrm : Vec F S1x1x3 .f32) (off : Vec F S1x1x1 .f32) : F .f32 :=
  headDist (ptsOf x0) (truncf .bf16 (tabOf x2) bitsLt_bf16_f32) (truncf .bf16 (subf (tabOf x2) (tabOf x2)) bitsLt_bf16_f32)
    (iota .tc S2048x1024 32 [1] iota_S2048x1024_d1_w32) (iota .tc S2048x96 32 [1] iota_S2048x96_d1_w32) nrm off

/-- The accumulator after the point: what it held plus the three planes' shares, as a `[1, 3, 1]` block. -/
def blockUpdate (x0 : Vec F S1x2048x3 .f32) (x1 : Vec F S1x3x4 .f32) (x2 : Vec F S1x1024x96 .f32) (acc : Vec F S1x3x1 .f32) : Vec F S1x3x1 .f32 :=
  shapeCast S1x3x1 (addf acc (shapeCast S1x3x1 (concatenate S3 0
    [⟨S1, broadcast S1 (planeShare x0 x2 (View.ld x1 (Rect.unit ![0, 0, 0] ![1, 1, 3] inb_S1x3x4_S1x1x3_0_0_0)) (View.ld x1 (Rect.unit ![0, 0, 3] ![1, 1, 1] inb_S1x3x4_S1x1x1_0_0_3)))⟩,
     ⟨S1, broadcast S1 (planeShare x0 x2 (View.ld x1 (Rect.unit ![0, 1, 0] ![1, 1, 3] inb_S1x3x4_S1x1x3_0_1_0)) (View.ld x1 (Rect.unit ![0, 1, 3] ![1, 1, 1] inb_S1x3x4_S1x1x1_0_1_3)))⟩,
     ⟨S1, broadcast S1 (planeShare x0 x2 (View.ld x1 (Rect.unit ![0, 2, 0] ![1, 1, 3] inb_S1x3x4_S1x1x3_0_2_0)) (View.ld x1 (Rect.unit ![0, 2, 3] ![1, 1, 1] inb_S1x3x4_S1x1x1_0_2_3)))⟩]
    concatenates_S1_S1_S1_S3_d0) shapeCasts_S3_S1x3x1)) shapeCasts_S1x3x1_S1x3x1

/-- The zero block the first tile stores. -/
abbrev zeroAcc : Vec F S1x3x1 .f32 := shapeCast S1x3x1 (broadcast S1x3x1 (Scalar.ofBits .f32 0x00000000#32)) shapeCasts_S1x3x1_S1x3x1

/-- The first tile of a batch element: the scratch reset to zero, then updated. -/
theorem sout_A (c : Dev nD) (i : grid0.Coords) (a2 : Memref sig .tc .vmem S1x2048x3 .f32) (h2 : a2.IsWhole) (a3 : Memref sig .tc .vmem S1x3x4 .f32) (h3 : a3.IsWhole) (a4 : Memref sig .tc .vmem S1x1024x96 .f32) (h4 : a4.IsWhole) (a5 : Memref sig .tc .vmem S1x3x1 .f32) (h5 : a5.IsWhole) (a6 : Memref sig .tc .vmem S1x3x1 .f32) (h6 : a6.IsWhole) (hc0 : cond0_0 i) (hc1 : ¬cond0_1 i)
    (x0 : Vec F S1x2048x3 .f32) (x1 : Vec F S1x3x4 .f32) (x2 : Vec F S1x1024x96 .f32) :
    sout0_A_0 c i a2 h2 a3 h3 a4 h4 a5 h5 a6 h6 hc0 hc1 x0 x1 x2 = blockUpdate x0 x1 x2 zeroAcc := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x3x1) hz3, View.readCov_unit_zero (S := S1x3x1) _ hz3]
  simp only [View.readAt_eq_ld, h2.read_unread, h3.read_unread, h4.read_unread, h6.read_unread, View.ld_unit_zero (S := S1x3x1) hz3, View.ld_unit_zero (S := S1x2048x3) hz3, View.ld_unit_zero (S := S1x1024x96) hz3]
  rfl

/-- A middle tile: the scratch it found, updated. -/
theorem sout_B (c : Dev nD) (i : grid0.Coords) (a2 : Memref sig .tc .vmem S1x2048x3 .f32) (h2 : a2.IsWhole) (a3 : Memref sig .tc .vmem S1x3x4 .f32) (h3 : a3.IsWhole) (a4 : Memref sig .tc .vmem S1x1024x96 .f32) (h4 : a4.IsWhole) (a5 : Memref sig .tc .vmem S1x3x1 .f32) (h5 : a5.IsWhole) (a6 : Memref sig .tc .vmem S1x3x1 .f32) (h6 : a6.IsWhole) (hc0 : ¬cond0_0 i) (hc1 : ¬cond0_1 i)
    (x0 : Vec F S1x2048x3 .f32) (x1 : Vec F S1x3x4 .f32) (x2 : Vec F S1x1024x96 .f32) (xs0 : Vec F S1x3x1 .f32) :
    sout0_B_0 c i a2 h2 a3 h3 a4 h4 a5 h5 a6 h6 hc0 hc1 x0 x1 x2 xs0 = blockUpdate x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz3]
  simp only [View.readAt_eq_ld, h2.read_unread, h3.read_unread, h4.read_unread, h6.read_unread, View.ld_unit_zero (S := S1x3x1) hz3, View.ld_unit_zero (S := S1x2048x3) hz3, View.ld_unit_zero (S := S1x1024x96) hz3]
  rfl

/-- The last tile: the scratch it found, updated. -/
theorem sout_C (c : Dev nD) (i : grid0.Coords) (a2 : Memref sig .tc .vmem S1x2048x3 .f32) (h2 : a2.IsWhole) (a3 : Memref sig .tc .vmem S1x3x4 .f32) (h3 : a3.IsWhole) (a4 : Memref sig .tc .vmem S1x1024x96 .f32) (h4 : a4.IsWhole) (a5 : Memref sig .tc .vmem S1x3x1 .f32) (h5 : a5.IsWhole) (a6 : Memref sig .tc .vmem S1x3x1 .f32) (h6 : a6.IsWhole) (hc0 : ¬cond0_0 i) (hc1 : cond0_1 i)
    (x0 : Vec F S1x2048x3 .f32) (x1 : Vec F S1x3x4 .f32) (x2 : Vec F S1x1024x96 .f32) (xs0 : Vec F S1x3x1 .f32) :
    sout0_C_0 c i a2 h2 a3 h3 a4 h4 a5 h5 a6 h6 hc0 hc1 x0 x1 x2 xs0 = blockUpdate x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread, View.ld_unit_zero (S := S1x3x1) hz3, View.ld_unit_zero (S := S1x2048x3) hz3, View.ld_unit_zero (S := S1x1024x96) hz3]
  rfl

/-- The last tile also copies the updated scratch into the output block. -/
theorem out_C (c : Dev nD) (i : grid0.Coords) (a2 : Memref sig .tc .vmem S1x2048x3 .f32) (h2 : a2.IsWhole) (a3 : Memref sig .tc .vmem S1x3x4 .f32) (h3 : a3.IsWhole) (a4 : Memref sig .tc .vmem S1x1024x96 .f32) (h4 : a4.IsWhole) (a5 : Memref sig .tc .vmem S1x3x1 .f32) (h5 : a5.IsWhole) (a6 : Memref sig .tc .vmem S1x3x1 .f32) (h6 : a6.IsWhole) (hc0 : ¬cond0_0 i) (hc1 : cond0_1 i)
    (x0 : Vec F S1x2048x3 .f32) (x1 : Vec F S1x3x4 .f32) (x2 : Vec F S1x1024x96 .f32) (xs0 : Vec F S1x3x1 .f32) :
    out0_C_3 c i a2 h2 a3 h3 a4 h4 a5 h5 a6 h6 hc0 hc1 x0 x1 x2 xs0 = blockUpdate x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S1x3x1) _ hz3]
  simp only [View.readAt_eq_ld, h2.read_unread, h3.read_unread, h4.read_unread, h6.read_unread, View.ld_unit_zero (S := S1x3x1) hz3, View.ld_unit_zero (S := S1x2048x3) hz3, View.ld_unit_zero (S := S1x1024x96) hz3]
  rfl

end Cert.KernelIdeal.Pieces
end
-- ==== Proof.Blocks.lean ====
/-
  The three input blocks of a grid point, read entry by entry as the program's arguments.

  Grid point `t` (of 2048 = 64 · 32) works on batch element `t / 32` and tile `t % 32`. Its block of sample points
  is rows `2048 (t % 32) … 2048 (t % 32) + 2047` of that batch element of the points argument. Its planes block is
  that batch element of an array the program computes before the region: the planes argument with each plane's normal
  `n` (columns 0 to 2) replaced by the unit normal `n / ‖n‖` and the offset (column 3) kept — the unit normal by the
  very operations the reference applies (slice, square, sum over the axis, square root, divide), so the two terms
  coincide. Its table block is that batch element of the grid argument `[64, 32, 32, 32, 3]` reshaped to
  `[64, 1024, 96]`: row `32 i + j`, column `3 k + cc` is entry `(i, j, k, cc)`, both having row-major position
  `((32 i + j) 32 + k) 3 + cc` within the batch element.
-/
import proofs.«118956_j35338990911546_2_alg».proof.Proof.Pieces
import proofs.«118956_j35338990911546_2_alg».proof.Proof.Gen.ReferenceIdeal.Read
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Idealize.ShloMosaic.StableHlo

variable (m : (ℓ : Loc nD τ sig) → Buf (Elt Ideal) ℓ) (c : Dev nD)

/-- The windows' index maps over the grid: point `t` is batch element `t / 32`, tile `t % 32`. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = 0 :=
  (by decide +kernel : ∀ t : Fin grid0.N, _)

/-- A grid point's number is below 2048. -/
theorem t_lt (t : Fin cfg0.N) : t.val < 2048 := by
  have h := t.isLt
  have hN : cfg0.N = 2048 := N_0
  omega

/-- The batch element of grid point `t`. -/
abbrev bOf (t : Fin cfg0.N) : Fin 64 := ⟨t.val / 32, by have := t_lt t; omega⟩

/-- Window 0's block at point `t` is rows `2048 (t % 32) …` of batch element `t / 32` of the points argument. -/
theorem iblk0_apply (t : Fin cfg0.N) (y : S1x2048x3.Idx) (k : S64x65536x3.Idx)
    (hk0 : (k 0).val = t.val / 32) (hk1 : (k 1).val = (t.val % 32) * 2048 + (y 1).val) (hk2 : (k 2).val = (y 2).val) :
    (iblk m c 0 t : Vec Ideal S1x2048x3 .f32) y = (m ((c : Thread nD τ).loc main_arg1) : S64x65536x3.Idx → EReal) k := by
  obtain ⟨e0, e1, e2, -⟩ := idx_facts t
  unfold iblk
  rw [View.read_apply]
  show V m c main_arg1 _ = m (c.tc.loc main_arg1) _
  rw [V_main_arg1 m c]
  congr 1
  funext a
  apply Fin.ext
  have hy0 : (y 0).val < 1 := (y 0).isLt
  match a with
  | ⟨0, _⟩ => show win0_0.index t 0 * 1 + 1 * (y 0).val = (k 0).val; rw [e0, hk0]; omega
  | ⟨1, _⟩ => show win0_0.index t 1 * 2048 + 1 * (y 1).val = (k 1).val; rw [e1, hk1]; omega
  | ⟨2, _⟩ => show win0_0.index t 2 * 3 + 1 * (y 2).val = (k 2).val; rw [e2, hk2]; omega

theorem pts_apply (t : Fin cfg0.N) (r : Fin 2048) (d : Fin 3) :
    ptsOf (iblk m c 0 t) (ValueIdx.ix2 r d)
      = (m ((c : Thread nD τ).loc main_arg1) : S64x65536x3.Idx → EReal)
          (ValueIdx.ix3 (bOf t)
            (⟨(t.val % 32) * 2048 + r.val, by have := r.isLt; omega⟩ : Fin 65536) d) := by
  refine (ValueIdx.shapeCast_1ab_ab_apply (iblk m c 0 t : Vec Ideal S1x2048x3 .f32) shapeCasts_S1x2048x3_S2048x3 r d).trans ?_
  exact iblk0_apply m c t _ _ rfl rfl rfl

/-- The reference's unit normals `n / ‖n‖` of the planes argument, which the program computes by the same operations. -/
abbrev nhat (a0 : S64x3x4.Idx → EReal) : S64x3x3.Idx → EReal := Cert.ReferenceIdeal.Read.val_main_v3 (F := Ideal) a0

/-- The planes array as the region finds it: the unit normals and the offsets, joined along the last axis. -/
theorem V_v5 : (V m c main_v5 : S64x3x4.Idx → EReal)
    = concatenate S64x3x4 2 [⟨S64x3x3, nhat (m ((c : Thread nD τ).loc main_arg0))⟩,
        ⟨S64x3x1, extractStridedSlice S64x3x1 ![0, 0, 3] (m ((c : Thread nD τ).loc main_arg0) : S64x3x4.Idx → EReal) slices_S64x3x4_S64x3x1_0_0_3⟩] concatenates_S64x3x3_S64x3x1_S64x3x4_d2 := by
  dsimp only [Gen.V, Gen.V0]
  simp only [Gen.hostOps0, Gen.hostOps0_1, Gen.hostOps0_2, List.flatten_cons, List.flatten_nil, List.append_nil, List.cons_append, List.nil_append]
  after_results
  rfl

/-- The table array as the region finds it: the grid argument reshaped. -/
theorem V_v6 : (V m c main_v6 : S64x1024x96.Idx → EReal)
    = shapeCast S64x1024x96 (m ((c : Thread nD τ).loc main_arg3) : S64x32x32x32x3.Idx → EReal) shapeCasts_S64x32x32x32x3_S64x1024x96 := by
  dsimp only [Gen.V, Gen.V0]
  simp only [Gen.hostOps0, Gen.hostOps0_1, Gen.hostOps0_2, List.flatten_cons, List.flatten_nil, List.append_nil, List.cons_append, List.nil_append]
  after_results
  rfl

/-- A column below 3 of the joined planes array is the unit normal's. -/
theorem v5_normal (a0 : S64x3x4.Idx → EReal) (b : Fin 64) (h : Fin 3) (d : Fin 3) :
    concatenate S64x3x4 2 [⟨S64x3x3, nhat a0⟩, ⟨S64x3x1, extractStridedSlice S64x3x1 ![0, 0, 3] a0 slices_S64x3x4_S64x3x1_0_0_3⟩]
        concatenates_S64x3x3_S64x3x1_S64x3x4_d2 (ValueIdx.ix3 b h (⟨d.val, by have := d.isLt; omega⟩ : Fin 4))
      = nhat a0 (ValueIdx.ix3 b h d) :=
  concatenate_pair_apply_left (t := S64x3x4) (s₁ := S64x3x3) (s₂ := S64x3x1) (2 : Fin 3) (nhat a0)
    (extractStridedSlice S64x3x1 ![0, 0, 3] a0 slices_S64x3x4_S64x3x1_0_0_3) concatenates_S64x3x3_S64x3x1_S64x3x4_d2
    (ValueIdx.ix3 b h (⟨d.val, by have := d.isLt; omega⟩ : Fin 4)) rfl (ValueIdx.ix3 b h d)
    (fun a => match a with | ⟨0, _⟩ => rfl | ⟨1, _⟩ => rfl | ⟨2, _⟩ => rfl)

/-- Column 3 of the joined planes array is the offset, column 3 of the planes argument. -/
theorem v5_offset (a0 : S64x3x4.Idx → EReal) (b : Fin 64) (h : Fin 3) :
    concatenate S64x3x4 2 [⟨S64x3x3, nhat a0⟩, ⟨S64x3x1, extractStridedSlice S64x3x1 ![0, 0, 3] a0 slices_S64x3x4_S64x3x1_0_0_3⟩]
        concatenates_S64x3x3_S64x3x1_S64x3x4_d2 (ValueIdx.ix3 b h (3 : Fin 4))
      = a0 (ValueIdx.ix3 b h (3 : Fin 4)) := by
  refine (concatenate_pair_apply_right (t := S64x3x4) (s₁ := S64x3x3) (s₂ := S64x3x1) (2 : Fin 3) (nhat a0)
    (extractStridedSlice S64x3x1 ![0, 0, 3] a0 slices_S64x3x4_S64x3x1_0_0_3) concatenates_S64x3x3_S64x3x1_S64x3x4_d2
    (ValueIdx.ix3 b h (3 : Fin 4)) rfl rfl (ValueIdx.ix3 b h (0 : Fin 1))
    (fun a => match a with | ⟨0, _⟩ => fun _ => rfl | ⟨1, _⟩ => fun _ => rfl | ⟨2, _⟩ => fun hne => absurd rfl hne) rfl).trans ?_
  exact extractStridedSlice_apply _ a0 slices_S64x3x4_S64x3x1_0_0_3 _ _
    (fun a => match a with | ⟨0, _⟩ => by show b.val = 0 + b.val; omega | ⟨1, _⟩ => by show h.val = 0 + h.val; omega | ⟨2, _⟩ => rfl)

/-- Window 1's block at point `t` is batch element `t / 32` of the planes array the region finds. -/
theorem iblk1_apply (t : Fin cfg0.N) (y : S1x3x4.Idx) (k : S64x3x4.Idx)
    (hk0 : (k 0).val = t.val / 32) (hk1 : (k 1).val = (y 1).val) (hk2 : (k 2).val = (y 2).val) :
    (iblk m c 1 t : Vec Ideal S1x3x4 .f32) y = (V m c main_v5 : S64x3x4.Idx → EReal) k := by
  obtain ⟨-, -, -, e0, e1, e2, -⟩ := idx_facts t
  unfold iblk
  rw [View.read_apply]
  show V m c main_v5 _ = V m c main_v5 _
  congr 1
  funext a
  apply Fin.ext
  have hy0 : (y 0).val < 1 := (y 0).isLt
  match a with
  | ⟨0, _⟩ => show win0_1.index t 0 * 1 + 1 * (y 0).val = (k 0).val; rw [e0, hk0]; omega
  | ⟨1, _⟩ => show win0_1.index t 1 * 3 + 1 * (y 1).val = (k 1).val; rw [e1, hk1]; omega
  | ⟨2, _⟩ => show win0_1.index t 2 * 4 + 1 * (y 2).val = (k 2).val; rw [e2, hk2]; omega

/-- Window 2's block at point `t` is batch element `t / 32` of the table array the region finds. -/
theorem iblk2_apply (t : Fin cfg0.N) (y : S1x1024x96.Idx) (k : S64x1024x96.Idx)
    (hk0 : (k 0).val = t.val / 32) (hk1 : (k 1).val = (y 1).val) (hk2 : (k 2).val = (y 2).val) :
    (iblk m c 2 t : Vec Ideal S1x1024x96 .f32) y = (V m c main_v6 : S64x1024x96.Idx → EReal) k := by
  obtain ⟨-, -, -, -, -, -, e0, e1, e2⟩ := idx_facts t
  unfold iblk
  rw [View.read_apply]
  show V m c main_v6 _ = V m c main_v6 _
  congr 1
  funext a
  apply Fin.ext
  have hy0 : (y 0).val < 1 := (y 0).isLt
  match a with
  | ⟨0, _⟩ => show win0_2.index t 0 * 1 + 1 * (y 0).val = (k 0).val; rw [e0, hk0]; omega
  | ⟨1, _⟩ => show win0_2.index t 1 * 1024 + 1 * (y 1).val = (k 1).val; rw [e1, hk1]; omega
  | ⟨2, _⟩ => show win0_2.index t 2 * 96 + 1 * (y 2).val = (k 2).val; rw [e2, hk2]; omega

/-- Row 0 of the planes block, columns 0 to 2: the unit normal of plane 0 of batch element `t / 32`. -/
theorem normal_apply_0 (t : Fin cfg0.N) (d : Fin 3) :
    View.ld (iblk m c 1 t : Vec Ideal S1x3x4 .f32) (Rect.unit ![0, 0, 0] ![1, 1, 3] inb_S1x3x4_S1x1x3_0_0_0) (ValueIdx.ix3 (0 : Fin 1) (0 : Fin 1) d)
      = Cert.ReferenceIdeal.Read.val_main_v3 (F := Ideal) (m ((c : Thread nD τ).loc main_arg0)) (ValueIdx.ix3 (bOf t) (0 : Fin 3) d) := by
  show (iblk m c 1 t : Vec Ideal S1x3x4 .f32) _ = _
  refine (iblk1_apply m c t _ (ValueIdx.ix3 (bOf t) (0 : Fin 3) (⟨d.val, by have := d.isLt; omega⟩ : Fin 4)) rfl rfl
    (by show d.val = 0 + 1 * d.val; omega)).trans ?_
  rw [V_v5]
  exact v5_normal _ (bOf t) 0 d

/-- Row 1 of the planes block, columns 0 to 2: the unit normal of plane 1 of batch element `t / 32`. -/
theorem normal_apply_1 (t : Fin cfg0.N) (d : Fin 3) :
    View.ld (iblk m c 1 t : Vec Ideal S1x3x4 .f32) (Rect.unit ![0, 1, 0] ![1, 1, 3] inb_S1x3x4_S1x1x3_0_1_0) (ValueIdx.ix3 (0 : Fin 1) (0 : Fin 1) d)
      = Cert.ReferenceIdeal.Read.val_main_v3 (F := Ideal) (m ((c : Thread nD τ).loc main_arg0)) (ValueIdx.ix3 (bOf t) (1 : Fin 3) d) := by
  show (iblk m c 1 t : Vec Ideal S1x3x4 .f32) _ = _
  refine (iblk1_apply m c t _ (ValueIdx.ix3 (bOf t) (1 : Fin 3) (⟨d.val, by have := d.isLt; omega⟩ : Fin 4)) rfl rfl
    (by show d.val = 0 + 1 * d.val; omega)).trans ?_
  rw [V_v5]
  exact v5_normal _ (bOf t) 1 d

/-- Row 2 of the planes block, columns 0 to 2: the unit normal of plane 2 of batch element `t / 32`. -/
theorem normal_apply_2 (t : Fin cfg0.N) (d : Fin 3) :
    View.ld (iblk m c 1 t : Vec Ideal S1x3x4 .f32) (Rect.unit ![0, 2, 0] ![1, 1, 3] inb_S1x3x4_S1x1x3_0_2_0) (ValueIdx.ix3 (0 : Fin 1) (0 : Fin 1) d)
      = Cert.ReferenceIdeal.Read.val_main_v3 (F := Ideal) (m ((c : Thread nD τ).loc main_arg0)) (ValueIdx.ix3 (bOf t) (2 : Fin 3) d) := by
  show (iblk m c 1 t : Vec Ideal S1x3x4 .f32) _ = _
  refine (iblk1_apply m c t _ (ValueIdx.ix3 (bOf t) (2 : Fin 3) (⟨d.val, by have := d.isLt; omega⟩ : Fin 4)) rfl rfl
    (by show d.val = 0 + 1 * d.val; omega)).trans ?_
  rw [V_v5]
  exact v5_normal _ (bOf t) 2 d

/-- Row 0 of the planes block, column 3: the offset of plane 0 of batch element `t / 32`. -/
theorem offset_apply_0 (t : Fin cfg0.N) :
    View.ld (iblk m c 1 t : Vec Ideal S1x3x4 .f32) (Rect.unit ![0, 0, 3] ![1, 1, 1] inb_S1x3x4_S1x1x1_0_0_3) (ValueIdx.ix3 (0 : Fin 1) (0 : Fin 1) (0 : Fin 1))
      = (m ((c : Thread nD τ).loc main_arg0) : S64x3x4.Idx → EReal) (ValueIdx.ix3 (bOf t) (0 : Fin 3) (3 : Fin 4)) := by
  show (iblk m c 1 t : Vec Ideal S1x3x4 .f32) _ = _
  refine (iblk1_apply m c t _ (ValueIdx.ix3 (bOf t) (0 : Fin 3) (3 : Fin 4)) rfl rfl rfl).trans ?_
  rw [V_v5]
  exact v5_offset _ (bOf t) 0

/-- Row 1 of the planes block, column 3: the offset of plane 1 of batch element `t / 32`. -/
theorem offset_apply_1 (t : Fin cfg0.N) :
    View.ld (iblk m c 1 t : Vec Ideal S1x3x4 .f32) (Rect.unit ![0, 1, 3] ![1, 1, 1] inb_S1x3x4_S1x1x1_0_1_3) (ValueIdx.ix3 (0 : Fin 1) (0 : Fin 1) (0 : Fin 1))
      = (m ((c : Thread nD τ).loc main_arg0) : S64x3x4.Idx → EReal) (ValueIdx.ix3 (bOf t) (1 : Fin 3) (3 : Fin 4)) := by
  show (iblk m c 1 t : Vec Ideal S1x3x4 .f32) _ = _
  refine (iblk1_apply m c t _ (ValueIdx.ix3 (bOf t) (1 : Fin 3) (3 : Fin 4)) rfl rfl rfl).trans ?_
  rw [V_v5]
  exact v5_offset _ (bOf t) 1

/-- Row 2 of the planes block, column 3: the offset of plane 2 of batch element `t / 32`. -/
theorem offset_apply_2 (t : Fin cfg0.N) :
    View.ld (iblk m c 1 t : Vec Ideal S1x3x4 .f32) (Rect.unit ![0, 2, 3] ![1, 1, 1] inb_S1x3x4_S1x1x1_0_2_3) (ValueIdx.ix3 (0 : Fin 1) (0 : Fin 1) (0 : Fin 1))
      = (m ((c : Thread nD τ).loc main_arg0) : S64x3x4.Idx → EReal) (ValueIdx.ix3 (bOf t) (2 : Fin 3) (3 : Fin 4)) := by
  show (iblk m c 1 t : Vec Ideal S1x3x4 .f32) _ = _
  refine (iblk1_apply m c t _ (ValueIdx.ix3 (bOf t) (2 : Fin 3) (3 : Fin 4)) rfl rfl rfl).trans ?_
  rw [V_v5]
  exact v5_offset _ (bOf t) 2

/-- The table block at row `32 i + j`, column `3 k + cc`: entry `(i, j, k, cc)` of batch element `t / 32` of the grid argument. -/
theorem table_apply (t : Fin cfg0.N) (i j k : Fin 32) (cc : Fin 3) :
    tabOf (iblk m c 2 t) (ValueIdx.ix2 (⟨i.val * 32 + j.val, by have := i.isLt; have := j.isLt; omega⟩ : Fin 1024)
        (⟨k.val * 3 + cc.val, by have := k.isLt; have := cc.isLt; omega⟩ : Fin 96))
      = (m ((c : Thread nD τ).loc main_arg3) : S64x32x32x32x3.Idx → EReal) (ValueIdx.ix5 (bOf t) i j k cc) := by
  refine (ValueIdx.shapeCast_1ab_ab_apply (iblk m c 2 t : Vec Ideal S1x1024x96 .f32) shapeCasts_S1x1024x96_S1024x96 _ _).trans ?_
  refine (iblk2_apply m c t _ (ValueIdx.ix3 (bOf t) (⟨i.val * 32 + j.val, by have := i.isLt; have := j.isLt; omega⟩ : Fin 1024)
    (⟨k.val * 3 + cc.val, by have := k.isLt; have := cc.isLt; omega⟩ : Fin 96)) rfl rfl rfl).trans ?_
  rw [V_v6]
  refine shapeCast_apply _ shapeCasts_S64x32x32x32x3_S64x1024x96 _ (ValueIdx.ix5 (bOf t) i j k cc) ?_
  rw [Shape.rowMajor_val_five, Shape.rowMajor_val_three]
  show ((((t.val / 32) * 32 + i.val) * 32 + j.val) * 32 + k.val) * 3 + cc.val
    = ((t.val / 32) * 1024 + (i.val * 32 + j.val)) * 96 + (k.val * 3 + cc.val)
  omega

end Cert.KernelIdeal.Blocks
end
-- ==== Proof.Spec.lean ====
/-
  The quantity both programs compute, for ONE sample point against ONE plane.

  A plane is a unit normal `nh` and an offset `dd`; a point `x` has signed distance `x · nh + dd` to it and is
  reflected to `x − 2 (x · nh + dd) nh`. The reflected point falls in the voxel whose three coordinates are
  `⌊32 · coordinate⌋` clamped to `[0, 31]`; the grid holds, per voxel, the closest surface point `cp`, and the
  point's contribution to the loss is the Euclidean distance between the reflected point and that closest point.
  Everything is on the extended reals; the voxel coordinate is the float-to-integer conversion's 32-bit word.
-/
import Idealize.ShloMosaic.PureOps.Ideal
import Idealize.ShloMosaic.Lib.ValueIdx

noncomputable section

namespace SymDist

open Idealize.ShloMosaic

/-- The literal `2.0`. -/
def two : EReal := Ideal.ofBits .f32 0x40000000#32
/-- The literal `32.0` (voxels per unit length). -/
def res : EReal := Ideal.ofBits .f32 0x42000000#32

/-- Signed distance of the point `x` to the plane `(nh, dd)`. -/
def planeDist (x nh : Fin 3 → EReal) (dd : EReal) : EReal := (∑ d : Fin 3, x d * nh d) + dd

/-- Coordinate `c` of the point `x` reflected in the plane `(nh, dd)`. -/
def reflected (x nh : Fin 3 → EReal) (dd : EReal) (c : Fin 3) : EReal :=
  x c - (two * planeDist x nh dd) * nh c

/-- The voxel coordinate of a real coordinate, as the conversion's word: `⌊32 y⌋` clamped to `[0, 31]`. -/
def voxWord (y : EReal) : BitVec 32 :=
  Ideal.fptosi 32 (min ((31 : ℝ) : EReal) (max ((0 : ℝ) : EReal) (Ideal.liftRound Int.floor (y * res))))

/-- The voxel coordinate as an index of an axis of extent 32. -/
def vox (y : EReal) : Fin 32 := ⟨(voxWord y).toNat % 32, Nat.mod_lt _ (by norm_num)⟩

/-- Distance from the reflected point to the closest surface point stored for its voxel. -/
def pointDist (x nh : Fin 3 → EReal) (dd : EReal) (cp : Fin 32 → Fin 32 → Fin 32 → Fin 3 → EReal) : EReal :=
  Ideal.sqrt (∑ c : Fin 3,
    (reflected x nh dd c - cp (vox (reflected x nh dd 0)) (vox (reflected x nh dd 1)) (vox (reflected x nh dd 2)) c)
    * (reflected x nh dd c - cp (vox (reflected x nh dd 0)) (vox (reflected x nh dd 1)) (vox (reflected x nh dd 2)) c))

end SymDist

end
-- ==== Proof.HeadValue.lean ====
/-
  One plane's share of a block of sample points, at the ideal values, is the specification's sum of distances.

  The body's sequence of operations is cut into stages: the reflected points, their voxel words, the table row each
  point's voxel selects, one channel of the selected entry, and the sum of the distances. Each stage is read at explicit
  coordinates. The point's reflected coordinates are the specification's; the clamp's bounds are the reals 0 and 31, so
  each voxel word is the specification's; the words `32 ix + iy` and `3 iz + c` do not wrap because each voxel word
  is below 32; the lane counter compared with such a word, widened and converted, is a one-hot row of reals 1 and 0; a
  one-hot row contracted with a table picks one entry; a format change is the identity, so the table's high part is the
  table and its low part is `T − T`, which is 0 because the table is finite; the three squared differences added to
  the literal 0 are the specification's sum over the channels; and the sum over axes 1 and 2 of a `[1,2048,1]` block
  is the sum over its 2048 rows.
-/
import proofs.«118956_j35338990911546_2_alg».proof.Proof.Head
import proofs.«118956_j35338990911546_2_alg».proof.Proof.Spec
import Idealize.ShloMosaic.Lib.Pipeline.Value
import Idealize.ShloMosaic.Lib.ValueIdx
import Idealize.ShloMosaic.PureOps.Ideal.Laws

set_option synthInstance.maxSize 4096

noncomputable section

namespace Cert.KernelIdeal.Head

open Idealize.ShloMosaic Idealize.SL.Sem Cert.KernelIdeal Cert.KernelIdeal.Gen Idealize.ShloMosaic.ValueIdx
open scoped BigOperators

/-! ## The layout operations of the body, read at explicit coordinates -/

section Layout
variable {α : Type}

/-- The plane's row `[1,1,3]` viewed as a vector of three. -/
theorem cast_S1x1x3_S3 (x : S1x1x3.Idx → α) (c : Fin 3) :
    shapeCast S3 x shapeCasts_S1x1x3_S3 (ix1 c) = x (ix3 0 0 c) :=
  shapeCast_apply x shapeCasts_S1x1x3_S3 (ix1 c) (ix3 0 0 c)
    (by rewrite [Shape.rowMajor_val_three, Shape.rowMajor_val_one]; show (0 * 1 + 0) * 3 + c.val = c.val; omega)

/-- A vector of three viewed as one row. -/
theorem cast_S3_S1x3 (x : S3.Idx → α) (c : Fin 3) :
    shapeCast S1x3 x shapeCasts_S3_S1x3 (ix2 0 c) = x (ix1 c) :=
  shapeCast_apply x shapeCasts_S3_S1x3 (ix2 0 c) (ix1 c)
    (by rewrite [Shape.rowMajor_val_one, Shape.rowMajor_val_two]; show c.val = 0 * 3 + c.val; omega)

/-- A vector of 2048 viewed as a column. -/
theorem cast_S2048_S2048x1 (x : S2048.Idx → α) (r : Fin 2048) :
    shapeCast S2048x1 x shapeCasts_S2048_S2048x1 (ix2 r 0) = x (ix1 r) :=
  shapeCast_apply x shapeCasts_S2048_S2048x1 (ix2 r 0) (ix1 r)
    (by rewrite [Shape.rowMajor_val_one, Shape.rowMajor_val_two]; show r.val = r.val * 1 + 0; omega)

/-- A column viewed as a `[1,2048,1]` block. -/
theorem cast_S2048x1_S1x2048x1 (x : S2048x1.Idx → α) (r : Fin 2048) :
    shapeCast S1x2048x1 x shapeCasts_S2048x1_S1x2048x1 (ix3 0 r 0) = x (ix2 r 0) :=
  shapeCast_apply x shapeCasts_S2048x1_S1x2048x1 (ix3 0 r 0) (ix2 r 0)
    (by rewrite [Shape.rowMajor_val_two, Shape.rowMajor_val_three]; show r.val * 1 + 0 = (0 * 2048 + r.val) * 1 + 0; omega)

/-- A vector of one viewed as a `[1,1,1]` block. -/
theorem cast_S1_S1x1x1 (x : S1.Idx → α) :
    shapeCast S1x1x1 x shapeCasts_S1_S1x1x1 (ix3 0 0 0) = x (ix1 0) :=
  shapeCast_apply x shapeCasts_S1_S1x1x1 (ix3 0 0 0) (ix1 0)
    (by rewrite [Shape.rowMajor_val_one, Shape.rowMajor_val_three]; rfl)

/-- One row broadcast down the 2048 rows. -/
theorem bcast_row (x : S1x3.Idx → α) (r : Fin 2048) (c : Fin 3) :
    broadcastTo S2048x3 x broadcasts_S1x3_S2048x3 (ix2 r c) = x (ix2 0 c) :=
  broadcastTo_apply x broadcasts_S1x3_S2048x3 (ix2 r c) (ix2 0 c) (fun a => match a with
    | ⟨0, _⟩ => by show 0 = if (1 : Nat) = 1 then 0 else r.val; rw [if_pos rfl]
    | ⟨1, _⟩ => by show c.val = if (3 : Nat) = 1 then 0 else c.val; rw [if_neg (by decide)])

/-- One column broadcast along three lanes. -/
theorem bcast_col3 (x : S2048x1.Idx → α) (r : Fin 2048) (c : Fin 3) :
    broadcastTo S2048x3 x broadcasts_S2048x1_S2048x3 (ix2 r c) = x (ix2 r 0) :=
  broadcastTo_apply x broadcasts_S2048x1_S2048x3 (ix2 r c) (ix2 r 0) (fun a => match a with
    | ⟨0, _⟩ => by show r.val = if (2048 : Nat) = 1 then 0 else r.val; rw [if_neg (by decide)]
    | ⟨1, _⟩ => by show 0 = if (1 : Nat) = 1 then 0 else c.val; rw [if_pos rfl])

/-- One column broadcast along 1024 lanes. -/
theorem bcast_col1024 (x : S2048x1.Idx → α) (r : Fin 2048) (k : Fin 1024) :
    broadcastTo S2048x1024 x broadcasts_S2048x1_S2048x1024 (ix2 r k) = x (ix2 r 0) :=
  broadcastTo_apply x broadcasts_S2048x1_S2048x1024 (ix2 r k) (ix2 r 0) (fun a => match a with
    | ⟨0, _⟩ => by show r.val = if (2048 : Nat) = 1 then 0 else r.val; rw [if_neg (by decide)]
    | ⟨1, _⟩ => by show 0 = if (1 : Nat) = 1 then 0 else k.val; rw [if_pos rfl])

/-- One column broadcast along 96 lanes. -/
theorem bcast_col96 (x : S2048x1.Idx → α) (r : Fin 2048) (q : Fin 96) :
    broadcastTo S2048x96 x broadcasts_S2048x1_S2048x96 (ix2 r q) = x (ix2 r 0) :=
  broadcastTo_apply x broadcasts_S2048x1_S2048x96 (ix2 r q) (ix2 r 0) (fun a => match a with
    | ⟨0, _⟩ => by show r.val = if (2048 : Nat) = 1 then 0 else r.val; rw [if_neg (by decide)]
    | ⟨1, _⟩ => by show 0 = if (1 : Nat) = 1 then 0 else q.val; rw [if_pos rfl])

/-- Lane 0 of the three, as a column. -/
theorem slice_col0 (x : S2048x3.Idx → α) (r : Fin 2048) :
    extractStridedSlice S2048x1 ![0, 0] x slices_S2048x3_o0_0_S2048x1 (ix2 r 0) = x (ix2 r 0) :=
  extractStridedSlice_apply ![0, 0] x slices_S2048x3_o0_0_S2048x1 (ix2 r 0) (ix2 r 0) (fun a => match a with
    | ⟨0, _⟩ => by show r.val = 0 + r.val; omega
    | ⟨1, _⟩ => by show 0 = 0 + 0; omega)

/-- Lane 1 of the three, as a column. -/
theorem slice_col1 (x : S2048x3.Idx → α) (r : Fin 2048) :
    extractStridedSlice S2048x1 ![0, 1] x slices_S2048x3_o0_1_S2048x1 (ix2 r 0) = x (ix2 r 1) :=
  extractStridedSlice_apply ![0, 1] x slices_S2048x3_o0_1_S2048x1 (ix2 r 0) (ix2 r 1) (fun a => match a with
    | ⟨0, _⟩ => by show r.val = 0 + r.val; omega
    | ⟨1, _⟩ => by show 1 = 1 + 0; omega)

/-- Lane 2 of the three, as a column. -/
theorem slice_col2 (x : S2048x3.Idx → α) (r : Fin 2048) :
    extractStridedSlice S2048x1 ![0, 2] x slices_S2048x3_o0_2_S2048x1 (ix2 r 0) = x (ix2 r 2) :=
  extractStridedSlice_apply ![0, 2] x slices_S2048x3_o0_2_S2048x1 (ix2 r 0) (ix2 r 2) (fun a => match a with
    | ⟨0, _⟩ => by show r.val = 0 + r.val; omega
    | ⟨1, _⟩ => by show 2 = 2 + 0; omega)

/-- The one entry of a `[1,1,1]` block. -/
theorem extract_S1x1x1 (x : S1x1x1.Idx → α) :
    extractAt ![0, 0, 0] x inpos_S1x1x1_p0_0_0 = x (ix3 0 0 0) :=
  congrArg x (funext fun a => Fin.ext (by match a with | ⟨0, _⟩ => rfl | ⟨1, _⟩ => rfl | ⟨2, _⟩ => rfl))

end Layout

/-! ## The body's three sums -/

/-- The sum over the three lanes of each row (`vector.multi_reduction <add>` over axis 1 from the literal 0). -/
def rowSum3 (x : FVec Ideal S2048x3 .f32) : FVec Ideal S2048 .f32 :=
  multiReduction .add [1] S2048 x 0x00000000#32 reduces_S2048x3_S2048 (.inl rfl) rfl

theorem rowSum3_apply (x : FVec Ideal S2048x3 .f32) (r : Fin 2048) : rowSum3 x (ix1 r) = ∑ d : Fin 3, x (ix2 r d) := by
  unfold rowSum3
  refine (Ideal.multiReduction_add_single x 0x00000000#32 reduces_S2048x3_S2048 _ _ (ix1 r)).trans ?_
  refine Finset.sum_congr rfl fun d _ => ?_
  exact congrArg x (funext fun a => Fin.ext (by match a with | ⟨0, _⟩ => rfl | ⟨1, _⟩ => rfl))

/-- The sum over the 96 lanes of each row. -/
def rowSum96 (x : FVec Ideal S2048x96 .f32) : FVec Ideal S2048 .f32 :=
  multiReduction .add [1] S2048 x 0x00000000#32 reduces_S2048x96_S2048 (.inl rfl) rfl

theorem rowSum96_apply (x : FVec Ideal S2048x96 .f32) (r : Fin 2048) : rowSum96 x (ix1 r) = ∑ q : Fin 96, x (ix2 r q) := by
  unfold rowSum96
  refine (Ideal.multiReduction_add_single x 0x00000000#32 reduces_S2048x96_S2048 _ _ (ix1 r)).trans ?_
  refine Finset.sum_congr rfl fun q _ => ?_
  exact congrArg x (funext fun a => Fin.ext (by match a with | ⟨0, _⟩ => rfl | ⟨1, _⟩ => rfl))

/-- The indices of a `[1,2048,1]` block are its 2048 rows. -/
def blockRows : S1x2048x1.Idx ≃ Fin 2048 where
  toFun i := i 1
  invFun r := ix3 0 r 0
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv r := rfl

/-- The sum of a `[1,2048,1]` block over its axes 1 and 2. -/
def blockSum (x : FVec Ideal S1x2048x1 .f32) : FVec Ideal S1 .f32 :=
  multiReduction .add [1, 2] S1 x 0x00000000#32 reduces_S1x2048x1_S1 (.inl rfl) rfl

theorem blockSum_apply (x : FVec Ideal S1x2048x1 .f32) : blockSum x (ix1 0) = ∑ r : Fin 2048, x (ix3 0 r 0) := by
  unfold blockSum
  refine (Ideal.multiReduction_add_total x 0x00000000#32 reduces_S1x2048x1_S1
    (fun b => by match b with | ⟨0, _⟩ => rfl) _ _ (ix1 0)).trans ?_
  exact (Equiv.sum_comp blockRows.symm x).symm

/-! ## The float literals of the body -/

/-- The word `0x00000000` is the real `0`. -/
theorem lit_zero : Ideal.ofBits .f32 0x00000000#32 = ((0 : ℝ) : EReal) := by
  rw [Ideal.ofBits_zero_f32, EReal.coe_zero]

/-- The word `0x41F80000` is the real `31`. -/
theorem lit_31 : Ideal.ofBits .f32 0x41F80000#32 = ((31 : ℝ) : EReal) := by
  simp [Ideal.ofBits, Ideal.ieee, -EReal.coe_mul]; norm_num

/-! ## The reflected points -/

/-- The points of the block reflected in the plane (`%30` of the body). -/
def reflV (v4 : FVec Ideal S2048x3 .f32) (v13 : Vec Ideal S1x1x3 .f32) (v15 : Vec Ideal S1x1x1 .f32) : FVec Ideal S2048x3 .f32 :=
  have v14 : FVec Ideal S3 .f32 := shapeCast S3 v13 shapeCasts_S1x1x3_S3
  have v16 : Ideal .f32 := extractAt ![0, 0, 0] v15 inpos_S1x1x1_p0_0_0
  have v17 : FVec Ideal S1x3 .f32 := shapeCast S1x3 v14 shapeCasts_S3_S1x3
  have v18 : FVec Ideal S2048x3 .f32 := broadcastTo S2048x3 v17 broadcasts_S1x3_S2048x3
  have v19 : FVec Ideal S2048x3 .f32 := mulf v4 v18
  have v20 : FVec Ideal S2048 .f32 := rowSum3 v19
  have v21 : FVec Ideal S2048 .f32 := broadcast S2048 v16
  have v22 : FVec Ideal S2048 .f32 := addf v20 v21
  have v23 : FVec Ideal S2048x1 .f32 := shapeCast S2048x1 v22 shapeCasts_S2048_S2048x1
  have cst_11 : Ideal .f32 := Scalar.ofBits .f32 0x40000000#32
  have v24 : FVec Ideal S2048x1 .f32 := broadcast S2048x1 cst_11
  have v25 : FVec Ideal S2048x1 .f32 := mulf v24 v23
  have v26 : FVec Ideal S1x3 .f32 := shapeCast S1x3 v14 shapeCasts_S3_S1x3
  have v27 : FVec Ideal S2048x3 .f32 := broadcastTo S2048x3 v25 broadcasts_S2048x1_S2048x3
  have v28 : FVec Ideal S2048x3 .f32 := broadcastTo S2048x3 v26 broadcasts_S1x3_S2048x3
  have v29 : FVec Ideal S2048x3 .f32 := mulf v27 v28
  subf v4 v29

/-- Row `r` of the reflected points is the specification's reflected point of row `r`. -/
theorem reflV_apply (v4 : FVec Ideal S2048x3 .f32) (v13 : Vec Ideal S1x1x3 .f32) (v15 : Vec Ideal S1x1x1 .f32)
    (r : Fin 2048) (c : Fin 3) :
    reflV v4 v13 v15 (ix2 r c)
      = SymDist.reflected (fun d => v4 (ix2 r d)) (fun d => v13 (ix3 0 0 d)) (v15 (ix3 0 0 0)) c := by
  unfold reflV SymDist.reflected SymDist.planeDist SymDist.two
  simp only [subf_apply, mulf_apply, addf_apply, bcast_col3, bcast_row, cast_S3_S1x3, cast_S1x1x3_S3,
    cast_S2048_S2048x1, rowSum3_apply, broadcast_apply, extract_S1x1x1]
  rfl

/-! ## The voxel words -/

/-- The voxel coordinates of the reflected points, as 32-bit words (`%38` of the body). -/
def voxV (v30 : FVec Ideal S2048x3 .f32) : IVec S2048x3 32 :=
  have cst_12 : Ideal .f32 := Scalar.ofBits .f32 0x42000000#32
  have v31 : FVec Ideal S2048x3 .f32 := broadcast S2048x3 cst_12
  have v32 : FVec Ideal S2048x3 .f32 := mulf v30 v31
  have v33 : FVec Ideal S2048x3 .f32 := floor v32
  have cst_13 : Ideal .f32 := Scalar.ofBits .f32 0x00000000#32
  have cst_14 : Ideal .f32 := Scalar.ofBits .f32 0x41F80000#32
  have v34 : FVec Ideal S2048x3 .f32 := broadcast S2048x3 cst_13
  have v35 : FVec Ideal S2048x3 .f32 := maximumf v34 v33
  have v36 : FVec Ideal S2048x3 .f32 := broadcast S2048x3 cst_14
  have v37 : FVec Ideal S2048x3 .f32 := minimumf v36 v35
  fptosi 32 v37

/-- Each voxel word is the specification's voxel word of the coordinate. -/
theorem voxV_apply (v30 : FVec Ideal S2048x3 .f32) (i : S2048x3.Idx) : voxV v30 i = SymDist.voxWord (v30 i) := by
  unfold voxV SymDist.voxWord SymDist.res
  show Ideal.fptosi 32 (min (Ideal.ofBits .f32 0x41F80000#32) (max (Ideal.ofBits .f32 0x00000000#32)
      (Ideal.liftRound Int.floor (v30 i * Ideal.ofBits .f32 0x42000000#32)))) = _
  rw [lit_zero, lit_31]

/-! ## Words and one-hot rows -/

section Words
variable {s : Shape} {w : Nat}

/-- An integer comparison at an index compares the elements. -/
theorem cmpi_apply (p : CmpIPredicate) (x y : IVec s w) (i : s.Idx) : cmpi p x y i = IntOp.cmpi p (x i) (y i) := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A float-to-integer conversion at an index converts the element. -/
theorem fptosi_apply {φ : FTy} (x : FVec Ideal s φ) (i : s.Idx) : fptosi 32 x i = Ideal.fptosi 32 (x i) := rfl
/-- A square root at an index is the root of the element. -/
theorem sqrt_apply {φ : FTy} (x : FVec Ideal s φ) (i : s.Idx) : sqrt x i = Ideal.sqrt (x i) := rfl

end Words

/-- `32 x + y` on 32-bit words does not wrap when both are below 32. -/
theorem rowWord_toNat (x y : BitVec 32) (hx : x.toNat < 32) (hy : y.toNat < 32) :
    (IntOp.addi (IntOp.muli x 32#32) y).toNat = x.toNat * 32 + y.toNat := by
  unfold IntOp.addi IntOp.muli
  rw [BitVec.toNat_add, BitVec.toNat_mul]
  show (x.toNat * 32 % 2 ^ 32 + y.toNat) % 2 ^ 32 = _
  omega

/-- `3 z + c` on 32-bit words does not wrap when `z` is below 32 and `c` below 3. -/
theorem chanWord_toNat (z : BitVec 32) (c : Nat) (hz : z.toNat < 32) (hc : c < 3) :
    (IntOp.addi (IntOp.muli z 3#32) (BitVec.ofNat 32 c)).toNat = z.toNat * 3 + c := by
  unfold IntOp.addi IntOp.muli
  rw [BitVec.toNat_add, BitVec.toNat_mul, BitVec.toNat_ofNat]
  show (z.toNat * 3 % 2 ^ 32 + c % 2 ^ 32) % 2 ^ 32 = _
  omega

/-- The word of a number `k` below `2³²` equals a word `v` exactly when `k` is `v`'s value. -/
theorem cmpi_eq_ofNat (k : Nat) (hk : k < 2 ^ 32) (v : BitVec 32) :
    IntOp.cmpi .eq (BitVec.ofNat 32 k) v = if k = v.toNat then 1#1 else 0#1 := by
  unfold IntOp.cmpi
  by_cases h : k = v.toNat
  · rw [if_pos h, h, BitVec.ofNat_toNat, BitVec.setWidth_eq]; simp
  · rw [if_neg h]
    have hne : BitVec.ofNat 32 k ≠ v := by
      intro e; apply h; rw [← e, BitVec.toNat_ofNat, Nat.mod_eq_of_lt hk]
    have hb : (BitVec.ofNat 32 k == v) = false := beq_eq_false_iff_ne.mpr hne
    rw [hb]; rfl

/-- The comparison bit, widened to 32 bits and converted to a float, is the real `1` or `0`. -/
theorem onehot_val (k : Nat) (hk : k < 2 ^ 32) (v : BitVec 32) :
    (FloatOps.sitofp (F := Ideal) .f32 ((IntOp.cmpi .eq (BitVec.ofNat 32 k) v).setWidth 32) : EReal)
      = if k = v.toNat then 1 else 0 := by
  rw [cmpi_eq_ofNat k hk v]
  by_cases h : k = v.toNat
  · rw [if_pos h, if_pos h]
    show ((((1#1 : BitVec 1).setWidth 32).toInt : ℝ) : EReal) = 1
    have e : ((1#1 : BitVec 1).setWidth 32).toInt = 1 := by decide
    rw [e]; simp
  · rw [if_neg h, if_neg h]
    show ((((0#1 : BitVec 1).setWidth 32).toInt : ℝ) : EReal) = 0
    have e : ((0#1 : BitVec 1).setWidth 32).toInt = 0 := by decide
    rw [e]; simp

/-- A one-hot row times a column picks the column's entry (the row on the left). -/
theorem sum_onehot_mul {n : Nat} (K : Fin n) (f : Fin n → EReal) :
    ∑ k : Fin n, (if k.val = K.val then (1 : EReal) else 0) * f k = f K := by
  rw [Finset.sum_eq_single K]
  · rw [if_pos rfl, one_mul]
  · intro k _ hk; rw [if_neg (fun e => hk (Fin.ext e)), zero_mul]
  · intro h; exact absurd (Finset.mem_univ K) h

/-- A row times a one-hot row, summed, picks the row's entry (the one-hot row on the right). -/
theorem sum_mul_onehot {n : Nat} (K : Fin n) (f : Fin n → EReal) :
    ∑ k : Fin n, f k * (if k.val = K.val then (1 : EReal) else 0) = f K := by
  rw [Finset.sum_eq_single K]
  · rw [if_pos rfl, mul_one]
  · intro k _ hk; rw [if_neg (fun e => hk (Fin.ext e)), mul_zero]
  · intro h; exact absurd (Finset.mem_univ K) h

/-! ## The body's remaining stages, as functions of the earlier ones -/

/-- The table row each point's voxel selects (`%52` of the body): the one-hot rows of `32 ix + iy` against the lane
    counter, times the table's two parts, added. -/
def profV (v38 : IVec S2048x3 32) (v7 v10 : FVec Ideal S1024x96 .bf16) (v11 : IVec S2048x1024 32) : FVec Ideal S2048x96 .f32 :=
  have v39 : IVec S2048x1 32 := extractStridedSlice S2048x1 ![0, 0] v38 slices_S2048x3_o0_0_S2048x1
  have v40 : IVec S2048x1 32 := extractStridedSlice S2048x1 ![0, 1] v38 slices_S2048x3_o0_1_S2048x1
  let c32_i32 : BitVec 32 := 32#32
  have v42 : IVec S2048x1 32 := broadcast S2048x1 c32_i32
  have v43 : IVec S2048x1 32 := muli v39 v42
  have v44 : IVec S2048x1 32 := addi v43 v40
  have v45 : IVec S2048x1024 32 := broadcastTo S2048x1024 v44 broadcasts_S2048x1_S2048x1024
  have v46 : IVec S2048x1024 1 := cmpi .eq v11 v45
  have v47 : IVec S2048x1024 32 := extui 32 v46 natLt_1_32
  have v48 : FVec Ideal S2048x1024 .f32 := sitofp .f32 v47
  have v49 : FVec Ideal S2048x1024 .bf16 := truncf .bf16 v48 bitsLt_bf16_f32
  have cst_15 : FVec Ideal S2048x96 .f32 := constant S2048x96 .f32 0x00000000#32
  have v50 : FVec Ideal S2048x96 .f32 := matmul dot_S2048x1024_S1024x96_S2048x96_1_0_0_1_n_n none v49 v7 cst_15
  have cst_16 : FVec Ideal S2048x96 .f32 := constant S2048x96 .f32 0x00000000#32
  have v51 : FVec Ideal S2048x96 .f32 := matmul dot_S2048x1024_S1024x96_S2048x96_1_0_0_1_n_n none v49 v10 cst_16
  addf v50 v51

/-- One channel of the selected table entry, per point, as a column (`%64`, `%79`, `%94` of the body, for the
    channel word `cw` = 0, 1, 2): the selected row times the one-hot row of `3 iz + cw`, summed over the lanes. -/
def pickV (v38 : IVec S2048x3 32) (v52 : FVec Ideal S2048x96 .f32) (v12 : IVec S2048x96 32) (cw : BitVec 32) :
    FVec Ideal S2048x1 .f32 :=
  have v41 : IVec S2048x1 32 := extractStridedSlice S2048x1 ![0, 2] v38 slices_S2048x3_o0_2_S2048x1
  let c3_i32 : BitVec 32 := 3#32
  have v54 : IVec S2048x1 32 := broadcast S2048x1 c3_i32
  have v55 : IVec S2048x1 32 := muli v41 v54
  have v56 : IVec S2048x1 32 := broadcast S2048x1 cw
  have v57 : IVec S2048x1 32 := addi v55 v56
  have v58 : IVec S2048x96 32 := broadcastTo S2048x96 v57 broadcasts_S2048x1_S2048x96
  have v59 : IVec S2048x96 1 := cmpi .eq v12 v58
  have v60 : IVec S2048x96 32 := extui 32 v59 natLt_1_32
  have v61 : FVec Ideal S2048x96 .f32 := sitofp .f32 v60
  have v62 : FVec Ideal S2048x96 .f32 := mulf v52 v61
  have v63 : FVec Ideal S2048 .f32 := rowSum96 v62
  shapeCast S2048x1 v63 shapeCasts_S2048_S2048x1

/-- The block's sum of distances from the reflected points `v30` and the three channel columns (`%103` of the body). -/
def tailV (v30 : FVec Ideal S2048x3 .f32) (p0 p1 p2 : FVec Ideal S2048x1 .f32) : Ideal .f32 :=
  have cst_17 : Ideal .f32 := Scalar.ofBits .f32 0x00000000#32
  have v53 : FVec Ideal S2048x1 .f32 := broadcast S2048x1 cst_17
  have v65 : FVec Ideal S2048x1 .f32 := extractStridedSlice S2048x1 ![0, 0] v30 slices_S2048x3_o0_0_S2048x1
  have v66 : FVec Ideal S2048x1 .f32 := subf v65 p0
  have v67 : FVec Ideal S2048x1 .f32 := mulf v66 v66
  have v68 : FVec Ideal S2048x1 .f32 := addf v53 v67
  have v80 : FVec Ideal S2048x1 .f32 := extractStridedSlice S2048x1 ![0, 1] v30 slices_S2048x3_o0_1_S2048x1
  have v81 : FVec Ideal S2048x1 .f32 := subf v80 p1
  have v82 : FVec Ideal S2048x1 .f32 := mulf v81 v81
  have v83 : FVec Ideal S2048x1 .f32 := addf v68 v82
  have v95 : FVec Ideal S2048x1 .f32 := extractStridedSlice S2048x1 ![0, 2] v30 slices_S2048x3_o0_2_S2048x1
  have v96 : FVec Ideal S2048x1 .f32 := subf v95 p2
  have v97 : FVec Ideal S2048x1 .f32 := mulf v96 v96
  have v98 : FVec Ideal S2048x1 .f32 := addf v83 v97
  have v99 : FVec Ideal S2048x1 .f32 := sqrt v98
  have v100 : FVec Ideal S1x2048x1 .f32 := shapeCast S1x2048x1 v99 shapeCasts_S2048x1_S1x2048x1
  have v101 : FVec Ideal S1 .f32 := blockSum v100
  have v102 : FVec Ideal S1x1x1 .f32 := shapeCast S1x1x1 v101 shapeCasts_S1_S1x1x1
  extractAt ![0, 0, 0] v102 inpos_S1x1x1_p0_0_0

/-- The body's sequence of operations is these stages composed. -/
theorem headDist_stages (v4 : FVec Ideal S2048x3 .f32) (v7 v10 : FVec Ideal S1024x96 .bf16)
    (v11 : IVec S2048x1024 32) (v12 : IVec S2048x96 32) (v13 : Vec Ideal S1x1x3 .f32) (v15 : Vec Ideal S1x1x1 .f32) :
    headDist (F := Ideal) v4 v7 v10 v11 v12 v13 v15
      = tailV (reflV v4 v13 v15)
          (pickV (voxV (reflV v4 v13 v15)) (profV (voxV (reflV v4 v13 v15)) v7 v10 v11) v12 0#32)
          (pickV (voxV (reflV v4 v13 v15)) (profV (voxV (reflV v4 v13 v15)) v7 v10 v11) v12 1#32)
          (pickV (voxV (reflV v4 v13 v15)) (profV (voxV (reflV v4 v13 v15)) v7 v10 v11) v12 2#32) := rfl

/-! ## The contraction with the table, read at an entry -/

theorem lhs_dot_0 (i : S2048x96.Idx) (q : dot_S2048x1024_S1024x96_S2048x96_1_0_0_1_n_n.contr.Idx) :
    (dot_S2048x1024_S1024x96_S2048x96_1_0_0_1_n_n.lhsIdx i q 0).val = (i 0).val := by
  unfold DotDims.lhsIdx
  rw [dif_neg (show ¬(0 : Fin S2048x1024.rank) ∈ dot_S2048x1024_S1024x96_S2048x96_1_0_0_1_n_n.lhsBatch by decide), dif_pos (show (0 : Fin S2048x1024.rank) ∈ dot_S2048x1024_S1024x96_S2048x96_1_0_0_1_n_n.lhsNonContracting by decide)]
  rfl
theorem lhs_dot_1 (i : S2048x96.Idx) (q : dot_S2048x1024_S1024x96_S2048x96_1_0_0_1_n_n.contr.Idx) :
    (dot_S2048x1024_S1024x96_S2048x96_1_0_0_1_n_n.lhsIdx i q 1).val = (q ⟨0, by decide⟩).val :=
  dot_S2048x1024_S1024x96_S2048x96_1_0_0_1_n_n.lhsIdx_val_of_single rfl i q
theorem rhs_dot_0 (i : S2048x96.Idx) (q : dot_S2048x1024_S1024x96_S2048x96_1_0_0_1_n_n.contr.Idx) :
    (dot_S2048x1024_S1024x96_S2048x96_1_0_0_1_n_n.rhsIdx i q 0).val = (q ⟨0, by decide⟩).val :=
  dot_S2048x1024_S1024x96_S2048x96_1_0_0_1_n_n.rhsIdx_val_of_single rfl i q
theorem rhs_dot_1 (i : S2048x96.Idx) (q : dot_S2048x1024_S1024x96_S2048x96_1_0_0_1_n_n.contr.Idx) :
    (dot_S2048x1024_S1024x96_S2048x96_1_0_0_1_n_n.rhsIdx i q 1).val = (i 1).val := by
  unfold DotDims.rhsIdx
  rw [dif_neg (show ¬(1 : Fin S1024x96.rank) ∈ dot_S2048x1024_S1024x96_S2048x96_1_0_0_1_n_n.rhsBatch by decide), dif_pos (show (1 : Fin S1024x96.rank) ∈ dot_S2048x1024_S1024x96_S2048x96_1_0_0_1_n_n.rhsNonContracting by decide)]
  rfl

/-- The product into a zero accumulator, at entry `(r, q)`: the sum over the 1024 lanes of row times column. -/
theorem matmul_rq (L : FVec Ideal S2048x1024 .bf16) (R : FVec Ideal S1024x96 .bf16) (r : Fin 2048) (q : Fin 96) :
    matmul dot_S2048x1024_S1024x96_S2048x96_1_0_0_1_n_n none L R (constant S2048x96 .f32 0x00000000#32) (ix2 r q)
      = ∑ k : Fin 1024, L (ix2 r k) * R (ix2 k q) := by
  show FloatOps.matmul dot_S2048x1024_S1024x96_S2048x96_1_0_0_1_n_n none L R (constant S2048x96 .f32 0x00000000#32) (ix2 r q) = _
  rw [Ideal.matmul_constant_zero_apply, ← Equiv.sum_comp (contrEquiv1 dot_S2048x1024_S1024x96_S2048x96_1_0_0_1_n_n 1024 rfl rfl).symm]
  refine Finset.sum_congr rfl fun k _ => ?_
  have hk := contrEquiv1_symm_val dot_S2048x1024_S1024x96_S2048x96_1_0_0_1_n_n 1024 rfl rfl k
  have el : dot_S2048x1024_S1024x96_S2048x96_1_0_0_1_n_n.lhsIdx (ix2 r q) ((contrEquiv1 dot_S2048x1024_S1024x96_S2048x96_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S2048x1024_S1024x96_S2048x96_1_0_0_1_n_n.rhsIdx (ix2 r q) ((contrEquiv1 dot_S2048x1024_S1024x96_S2048x96_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- The selected table row: where `32 ix + iy` is `K`, the profile of point `r` is row `K` of the table. The high
    part of the table is the table itself (a format change is the identity) and the low part is `T − T = 0`, the
    table being finite. -/
theorem profV_apply (v38 : IVec S2048x3 32) (T : FVec Ideal S1024x96 .f32) (hT : ∀ i, ∃ t : ℝ, T i = (t : EReal))
    (r : Fin 2048) (q : Fin 96) (K : Fin 1024)
    (hK : (IntOp.addi (IntOp.muli (v38 (ix2 r 0)) 32#32) (v38 (ix2 r 1))).toNat = K.val) :
    profV v38 (truncf .bf16 T bitsLt_bf16_f32) (truncf .bf16 (subf T T) bitsLt_bf16_f32)
        (iota .tc S2048x1024 32 [1] iota_S2048x1024_d1_w32) (ix2 r q) = T (ix2 K q) := by
  unfold profV
  simp only [addf_apply, matmul_rq, truncf_apply, subf_apply, sitofp_apply, extui_apply, cmpi_apply, bcast_col1024,
    addi_apply, muli_apply, slice_col0, slice_col1, broadcast_apply]
  have hm : ∀ k : Fin 1024,
      FloatOps.sitofp (F := Ideal) .f32
          (BitVec.setWidth 32 (IntOp.cmpi .eq (iota .tc S2048x1024 32 [1] iota_S2048x1024_d1_w32 (ix2 r k))
            (IntOp.addi (IntOp.muli (v38 (ix2 r 0)) 32#32) (v38 (ix2 r 1)))))
        = if k.val = K.val then (1 : EReal) else 0 := by
    intro k
    rw [iota_single_apply .tc S2048x1024 32 1 iota_S2048x1024_d1_w32 (ix2 r k)]
    show FloatOps.sitofp (F := Ideal) .f32 (BitVec.setWidth 32 (IntOp.cmpi .eq (BitVec.ofNat 32 k.val) _)) = _
    rw [onehot_val k.val (by have := k.isLt; omega), hK]
  have h0 : ∀ k : Fin 1024, T (ix2 k q) - T (ix2 k q) = 0 := by
    intro k
    obtain ⟨t, ht⟩ := hT (ix2 k q)
    rw [ht, ← EReal.coe_sub, sub_self, EReal.coe_zero]
  simp only [hm, h0, mul_zero, Finset.sum_const_zero, add_zero]
  exact sum_onehot_mul K (fun k => T (ix2 k q))

/-- One channel of the selected entry: where `3 iz + c` is `Q`, the pick of point `r` is lane `Q` of its profile. -/
theorem pickV_apply (v38 : IVec S2048x3 32) (v52 : FVec Ideal S2048x96 .f32) (c : Nat) (r : Fin 2048) (Q : Fin 96)
    (hQ : (IntOp.addi (IntOp.muli (v38 (ix2 r 2)) 3#32) (BitVec.ofNat 32 c)).toNat = Q.val) :
    pickV v38 v52 (iota .tc S2048x96 32 [1] iota_S2048x96_d1_w32) (BitVec.ofNat 32 c) (ix2 r 0) = v52 (ix2 r Q) := by
  unfold pickV
  simp only [cast_S2048_S2048x1, rowSum96_apply, mulf_apply, sitofp_apply, extui_apply, cmpi_apply, bcast_col96,
    addi_apply, muli_apply, slice_col2, broadcast_apply]
  have hm : ∀ k : Fin 96,
      FloatOps.sitofp (F := Ideal) .f32
          (BitVec.setWidth 32 (IntOp.cmpi .eq (iota .tc S2048x96 32 [1] iota_S2048x96_d1_w32 (ix2 r k))
            (IntOp.addi (IntOp.muli (v38 (ix2 r 2)) 3#32) (BitVec.ofNat 32 c))))
        = if k.val = Q.val then (1 : EReal) else 0 := by
    intro k
    rw [iota_single_apply .tc S2048x96 32 1 iota_S2048x96_d1_w32 (ix2 r k)]
    show FloatOps.sitofp (F := Ideal) .f32 (BitVec.setWidth 32 (IntOp.cmpi .eq (BitVec.ofNat 32 k.val) _)) = _
    rw [onehot_val k.val (by have := k.isLt; omega), hQ]
  simp only [hm]
  exact sum_mul_onehot Q (fun k => v52 (ix2 r k))

/-- The block's sum: over the 2048 points, the root of the three channels' squared differences. -/
theorem tailV_eq (v30 : FVec Ideal S2048x3 .f32) (p0 p1 p2 : FVec Ideal S2048x1 .f32) :
    tailV v30 p0 p1 p2
      = ∑ r : Fin 2048, Ideal.sqrt
          ((v30 (ix2 r 0) - p0 (ix2 r 0)) * (v30 (ix2 r 0) - p0 (ix2 r 0))
            + (v30 (ix2 r 1) - p1 (ix2 r 0)) * (v30 (ix2 r 1) - p1 (ix2 r 0))
            + (v30 (ix2 r 2) - p2 (ix2 r 0)) * (v30 (ix2 r 2) - p2 (ix2 r 0))) := by
  unfold tailV
  simp only [extract_S1x1x1, cast_S1_S1x1x1, blockSum_apply, cast_S2048x1_S1x2048x1, sqrt_apply, addf_apply,
    mulf_apply, subf_apply, slice_col0, slice_col1, slice_col2, broadcast_apply]
  refine Finset.sum_congr rfl fun r _ => ?_
  refine congrArg Ideal.sqrt ?_
  show Ideal.ofBits .f32 0x00000000#32 + _ + _ + _ = _
  rw [Ideal.ofBits_zero_f32, zero_add]

/-! ## One plane's share of the block -/

/-- At the ideal values, with the table block split as itself and `T − T` and the two lane counters the iotas the body
    builds, the body's value is the sum over the block's points of the specification's distance, the closest-point
    grid read from the table at row `32 ix + iy` and lane `3 iz + c`. -/
theorem headDist_eq (hv : ∀ y, (SymDist.voxWord y).toNat < 32)
    (v4 : FVec Ideal S2048x3 .f32) (T : FVec Ideal S1024x96 .f32) (hT : ∀ i, ∃ t : ℝ, T i = (t : EReal))
    (v13 : Vec Ideal S1x1x3 .f32) (v15 : Vec Ideal S1x1x1 .f32) :
    headDist (F := Ideal) v4 (truncf .bf16 T bitsLt_bf16_f32) (truncf .bf16 (subf T T) bitsLt_bf16_f32)
        (iota .tc S2048x1024 32 [1] iota_S2048x1024_d1_w32) (iota .tc S2048x96 32 [1] iota_S2048x96_d1_w32) v13 v15
      = ∑ r : Fin 2048, SymDist.pointDist (fun d => v4 (ix2 r d)) (fun d => v13 (ix3 0 0 d)) (v15 (ix3 0 0 0))
          (fun i j k c => T (ix2 ⟨i.val * 32 + j.val, by omega⟩ ⟨k.val * 3 + c.val, by omega⟩)) := by
  rw [headDist_stages, tailV_eq]
  refine Finset.sum_congr rfl fun r _ => ?_
  -- the reflected point of row `r` and its voxel words
  have h30 : ∀ c : Fin 3, reflV v4 v13 v15 (ix2 r c)
      = SymDist.reflected (fun d => v4 (ix2 r d)) (fun d => v13 (ix3 0 0 d)) (v15 (ix3 0 0 0)) c :=
    fun c => reflV_apply v4 v13 v15 r c
  have h38 : ∀ c : Fin 3, voxV (reflV v4 v13 v15) (ix2 r c)
      = SymDist.voxWord (SymDist.reflected (fun d => v4 (ix2 r d)) (fun d => v13 (ix3 0 0 d)) (v15 (ix3 0 0 0)) c) :=
    fun c => by rw [voxV_apply, h30]
  have hvox : ∀ y, (SymDist.vox y).val = (SymDist.voxWord y).toNat := fun y => Nat.mod_eq_of_lt (hv y)
  -- the table row `32 ix + iy` and, per channel, the lane `3 iz + c`
  have hK : (IntOp.addi (IntOp.muli (voxV (reflV v4 v13 v15) (ix2 r 0)) 32#32) (voxV (reflV v4 v13 v15) (ix2 r 1))).toNat
      = (SymDist.vox (SymDist.reflected (fun d => v4 (ix2 r d)) (fun d => v13 (ix3 0 0 d)) (v15 (ix3 0 0 0)) 0)).val * 32 + (SymDist.vox (SymDist.reflected (fun d => v4 (ix2 r d)) (fun d => v13 (ix3 0 0 d)) (v15 (ix3 0 0 0)) 1)).val := by
    rw [h38 0, h38 1, rowWord_toNat _ _ (hv _) (hv _), hvox, hvox]
  have hQ : ∀ c : Fin 3, (IntOp.addi (IntOp.muli (voxV (reflV v4 v13 v15) (ix2 r 2)) 3#32) (BitVec.ofNat 32 c.val)).toNat
      = (SymDist.vox (SymDist.reflected (fun d => v4 (ix2 r d)) (fun d => v13 (ix3 0 0 d)) (v15 (ix3 0 0 0)) 2)).val * 3 + c.val := by
    intro c
    rw [h38 2, chanWord_toNat _ _ (hv _) c.isLt, hvox]
  have hp : ∀ c : Fin 3,
      pickV (voxV (reflV v4 v13 v15)) (profV (voxV (reflV v4 v13 v15)) (truncf .bf16 T bitsLt_bf16_f32) (truncf .bf16 (subf T T) bitsLt_bf16_f32) (iota .tc S2048x1024 32 [1] iota_S2048x1024_d1_w32)) (iota .tc S2048x96 32 [1] iota_S2048x96_d1_w32) (BitVec.ofNat 32 c.val) (ix2 r 0)
        = T (ix2 ⟨(SymDist.vox (SymDist.reflected (fun d => v4 (ix2 r d)) (fun d => v13 (ix3 0 0 d)) (v15 (ix3 0 0 0)) 0)).val * 32 + (SymDist.vox (SymDist.reflected (fun d => v4 (ix2 r d)) (fun d => v13 (ix3 0 0 d)) (v15 (ix3 0 0 0)) 1)).val, by omega⟩
            ⟨(SymDist.vox (SymDist.reflected (fun d => v4 (ix2 r d)) (fun d => v13 (ix3 0 0 d)) (v15 (ix3 0 0 0)) 2)).val * 3 + c.val, by omega⟩) := by
    intro c
    rw [pickV_apply (voxV (reflV v4 v13 v15)) (profV (voxV (reflV v4 v13 v15)) (truncf .bf16 T bitsLt_bf16_f32) (truncf .bf16 (subf T T) bitsLt_bf16_f32) (iota .tc S2048x1024 32 [1] iota_S2048x1024_d1_w32)) c.val r ⟨(SymDist.vox (SymDist.reflected (fun d => v4 (ix2 r d)) (fun d => v13 (ix3 0 0 d)) (v15 (ix3 0 0 0)) 2)).val * 3 + c.val, by omega⟩ (hQ c)]
    exact profV_apply (voxV (reflV v4 v13 v15)) T hT r _ ⟨(SymDist.vox (SymDist.reflected (fun d => v4 (ix2 r d)) (fun d => v13 (ix3 0 0 d)) (v15 (ix3 0 0 0)) 0)).val * 32 + (SymDist.vox (SymDist.reflected (fun d => v4 (ix2 r d)) (fun d => v13 (ix3 0 0 d)) (v15 (ix3 0 0 0)) 1)).val, by omega⟩ hK
  have hp0 : pickV (voxV (reflV v4 v13 v15)) (profV (voxV (reflV v4 v13 v15)) (truncf .bf16 T bitsLt_bf16_f32) (truncf .bf16 (subf T T) bitsLt_bf16_f32) (iota .tc S2048x1024 32 [1] iota_S2048x1024_d1_w32)) (iota .tc S2048x96 32 [1] iota_S2048x96_d1_w32) 0#32 (ix2 r 0) = _ := hp 0
  have hp1 : pickV (voxV (reflV v4 v13 v15)) (profV (voxV (reflV v4 v13 v15)) (truncf .bf16 T bitsLt_bf16_f32) (truncf .bf16 (subf T T) bitsLt_bf16_f32) (iota .tc S2048x1024 32 [1] iota_S2048x1024_d1_w32)) (iota .tc S2048x96 32 [1] iota_S2048x96_d1_w32) 1#32 (ix2 r 0) = _ := hp 1
  have hp2 : pickV (voxV (reflV v4 v13 v15)) (profV (voxV (reflV v4 v13 v15)) (truncf .bf16 T bitsLt_bf16_f32) (truncf .bf16 (subf T T) bitsLt_bf16_f32) (iota .tc S2048x1024 32 [1] iota_S2048x1024_d1_w32)) (iota .tc S2048x96 32 [1] iota_S2048x96_d1_w32) 2#32 (ix2 r 0) = _ := hp 2
  rw [hp0, hp1, hp2, h30 0, h30 1, h30 2]
  unfold SymDist.pointDist
  rw [Fin.sum_univ_three]

end Cert.KernelIdeal.Head

end
-- ==== Proof.RefPoint.lean ====
/-
  The reference program's per-point distance, read at one batch element, one plane and one sample point,
  is the distance of the specification: the point is reflected in the plane, the reflected point's voxel is
  looked up in the grid of closest surface points, and the Euclidean distance between the two is taken.
-/
import proofs.«118956_j35338990911546_2_alg».proof.Proof.Gen.ReferenceIdeal.Read
import proofs.«118956_j35338990911546_2_alg».proof.Proof.Spec

noncomputable section

namespace Cert.ReferenceIdeal.RefPoint

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2 ix3 ix4 ix5)

section Stages

variable (x0 : (⟨S64x3x4, .f32⟩ : BufTy).Contents (Elt Ideal)) (x1 : (⟨S64x65536x3, .f32⟩ : BufTy).Contents (Elt Ideal))
  (x3 : (⟨S64x32x32x32x3, .f32⟩ : BufTy).Contents (Elt Ideal))
  (b : Fin 64) (h : Fin 3) (n : Fin 65536) (c : Fin 3)

/-- The points broadcast over the planes: entry `(b, h, n, c)` is coordinate `c` of point `n` of batch element `b`. -/
theorem v18_at : val_main_v18 (F := Ideal) x1 (ix4 b h n c) = x1 (ix3 b n c) := by
  rw [val_main_v18_apply, val_main_v10_apply]
  exact congrArg x1 (funext fun a => Fin.ext (by match a with | ⟨0, _⟩ => rfl | ⟨1, _⟩ => rfl | ⟨2, _⟩ => rfl))

/-- The unit normals broadcast over the points: entry `(b, h, n, c)` is coordinate `c` of the normal of plane `h`. -/
theorem v16_at : val_main_v16 (F := Ideal) x0 (ix4 b h n c) = val_main_v3 (F := Ideal) x0 (ix3 b h c) := by
  rw [val_main_v16_apply, val_main_v14_apply]
  exact congrArg (val_main_v3 (F := Ideal) x0) (funext fun a => Fin.ext (by match a with | ⟨0, _⟩ => rfl | ⟨1, _⟩ => rfl | ⟨2, _⟩ => rfl))

/-- The plane offsets broadcast over the points: entry `(b, h, n)` is the fourth entry of plane `h`'s row. -/
theorem v8_at : val_main_v8 (F := Ideal) x0 (ix3 b h n) = x0 (ix3 b h 3) := by
  rw [val_main_v8_apply, val_main_v7_apply, val_main_v5_apply, val_main_v4_apply]
  refine congrArg x0 (funext fun a => Fin.ext ?_)
  have hb := b.isLt
  have hh := h.isLt
  match a with
  | ⟨0, _⟩ => show (b.val * 3 + h.val) / 3 = b.val; omega
  | ⟨1, _⟩ => show (b.val * 3 + h.val) / 1 % 3 = h.val; omega
  | ⟨2, _⟩ => rfl

/-- The signed distance of point `n` to plane `h`: the contraction of the normal with the point, plus the offset. -/
theorem v9_at : val_main_v9 (F := Ideal) x0 x1 (ix3 b h n)
    = SymDist.planeDist (fun d => x1 (ix3 b n d)) (fun d => val_main_v3 (F := Ideal) x0 (ix3 b h d)) (x0 (ix3 b h 3)) := by
  rw [val_main_v9_apply, val_main_v6_apply, v8_at]
  show _ + _ = _ + _
  refine congrArg (· + _) (Finset.sum_congr rfl fun k _ => ?_)
  rw [mul_comm]
  refine congrArg₂ (· * ·) (congrArg x1 (funext fun a => Fin.ext ?_)) (congrArg (val_main_v3 (F := Ideal) x0) (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- Stage %19 is the reflected point. -/
theorem v19_at : val_main_v19 (F := Ideal) x0 x1 (ix4 b h n c)
    = SymDist.reflected (fun d => x1 (ix3 b n d)) (fun d => val_main_v3 (F := Ideal) x0 (ix3 b h d)) (x0 (ix3 b h 3)) c := by
  rw [val_main_v19_apply, val_main_v17_apply, v18_at, v16_at, val_main_v15_apply, val_main_v13_apply, val_main_v12_apply,
    val_main_cst_apply, val_main_v11_apply]
  have e : idx_main_v11 (idx_main_v15 (ix4 b h n c)) = ix3 b h n :=
    funext fun a => Fin.ext (by match a with | ⟨0, _⟩ => rfl | ⟨1, _⟩ => rfl | ⟨2, _⟩ => rfl)
  rw [e, v9_at]
  rfl

/-- The lower clip bound, converted from the integer constant `0`, is the real `0`. -/
theorem clipLo_eq : (FloatOps.sitofp (F := Ideal) .f32 (0#32 : BitVec 32) : EReal) = ((0 : ℝ) : EReal) := by
  show (((0#32 : BitVec 32).toInt : ℝ) : EReal) = _
  norm_num

/-- The upper clip bound, converted from the integer constant `31`, is the real `31`. -/
theorem clipHi_eq : (FloatOps.sitofp (F := Ideal) .f32 (31#32 : BitVec 32) : EReal) = ((31 : ℝ) : EReal) := by
  show (((31#32 : BitVec 32).toInt : ℝ) : EReal) = _
  have : (31#32 : BitVec 32).toInt = 31 := by decide
  rw [this]; norm_num

/-- Stage %24 is the voxel coordinate's word of the reflected point's coordinate. -/
theorem v24_at : val_main_v24 (F := Ideal) x0 x1 (ix4 b h n c)
    = SymDist.voxWord (SymDist.reflected (fun d => x1 (ix3 b n d)) (fun d => val_main_v3 (F := Ideal) x0 (ix3 b h d)) (x0 (ix3 b h 3)) c) := by
  rw [val_main_v24_apply, val_main_v23_apply, val_main_call1_v4_apply, val_main_call1_v3_apply, val_main_c_1_apply,
    val_main_call1_v2_apply, val_main_call1_v1_apply, val_main_call1_v0_apply, val_main_c_apply, val_main_v22_apply,
    val_main_v21_apply, val_main_v20_apply, val_main_cst_0_apply, v19_at, clipLo_eq, clipHi_eq]
  rfl

/-- A word below 32 is not negative, so "add 32 to a negative index" leaves it as it is. -/
theorem select_nonneg (w : BitVec 32) (hw : w.toNat < 32) :
    Scalar.select (IntOp.cmpi .slt w 0#32) (IntOp.addi w 32#32) w = w := by
  have hi : w.toInt = (w.toNat : Int) := BitVec.toInt_eq_toNat_of_lt (by omega)
  have hs : w.slt 0#32 = false := by
    simp only [BitVec.slt, hi, BitVec.toInt_zero, decide_eq_false_iff_not, not_lt]
    exact Int.natCast_nonneg _
  show (if BitVec.ofBool (w.slt 0#32) = 1#1 then _ else _) = _
  rw [hs]; rfl

/-- The index of entry `(b, h, n, c)` of stage %24 behind the slice and the reshape that pick coordinate `c`. -/
theorem idx26_eq : idx_main_v25 (idx_main_v26 (ix3 b h n)) = ix4 b h n (0 : Fin 3) := by
  refine funext fun a => Fin.ext ?_
  have hb := b.isLt
  have hh := h.isLt
  have hn := n.isLt
  match a with
  | ⟨0, _⟩ => show ((b.val * 3 + h.val) * 65536 + n.val) / 196608 = b.val; omega
  | ⟨1, _⟩ => show ((b.val * 3 + h.val) * 65536 + n.val) / 65536 % 3 = h.val; omega
  | ⟨2, _⟩ => show ((b.val * 3 + h.val) * 65536 + n.val) / 1 % 65536 = n.val; omega
  | ⟨3, _⟩ => rfl
theorem idx28_eq : idx_main_v27 (idx_main_v28 (ix3 b h n)) = ix4 b h n (1 : Fin 3) := by
  refine funext fun a => Fin.ext ?_
  have hb := b.isLt
  have hh := h.isLt
  have hn := n.isLt
  match a with
  | ⟨0, _⟩ => show ((b.val * 3 + h.val) * 65536 + n.val) / 196608 = b.val; omega
  | ⟨1, _⟩ => show ((b.val * 3 + h.val) * 65536 + n.val) / 65536 % 3 = h.val; omega
  | ⟨2, _⟩ => show ((b.val * 3 + h.val) * 65536 + n.val) / 1 % 65536 = n.val; omega
  | ⟨3, _⟩ => rfl
theorem idx30_eq : idx_main_v29 (idx_main_v30 (ix3 b h n)) = ix4 b h n (2 : Fin 3) := by
  refine funext fun a => Fin.ext ?_
  have hb := b.isLt
  have hh := h.isLt
  have hn := n.isLt
  match a with
  | ⟨0, _⟩ => show ((b.val * 3 + h.val) * 65536 + n.val) / 196608 = b.val; omega
  | ⟨1, _⟩ => show ((b.val * 3 + h.val) * 65536 + n.val) / 65536 % 3 = h.val; omega
  | ⟨2, _⟩ => show ((b.val * 3 + h.val) * 65536 + n.val) / 1 % 65536 = n.val; omega
  | ⟨3, _⟩ => rfl

/-- Abbreviation: the reflected point of the specification at `(b, h, n)`. -/
abbrev reflPt : Fin 3 → EReal :=
  SymDist.reflected (fun d => x1 (ix3 b n d)) (fun d => val_main_v3 (F := Ideal) x0 (ix3 b h d)) (x0 (ix3 b h 3))

/-- Off the joined axis a piece of the concatenation is read at the result's own coordinates. -/
theorem piece_off_axis (j : S64x3x65536x3.Idx) (a : Fin S64x3x65536x1.rank) (ha : a.cast (rfl : S64x3x65536x1.rank = S64x3x65536x3.rank) ≠ (3 : Fin 4)) :
    ((ix4 (j 0) (j 1) (j 2) (0 : Fin 1) : S64x3x65536x1.Idx) a).val = (j (a.cast rfl)).val := by
  match a with
  | ⟨0, _⟩ => rfl
  | ⟨1, _⟩ => rfl
  | ⟨2, _⟩ => rfl
  | ⟨3, _⟩ => exact absurd (Fin.ext rfl) ha

/-- A word below 32, read as a signed integer and clamped into `[0, 31]`, is the word itself (reduced modulo 32). -/
theorem clamp_word (w : BitVec 32) (hw : w.toNat < 32) : min w.toInt.toNat 31 = w.toNat % 32 := by
  have hi : w.toInt = (w.toNat : Int) := BitVec.toInt_eq_toNat_of_lt (by omega)
  rw [hi]; omega

variable (hv : ∀ y, (SymDist.voxWord y).toNat < 32)
include hv

/-- Stage %35: the first voxel coordinate's word. -/
theorem v35_at : val_main_v35 (F := Ideal) x0 x1 (ix3 b h n) = SymDist.voxWord (reflPt x0 x1 b h n 0) := by
  rw [val_main_v35_apply, val_main_v32_apply, val_main_v34_apply, val_main_v31_apply, val_main_c_2_apply,
    val_main_v33_apply, val_main_c_3_apply, val_main_v26_apply, val_main_v25_apply, idx26_eq, v24_at]
  exact select_nonneg _ (hv _)
/-- Stage %40: the second voxel coordinate's word. -/
theorem v40_at : val_main_v40 (F := Ideal) x0 x1 (ix3 b h n) = SymDist.voxWord (reflPt x0 x1 b h n 1) := by
  rw [val_main_v40_apply, val_main_v37_apply, val_main_v39_apply, val_main_v36_apply, val_main_c_4_apply,
    val_main_v38_apply, val_main_c_5_apply, val_main_v28_apply, val_main_v27_apply, idx28_eq, v24_at]
  exact select_nonneg _ (hv _)
/-- Stage %45: the third voxel coordinate's word. -/
theorem v45_at : val_main_v45 (F := Ideal) x0 x1 (ix3 b h n) = SymDist.voxWord (reflPt x0 x1 b h n 2) := by
  rw [val_main_v45_apply, val_main_v42_apply, val_main_v44_apply, val_main_v41_apply, val_main_c_6_apply,
    val_main_v43_apply, val_main_c_7_apply, val_main_v30_apply, val_main_v29_apply, idx30_eq, v24_at]
  exact select_nonneg _ (hv _)

omit hv in
/-- The three index-word arrays that stage %49 joins along the last axis. -/
abbrev pieces : List ((s : Shape) × (s.Idx → BitVec 32)) :=
  [⟨S64x3x65536x1, val_main_v46 (F := Ideal) x0 x1⟩, ⟨S64x3x65536x1, val_main_v47 (F := Ideal) x0 x1⟩,
    ⟨S64x3x65536x1, val_main_v48 (F := Ideal) x0 x1⟩]

/-- Stage %49, the three index words side by side: entry `(b, h, n, c)` is the word of voxel coordinate `c`. -/
theorem v49_at : val_main_v49 (F := Ideal) x0 x1 (ix4 b h n c) = SymDist.voxWord (reflPt x0 x1 b h n c) := by
  unfold val_main_v49
  match c with
  | ⟨0, hc⟩ =>
    refine (concatenate_apply_piece (t := S64x3x65536x3) (3 : Fin 4) (pieces x0 x1) concatenates_S64x3x65536x1_S64x3x65536x1_S64x3x65536x1_S64x3x65536x3_d3
      (ix4 b h n ⟨0, hc⟩) 0 (by show (0 : Nat) < 3; decide) S64x3x65536x1 (val_main_v46 (F := Ideal) x0 x1) rfl rfl 0 rfl
      (ix4 b h n (0 : Fin 1)) (piece_off_axis (ix4 b h n ⟨0, hc⟩)) rfl).trans ?_
    have e : idx_main_v46 (ix4 b h n (0 : Fin 1)) = ix3 b h n :=
      funext fun a => Fin.ext (by match a with | ⟨0, _⟩ => rfl | ⟨1, _⟩ => rfl | ⟨2, _⟩ => rfl)
    rw [val_main_v46_apply, e]
    exact v35_at x0 x1 b h n hv
  | ⟨1, hc⟩ =>
    refine (concatenate_apply_piece (t := S64x3x65536x3) (3 : Fin 4) (pieces x0 x1) concatenates_S64x3x65536x1_S64x3x65536x1_S64x3x65536x1_S64x3x65536x3_d3
      (ix4 b h n ⟨1, hc⟩) 1 (by show (1 : Nat) < 3; decide) S64x3x65536x1 (val_main_v47 (F := Ideal) x0 x1) rfl rfl 1 rfl
      (ix4 b h n (0 : Fin 1)) (piece_off_axis (ix4 b h n ⟨1, hc⟩)) rfl).trans ?_
    have e : idx_main_v47 (ix4 b h n (0 : Fin 1)) = ix3 b h n :=
      funext fun a => Fin.ext (by match a with | ⟨0, _⟩ => rfl | ⟨1, _⟩ => rfl | ⟨2, _⟩ => rfl)
    rw [val_main_v47_apply, e]
    exact v40_at x0 x1 b h n hv
  | ⟨2, hc⟩ =>
    refine (concatenate_apply_piece (t := S64x3x65536x3) (3 : Fin 4) (pieces x0 x1) concatenates_S64x3x65536x1_S64x3x65536x1_S64x3x65536x1_S64x3x65536x3_d3
      (ix4 b h n ⟨2, hc⟩) 2 (by show (2 : Nat) < 3; decide) S64x3x65536x1 (val_main_v48 (F := Ideal) x0 x1) rfl rfl 2 rfl
      (ix4 b h n (0 : Fin 1)) (piece_off_axis (ix4 b h n ⟨2, hc⟩)) rfl).trans ?_
    have e : idx_main_v48 (ix4 b h n (0 : Fin 1)) = ix3 b h n :=
      funext fun a => Fin.ext (by match a with | ⟨0, _⟩ => rfl | ⟨1, _⟩ => rfl | ⟨2, _⟩ => rfl)
    rw [val_main_v48_apply, e]
    exact v45_at x0 x1 b h n hv

omit hv in
/-- The gather of stage %50 read at `(b, h, n, c)`: batch element `b` of the grid, at the voxel whose three coordinates are
    the start indices `idx (b, h, n, 0..2)` read signed and clamped into `[0, 31]`, component `c`. On the batching
    axis the operand index is the result's batch coordinate; on each of the three collapsed axes it is the clamped
    start index; on the last axis it is the result's offset coordinate. -/
theorem gather_at (x3 : (⟨S64x32x32x32x3, .f32⟩ : BufTy).Contents (Elt Ideal)) (idx : IVec S64x3x65536x3 32)
    (b : Fin 64) (h : Fin 3) (n : Fin 65536) (c : Fin 3) :
    Host.gather gather_S64x32x32x32x3_S64x3x65536x3_S64x3x65536x3_3_123_0_0_123_3_11113 x3 idx (ix4 b h n c)
      = x3 (ix5 b (⟨min (idx (ix4 b h n 0)).toInt.toNat 31, by omega⟩ : Fin 32)
          (⟨min (idx (ix4 b h n 1)).toInt.toNat 31, by omega⟩ : Fin 32)
          (⟨min (idx (ix4 b h n 2)).toInt.toNat 31, by omega⟩ : Fin 32) c) := by
  unfold Host.gather
  congr 1
  funext a
  refine Fin.ext ?_
  match a with
  | ⟨0, _⟩ =>
    show gather_S64x32x32x32x3_S64x3x65536x3_S64x3x65536x3_3_123_0_0_123_3_11113.start (ix4 b h n c) idx 0
      + gather_S64x32x32x32x3_S64x3x65536x3_S64x3x65536x3_3_123_0_0_123_3_11113.batchCoord (ix4 b h n c) 0
      + gather_S64x32x32x32x3_S64x3x65536x3_S64x3x65536x3_3_123_0_0_123_3_11113.offCoord (ix4 b h n c) 0 = b.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show gather_S64x32x32x32x3_S64x3x65536x3_S64x3x65536x3_3_123_0_0_123_3_11113.start (ix4 b h n c) idx 1
      + gather_S64x32x32x32x3_S64x3x65536x3_S64x3x65536x3_3_123_0_0_123_3_11113.batchCoord (ix4 b h n c) 1
      + gather_S64x32x32x32x3_S64x3x65536x3_S64x3x65536x3_3_123_0_0_123_3_11113.offCoord (ix4 b h n c) 1 = min (idx (ix4 b h n 0)).toInt.toNat 31
    rw [GatherDims.batchCoord_eq_zero _ _ _ (by decide), GatherDims.offCoord_eq_zero _ _ _ (by decide), Nat.add_zero]
    unfold GatherDims.start
    rw [dif_pos (by decide)]
    have hsi : gather_S64x32x32x32x3_S64x3x65536x3_S64x3x65536x3_3_123_0_0_123_3_11113.siIdx (ix4 b h n c)
        ⟨List.idxOf (1 : Fin 5) gather_S64x32x32x32x3_S64x3x65536x3_S64x3x65536x3_3_123_0_0_123_3_11113.startIndexMap,
          List.idxOf_lt_length_iff.2 (by decide)⟩ = ix4 b h n 0 := by
      funext a'; refine Fin.ext ?_
      match a' with
      | ⟨0, _⟩ => rfl
      | ⟨1, _⟩ => rfl
      | ⟨2, _⟩ => rfl
      | ⟨3, _⟩ => rfl
    rw [hsi]
    rfl
  | ⟨2, _⟩ =>
    show gather_S64x32x32x32x3_S64x3x65536x3_S64x3x65536x3_3_123_0_0_123_3_11113.start (ix4 b h n c) idx 2
      + gather_S64x32x32x32x3_S64x3x65536x3_S64x3x65536x3_3_123_0_0_123_3_11113.batchCoord (ix4 b h n c) 2
      + gather_S64x32x32x32x3_S64x3x65536x3_S64x3x65536x3_3_123_0_0_123_3_11113.offCoord (ix4 b h n c) 2 = min (idx (ix4 b h n 1)).toInt.toNat 31
    rw [GatherDims.batchCoord_eq_zero _ _ _ (by decide), GatherDims.offCoord_eq_zero _ _ _ (by decide), Nat.add_zero]
    unfold GatherDims.start
    rw [dif_pos (by decide)]
    have hsi : gather_S64x32x32x32x3_S64x3x65536x3_S64x3x65536x3_3_123_0_0_123_3_11113.siIdx (ix4 b h n c)
        ⟨List.idxOf (2 : Fin 5) gather_S64x32x32x32x3_S64x3x65536x3_S64x3x65536x3_3_123_0_0_123_3_11113.startIndexMap,
          List.idxOf_lt_length_iff.2 (by decide)⟩ = ix4 b h n 1 := by
      funext a'; refine Fin.ext ?_
      match a' with
      | ⟨0, _⟩ => rfl
      | ⟨1, _⟩ => rfl
      | ⟨2, _⟩ => rfl
      | ⟨3, _⟩ => rfl
    rw [hsi]
    rfl
  | ⟨3, _⟩ =>
    show gather_S64x32x32x32x3_S64x3x65536x3_S64x3x65536x3_3_123_0_0_123_3_11113.start (ix4 b h n c) idx 3
      + gather_S64x32x32x32x3_S64x3x65536x3_S64x3x65536x3_3_123_0_0_123_3_11113.batchCoord (ix4 b h n c) 3
      + gather_S64x32x32x32x3_S64x3x65536x3_S64x3x65536x3_3_123_0_0_123_3_11113.offCoord (ix4 b h n c) 3 = min (idx (ix4 b h n 2)).toInt.toNat 31
    rw [GatherDims.batchCoord_eq_zero _ _ _ (by decide), GatherDims.offCoord_eq_zero _ _ _ (by decide), Nat.add_zero]
    unfold GatherDims.start
    rw [dif_pos (by decide)]
    have hsi : gather_S64x32x32x32x3_S64x3x65536x3_S64x3x65536x3_3_123_0_0_123_3_11113.siIdx (ix4 b h n c)
        ⟨List.idxOf (3 : Fin 5) gather_S64x32x32x32x3_S64x3x65536x3_S64x3x65536x3_3_123_0_0_123_3_11113.startIndexMap,
          List.idxOf_lt_length_iff.2 (by decide)⟩ = ix4 b h n 2 := by
      funext a'; refine Fin.ext ?_
      match a' with
      | ⟨0, _⟩ => rfl
      | ⟨1, _⟩ => rfl
      | ⟨2, _⟩ => rfl
      | ⟨3, _⟩ => rfl
    rw [hsi]
    rfl
  | ⟨4, _⟩ =>
    show gather_S64x32x32x32x3_S64x3x65536x3_S64x3x65536x3_3_123_0_0_123_3_11113.start (ix4 b h n c) idx 4
      + gather_S64x32x32x32x3_S64x3x65536x3_S64x3x65536x3_3_123_0_0_123_3_11113.batchCoord (ix4 b h n c) 4
      + gather_S64x32x32x32x3_S64x3x65536x3_S64x3x65536x3_3_123_0_0_123_3_11113.offCoord (ix4 b h n c) 4 = c.val
    rw [GatherDims.batchCoord_eq_zero _ _ _ (by decide), Nat.add_zero]
    unfold GatherDims.start
    rw [dif_neg (by decide), Nat.zero_add]
    unfold GatherDims.offCoord
    rw [dif_pos (by decide)]
    rfl

/-- Stage %50: the closest surface point stored for the reflected point's voxel, component `c`. -/
theorem v50_at : val_main_v50 (F := Ideal) x0 x1 x3 (ix4 b h n c)
    = x3 (ix5 b (SymDist.vox (reflPt x0 x1 b h n 0)) (SymDist.vox (reflPt x0 x1 b h n 1))
        (SymDist.vox (reflPt x0 x1 b h n 2)) c) := by
  unfold val_main_v50
  rw [gather_at]
  refine congrArg x3 (funext fun a => Fin.ext ?_)
  match a with
  | ⟨0, _⟩ => rfl
  | ⟨1, _⟩ =>
    show min (val_main_v49 (F := Ideal) x0 x1 (ix4 b h n 0)).toInt.toNat 31
      = (SymDist.voxWord (reflPt x0 x1 b h n 0)).toNat % 32
    rw [v49_at x0 x1 b h n 0 hv]; exact clamp_word _ (hv _)
  | ⟨2, _⟩ =>
    show min (val_main_v49 (F := Ideal) x0 x1 (ix4 b h n 1)).toInt.toNat 31
      = (SymDist.voxWord (reflPt x0 x1 b h n 1)).toNat % 32
    rw [v49_at x0 x1 b h n 1 hv]; exact clamp_word _ (hv _)
  | ⟨3, _⟩ =>
    show min (val_main_v49 (F := Ideal) x0 x1 (ix4 b h n 2)).toInt.toNat 31
      = (SymDist.voxWord (reflPt x0 x1 b h n 2)).toNat % 32
    rw [v49_at x0 x1 b h n 2 hv]; exact clamp_word _ (hv _)
  | ⟨4, _⟩ => rfl

end Stages

/-- **The reference's per-point distance is the specification's.** Stage %52 at `(b, h, n)`: the square root of the
    sum over the three coordinates of the squared difference between the reflected point and the closest surface
    point stored for its voxel. -/
theorem dist_apply (hv : ∀ y, (SymDist.voxWord y).toNat < 32)
    (x0 : (⟨S64x3x4, .f32⟩ : BufTy).Contents (Elt Ideal)) (x1 : (⟨S64x65536x3, .f32⟩ : BufTy).Contents (Elt Ideal))
    (x3 : (⟨S64x32x32x32x3, .f32⟩ : BufTy).Contents (Elt Ideal))
    (b : Fin 64) (h : Fin 3) (n : Fin 65536) :
    Read.val_main_v52 (F := Ideal) x0 x1 x3 (ValueIdx.ix3 b h n)
      = SymDist.pointDist (fun d => x1 (ValueIdx.ix3 b n d)) (fun d => Read.val_main_v3 (F := Ideal) x0 (ValueIdx.ix3 b h d))
          (x0 (ValueIdx.ix3 b h 3)) (fun i j k c => x3 (ValueIdx.ix5 b i j k c)) := by
  rw [val_main_v52_apply, val_main_call2_v1_apply, val_main_call2_cst_apply]
  show Ideal.sqrt (Ideal.ofBits .f32 0x00000000#32 + _) = Ideal.sqrt _
  rw [Ideal.ofBits_zero_f32, zero_add]
  refine congrArg Ideal.sqrt (Finset.sum_congr rfl fun k _ => ?_)
  have e : idx_main_call2_v1 (ix3 b h n) k = ix4 b h n k :=
    funext fun a => Fin.ext (by match a with | ⟨0, _⟩ => rfl | ⟨1, _⟩ => rfl | ⟨2, _⟩ => rfl | ⟨3, _⟩ => rfl)
  rw [val_main_call2_v0_apply, val_main_v51_apply, e, v19_at, v50_at x0 x1 x3 b h n k hv]
  rfl

end Cert.ReferenceIdeal.RefPoint

end
-- ==== Proof.VoxRange.lean ====
/-
  The voxel word is a small natural number.

  The argument of the conversion is clamped between the reals 0 and 31, so it is a real number `r` with
  `0 ≤ r ≤ 31`; the conversion rounds it toward zero, to `⌊r⌋`, an integer of `[0, 31]`, which lies inside the
  signed 32-bit range, and the 32-bit word of such an integer has that integer as its unsigned (and signed) value.
-/
import proofs.«118956_j35338990911546_2_alg».proof.Proof.Spec

noncomputable section

namespace SymDist

open Idealize.ShloMosaic

/-- The 32-bit word of an integer of `[0, 31]` has unsigned value below 32. -/
theorem ofInt_toNat_lt (n : Int) (h0 : 0 ≤ n) (h1 : n ≤ 31) : (BitVec.ofInt 32 n).toNat < 32 := by
  rw [BitVec.toNat_ofInt]
  omega

/-- The conversion of an extended real lying between the reals 0 and 31 has unsigned value below 32. -/
theorem fptosi_clamped_lt (w : EReal) (h0 : ((0 : ℝ) : EReal) ≤ w) (h1 : w ≤ ((31 : ℝ) : EReal)) :
    (Ideal.fptosi 32 w).toNat < 32 := by
  induction w using EReal.rec with
  | bot => simp at h0
  | top => simp at h1
  | coe r =>
    have hr0 : (0 : ℝ) ≤ r := by exact_mod_cast h0
    have hr1 : r ≤ 31 := by exact_mod_cast h1
    unfold Ideal.fptosi
    rw [Ideal.toIntClamped_coe, if_pos hr0]
    have hf0 : 0 ≤ ⌊r⌋ := Int.floor_nonneg.mpr hr0
    have hf1 : ⌊r⌋ ≤ 31 := by
      have h : ⌊r⌋ ≤ ⌊(31 : ℝ)⌋ := Int.floor_le_floor hr1
      simpa using h
    apply ofInt_toNat_lt
    · omega
    · omega

/-- The voxel word, read as a natural number, is below 32. -/
theorem voxWord_lt (y : EReal) : (SymDist.voxWord y).toNat < 32 := by
  unfold SymDist.voxWord
  apply fptosi_clamped_lt
  · exact le_min (by exact_mod_cast (by norm_num : (0 : ℝ) ≤ 31)) (le_max_left _ _)
  · exact min_le_left _ _

/-- The voxel word's signed value is its unsigned value. -/
theorem voxWord_toInt (y : EReal) : (SymDist.voxWord y).toInt = ((SymDist.voxWord y).toNat : Int) := by
  have h := voxWord_lt y
  rw [BitVec.toInt_eq_toNat_cond]
  rw [if_pos (by omega)]

/-- The voxel index is the voxel word's unsigned value. -/
theorem vox_val (y : EReal) : ((SymDist.vox y : Fin 32) : Nat) = (SymDist.voxWord y).toNat := by
  unfold SymDist.vox
  exact Nat.mod_eq_of_lt (voxWord_lt y)

end SymDist

end
-- ==== Proof.Accum.lean ====
/-
  The accumulator over a batch element's run of 32 tiles. The grid visits point `n = 32 b + j` for batch element `b`
  and tile `j`; the scratch block is reset (and updated) at `j = 0`, updated from what the point before left at every
  other tile, and copied to the output block at `j = 31`. So after point `32 b + j` the scratch holds the fold of the
  block updates of tiles `0 … j` of batch element `b`, started from zero.
-/
import proofs.«118956_j35338990911546_2_alg».proof.Proof.Pieces

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Head Cert.KernelIdeal.Pieces

variable {F : FTy → Type} [FloatOps F]
variable (m : (ℓ : Loc nD τ sig) → Buf (Elt F) ℓ)

/-- What the scratch block holds after the body at point `n`. -/
abbrev scratchAt (c : Dev nD) (n : ℕ) (h : n < cfg0.N) : Vec F S1x3x1 .f32 := (outsAt0 m c n h).2

/-- The update of the scratch `acc` by point `n`'s three input blocks. -/
abbrev stepAt (c : Dev nD) (n : ℕ) (h : n < cfg0.N) (acc : Vec F S1x3x1 .f32) : Vec F S1x3x1 .f32 :=
  blockUpdate (iblk m c 0 ⟨n, h⟩) (iblk m c 1 ⟨n, h⟩) (iblk m c 2 ⟨n, h⟩) acc

/-- The first tile's contents: the zero block updated. -/
abbrev resetAt (c : Dev nD) (n : ℕ) (h : n < cfg0.N) : Vec F S1x3x1 .f32 := stepAt m c n h zeroAcc

/-- At the first tile of a batch element the scratch is the zero block updated. -/
theorem scratch_reset (c : Dev nD) (n : ℕ) (h : n < cfg0.N) (h0 : n % 32 = 0) : scratchAt m c n h = resetAt m c n h := by
  have h1 : ¬(⟨n, h⟩ : Fin cfg0.N).val % 32 = 31 := by dsimp only; omega
  show (outsAt0 m c n h).2 = _
  rw [show outsAt0 m c n h = _ from outsAt0_A m c ⟨n, h⟩ h0 h1]
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At every other tile the scratch is what the point before left, updated. -/
theorem scratch_step (c : Dev nD) (n : ℕ) (h : n + 1 < cfg0.N) (h0 : ¬(n + 1) % 32 = 0) :
    scratchAt m c (n + 1) h = stepAt m c (n + 1) h (scratchAt m c n (Nat.lt_of_succ_lt h)) := by
  show (outsAt0 m c (n + 1) h).2 = _
  by_cases h1 : (n + 1) % 32 = 31
  · rw [show outsAt0 m c (n + 1) h = _ from outsAt0_C m c ⟨n + 1, h⟩ h0 h1]
    dsimp only
    exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2
  · rw [show outsAt0 m c (n + 1) h = _ from outsAt0_B m c ⟨n + 1, h⟩ h0 h1]
    dsimp only
    exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- At the last tile the output block holds the scratch. -/
theorem out_last (c : Dev nD) (t : Fin cfg0.N) (h1 : t.val % 32 = 31) :
    (outsAt0 m c t.val t.isLt).1 = scratchAt m c t.val t.isLt := by
  have h0 : ¬t.val % 32 = 0 := by omega
  show (outsAt0 m c t.val t.isLt).1 = (outsAt0 m c t.val t.isLt).2
  rw [outsAt0_C m c t h0 h1]
  dsimp only
  exact (out_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) _).trans
    (sout_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) _).symm

/-- The scratch after point `t` is the fold over the run of tiles from `32 (t / 32)` to `t`. -/
theorem scratch_fold (c : Dev nD) (t : ℕ) (ht : t < cfg0.N) (h' : 32 * (t / 32) + t % 32 < cfg0.N) :
    scratchAt m c t ht = Pipeline.accAt (resetAt m c) (stepAt m c) (32 * (t / 32)) (t % 32) h' :=
  Pipeline.eq_accAt_of_mod (scratchAt m c) 32 (resetAt m c) (stepAt m c) (scratch_reset m c) (scratch_step m c)
    (Nat.succ_pos 31) t ht h'

end Cert.KernelIdeal.Accum

end
-- ==== Proof.OutArray.lean ====
/-
  The output array of the region, at the extended reals. After the last tile of batch element `b` the output block
  of `b` holds, for each plane `h`, zero plus the sum over the 32 tiles of that tile's share for the plane: the fold of
  the block updates read at an index (an update adds the three planes' shares to the three running sums).
-/
import proofs.«118956_j35338990911546_2_alg».proof.Proof.Accum
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.OutArray

open Cert.KernelIdeal Cert.KernelIdeal.Gen Cert.KernelIdeal.Head Cert.KernelIdeal.Pieces Cert.KernelIdeal.Accum
open ValueIdx

variable (m : (ℓ : Loc nD τ sig) → Buf (Elt Ideal) ℓ)

/-- The three planes' shares of a point's blocks, as a `[1, 3, 1]` block: what one update adds. -/
def shares (x0 : Vec Ideal S1x2048x3 .f32) (x1 : Vec Ideal S1x3x4 .f32) (x2 : Vec Ideal S1x1024x96 .f32) : S1x3x1.Idx → EReal :=
  shapeCast S1x3x1 (concatenate S3 0
    [⟨S1, broadcast S1 (planeShare (F := Ideal) x0 x2 (View.ld x1 (Rect.unit ![0, 0, 0] ![1, 1, 3] inb_S1x3x4_S1x1x3_0_0_0)) (View.ld x1 (Rect.unit ![0, 0, 3] ![1, 1, 1] inb_S1x3x4_S1x1x1_0_0_3)))⟩,
     ⟨S1, broadcast S1 (planeShare (F := Ideal) x0 x2 (View.ld x1 (Rect.unit ![0, 1, 0] ![1, 1, 3] inb_S1x3x4_S1x1x3_0_1_0)) (View.ld x1 (Rect.unit ![0, 1, 3] ![1, 1, 1] inb_S1x3x4_S1x1x1_0_1_3)))⟩,
     ⟨S1, broadcast S1 (planeShare (F := Ideal) x0 x2 (View.ld x1 (Rect.unit ![0, 2, 0] ![1, 1, 3] inb_S1x3x4_S1x1x3_0_2_0)) (View.ld x1 (Rect.unit ![0, 2, 3] ![1, 1, 1] inb_S1x3x4_S1x1x1_0_2_3)))⟩]
    concatenates_S1_S1_S1_S3_d0) shapeCasts_S3_S1x3x1

/-- An update adds the shares, entry by entry. -/
theorem blockUpdate_apply (x0 : Vec Ideal S1x2048x3 .f32) (x1 : Vec Ideal S1x3x4 .f32) (x2 : Vec Ideal S1x1024x96 .f32)
    (acc : Vec Ideal S1x3x1 .f32) (i : S1x3x1.Idx) :
    blockUpdate (F := Ideal) x0 x1 x2 acc i = acc i + shares x0 x1 x2 i := by
  unfold blockUpdate
  rw [shapeCast_self]
  rfl

/-- The zero block is zero. -/
theorem zeroAcc_apply (i : S1x3x1.Idx) : zeroAcc (F := Ideal) i = 0 := by
  unfold zeroAcc
  rw [shapeCast_self]
  exact Ideal.ofBits_zero_f32

/-- Entry `(0, 0, 0)` of the shares is the first plane's share. -/
theorem shares_0 (x0 : Vec Ideal S1x2048x3 .f32) (x1 : Vec Ideal S1x3x4 .f32) (x2 : Vec Ideal S1x1024x96 .f32) :
    shares x0 x1 x2 (ix3 0 0 0) = planeShare (F := Ideal) x0 x2 (View.ld x1 (Rect.unit ![0, 0, 0] ![1, 1, 3] inb_S1x3x4_S1x1x3_0_0_0)) (View.ld x1 (Rect.unit ![0, 0, 3] ![1, 1, 1] inb_S1x3x4_S1x1x1_0_0_3)) := by
  unfold shares
  rw [shapeCast_apply _ _ (ix3 0 0 0) (ix1 0) (by decide)]
  rfl

/-- Entry `(0, 1, 0)` of the shares is the second plane's share. -/
theorem shares_1 (x0 : Vec Ideal S1x2048x3 .f32) (x1 : Vec Ideal S1x3x4 .f32) (x2 : Vec Ideal S1x1024x96 .f32) :
    shares x0 x1 x2 (ix3 0 1 0) = planeShare (F := Ideal) x0 x2 (View.ld x1 (Rect.unit ![0, 1, 0] ![1, 1, 3] inb_S1x3x4_S1x1x3_0_1_0)) (View.ld x1 (Rect.unit ![0, 1, 3] ![1, 1, 1] inb_S1x3x4_S1x1x1_0_1_3)) := by
  unfold shares
  rw [shapeCast_apply _ _ (ix3 0 1 0) (ix1 1) (by decide)]
  rfl

/-- Entry `(0, 2, 0)` of the shares is the third plane's share. -/
theorem shares_2 (x0 : Vec Ideal S1x2048x3 .f32) (x1 : Vec Ideal S1x3x4 .f32) (x2 : Vec Ideal S1x1024x96 .f32) :
    shares x0 x1 x2 (ix3 0 2 0) = planeShare (F := Ideal) x0 x2 (View.ld x1 (Rect.unit ![0, 2, 0] ![1, 1, 3] inb_S1x3x4_S1x1x3_0_2_0)) (View.ld x1 (Rect.unit ![0, 2, 3] ![1, 1, 1] inb_S1x3x4_S1x1x1_0_2_3)) := by
  unfold shares
  rw [shapeCast_apply _ _ (ix3 0 2 0) (ix1 2) (by decide)]
  rfl

/-- Point `n`'s addend: the shares of its three input blocks (zero past the grid, where it is never used). -/
def addend (c : Dev nD) (n : ℕ) (i : S1x3x1.Idx) : EReal :=
  if h : n < cfg0.N then shares (iblk m c 0 ⟨n, h⟩) (iblk m c 1 ⟨n, h⟩) (iblk m c 2 ⟨n, h⟩) i else 0

/-- The scratch after the last tile of batch element `q`: the sum of its 32 tiles' addends. -/
theorem scratch_last (c : Dev nD) (q : ℕ) (h : 32 * q + 31 < cfg0.N) (i : S1x3x1.Idx) :
    Pipeline.accAt (resetAt m c) (stepAt m c) (32 * q) 31 h i = 0 + ∑ s ∈ Finset.range 32, addend m c (32 * q + s) i := by
  refine Pipeline.accAt_add_apply (ι := S1x3x1.Idx) (β := EReal) (resetAt m c) (stepAt m c) (fun _ => 0) (addend m c) (32 * q) 31 ?_ ?_ 31 le_rfl h i
  · intro hb j
    show blockUpdate (F := Ideal) _ _ _ zeroAcc j = _
    rw [blockUpdate_apply, zeroAcc_apply, addend, dif_pos hb]
  · intro n hn acc j _ _
    show blockUpdate (F := Ideal) _ _ _ acc j = _
    rw [blockUpdate_apply, addend, dif_pos hn]

/-- The output array after the run: entry `(b, h, 0)` is zero plus the sum over `b`'s 32 tiles of the tile's share for plane `h`. -/
def outArr (c : Dev nD) : S64x3x1.Idx → EReal :=
  fun i => 0 + ∑ s ∈ Finset.range 32, addend m c (32 * (i 0).val + s) (ix3 0 (i 1) (i 2))

/-- The output window's block index at point `t` is `(t / 32, 0, 0)`. -/
theorem idx_facts3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

/-- What a last tile writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  have hN : cfg0.N = 2048 := N_0
  show (cfg0.win 3).cut (grid0.coords t) ((dats m 0 c).after 3 t) = _
  rw [after0_3, out_last m c t h31]
  funext y
  rw [View.read_apply]
  show scratchAt m c t.val t.isLt y = outArr m c (((cfg0.win 3).blk t).view.emb y)
  obtain ⟨q, hq⟩ : ∃ q, t.val = 32 * q + 31 := ⟨t.val / 32, by omega⟩
  have hlt : 32 * q + 31 < cfg0.N := hq ▸ t.isLt
  have e1 : scratchAt m c t.val t.isLt = scratchAt m c (32 * q + 31) hlt := by
    have : ∀ u (hu : u < cfg0.N), u = t.val → scratchAt m c u hu = scratchAt m c t.val t.isLt := fun u hu e => by subst e; rfl
    exact (this _ hlt hq.symm).symm
  rw [e1, Pipeline.eq_accAt (scratchAt m c) 32 (resetAt m c) (stepAt m c) (scratch_reset m c) (scratch_step m c) q 31 (by decide) hlt,
    scratch_last m c q hlt y]
  obtain ⟨i0, i1, i2⟩ := idx_facts3 t
  have he0 : ((((cfg0.win 3).blk t).view.emb y) 0).val = q := by
    show win0_3.index t (0 : Fin 3) * 1 + 1 * (y 0).val = q
    have : (y 0).val < 1 := (y 0).isLt
    omega
  have hey : ix3 (0 : Fin 1) ((((cfg0.win 3).blk t).view.emb y) 1) ((((cfg0.win 3).blk t).view.emb y) 2) = y := by
    funext a; apply Fin.ext
    match a with
    | ⟨0, _⟩ => show (0 : ℕ) = (y 0).val; have h1 : (y 0).val < 1 := (y 0).isLt; omega
    | ⟨1, _⟩ => show win0_3.index t (1 : Fin 3) * 3 + 1 * (y 1).val = (y 1).val; omega
    | ⟨2, _⟩ => show win0_3.index t (2 : Fin 3) * 1 + 1 * (y 2).val = (y 2).val; omega
  show _ = 0 + ∑ s ∈ Finset.range 32, addend m c (32 * ((((cfg0.win 3).blk t).view.emb y) 0).val + s)
    (ix3 (0 : Fin 1) ((((cfg0.win 3).blk t).view.emb y) 1) ((((cfg0.win 3).blk t).view.emb y) 2))
  refine congrArg (fun z => (0 : EReal) + z) (Finset.sum_congr rfl fun s _ => ?_)
  exact (congr (congrArg (addend m c) (by omega)) hey).symm

/-- An index of the output array is in point `t`'s block iff each coordinate is in the block's range on its axis. -/
theorem mem_blk3 (t : Fin cfg0.N) (i : S64x3x1.Idx) :
    i ∈ ((cfg0.win 3).blk t).view.set ↔ ∀ a : Fin 3, win0_3.index t a * S1x3x1.size a ≤ (i a).val ∧ (i a).val < win0_3.index t a * S1x3x1.size a + S1x3x1.size a := by
  show i ∈ ((View.whole main_v7).slice (win0_3.rect t)).set ↔ _
  rw [View.set_slice_whole, Rect.mem_set_unit]
  exact Iff.rfl

/-- The output array after the run is `outArr`: batch element `b`'s block is written back at point `32 b + 31`. -/
theorem final_out (c : Dev nD) : (dats m 0 c).arrAt 3 cfg0.N = outArr m c :=
  (dats m 0 c).arrAt_eq_of_cover 3 (outArr m c) (flushed_eq m c) fun i => by
    have hi0 : (i 0).val < 64 := (i 0).isLt
    have hi1 : (i 1).val < 3 := (i 1).isLt
    have hi2 : (i 2).val < 1 := (i 2).isLt
    have hN : cfg0.N = 2048 := N_0
    have hlt : 32 * (i 0).val + 31 < cfg0.N := by omega
    refine ⟨⟨32 * (i 0).val + 31, hlt⟩, (flush0_3 _).mpr (by show (32 * (i 0).val + 31) % 32 = 31; omega), ?_⟩
    rw [mem_blk3]
    obtain ⟨e0, e1, e2⟩ := idx_facts3 ⟨32 * (i 0).val + 31, hlt⟩
    have e0' : win0_3.index ⟨32 * (i 0).val + 31, hlt⟩ (0 : Fin 3) = (i 0).val := by rw [e0]; show (32 * (i 0).val + 31) / 32 = _; omega
    intro a
    match a with
    | ⟨0, _⟩ => show win0_3.index ⟨32 * (i 0).val + 31, hlt⟩ (0 : Fin 3) * 1 ≤ (i 0).val ∧ (i 0).val < win0_3.index ⟨32 * (i 0).val + 31, hlt⟩ (0 : Fin 3) * 1 + 1; omega
    | ⟨1, _⟩ => show win0_3.index ⟨32 * (i 0).val + 31, hlt⟩ (1 : Fin 3) * 3 ≤ (i 1).val ∧ (i 1).val < win0_3.index ⟨32 * (i 0).val + 31, hlt⟩ (1 : Fin 3) * 3 + 3; omega
    | ⟨2, _⟩ => show win0_3.index ⟨32 * (i 0).val + 31, hlt⟩ (2 : Fin 3) * 1 ≤ (i 2).val ∧ (i 2).val < win0_3.index ⟨32 * (i 0).val + 31, hlt⟩ (2 : Fin 3) * 1 + 1; omega

end Cert.KernelIdeal.OutArray

end
-- ==== Proof.Tail.lean ====
/-
  The host lines after the region. From the region's output array `o` (per batch element and plane, the sum of the
  point distances) and the unit normals `nh`, @main returns `(Σ o) / 65536 + 25 · Σ_b ‖nh_b nh_bᵀ − I‖_F` as a
  one-element array. The second summand is the same operations of the same normals in both programs.
-/
import proofs.«118956_j35338990911546_2_alg».proof.Proof.OutArray
import proofs.«118956_j35338990911546_2_alg».proof.Proof.Gen.ReferenceIdeal.Read
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.OutArray
open ValueIdx

variable (m : (ℓ : Loc nD τ sig) → Buf (Elt Ideal) ℓ)

/-- The regularization term: 25 times the sum over the batch of the Frobenius norm of `nh nhᵀ − I`. -/
def regTerm (nh : FVec Ideal S64x3x3 .f32) : FVec Ideal S_ .f32 :=
  mulf (constant (F := Ideal) S_ .f32 0x41C80000#32)
    (Host.reduceAdd (F := Ideal)
      (Host.sqrt (F := Ideal)
        (Host.reduceAdd (F := Ideal)
          (mulf
            (subf (Host.dotGeneral (F := Ideal) dot_S64x3x3_S64x3x3_S64x3x3_2_2_1_1_0_0 none nh nh) (broadcastInDim S64x3x3 ![0, 1, 2] bcast_S1x3x3_S64x3x3_0_1_2
          (broadcastInDim S1x3x3 ![1, 2] bcast_S3x3_S1x3x3_1_2
            (uitofp .f32 (cmpi .eq (addi (iotaInDim S3x3 32 0) (broadcastInDim S3x3 ![] bcast_S_S3x3 (constantI S_ 32 0#32))) (iotaInDim S3x3 32 1))))))
            (subf (Host.dotGeneral (F := Ideal) dot_S64x3x3_S64x3x3_S64x3x3_2_2_1_1_0_0 none nh nh) (broadcastInDim S64x3x3 ![0, 1, 2] bcast_S1x3x3_S64x3x3_0_1_2
          (broadcastInDim S1x3x3 ![1, 2] bcast_S3x3_S1x3x3_1_2
            (uitofp .f32 (cmpi .eq (addi (iotaInDim S3x3 32 0) (broadcastInDim S3x3 ![] bcast_S_S3x3 (constantI S_ 32 0#32))) (iotaInDim S3x3 32 1)))))))
          (constant (F := Ideal) S_ .f32 0x00000000#32) reducesTo_S64x3x3_S64_d1_2 h_S_))
      (constant (F := Ideal) S_ .f32 0x00000000#32) reducesTo_S64_S_d0 h_S_)

/-- What @main returns, from the region's output array and the normals. -/
def tailOf (o : FVec Ideal S64x3x1 .f32) (nh : FVec Ideal S64x3x3 .f32) : FVec Ideal S1 .f32 :=
  shapeCast S1
    (addf
      (Host.divf (F := Ideal)
        (Host.reduceAdd (F := Ideal) o (constant (F := Ideal) S_ .f32 0x00000000#32) reducesTo_S64x3x1_S_d0_1_2 h_S_)
        (constant (F := Ideal) S_ .f32 0x47800000#32))
      (regTerm nh))
    shapeCasts_S_S1

set_option maxHeartbeats 2000000 in
/-- The result of the run is `tailOf` of the region's output array and of the normals the lines before the region wrote. -/
theorem result_eq (c : Dev nD) :
    Pipeline.afterTail₀ cfgs (dats m) 0 (V0 m) [hostOps1] c main_v26 = tailOf (outArr m c) (V m c main_v3) := by
  unfold Pipeline.afterTail₀
  simp only [hostOps1, List.flatten_cons, List.flatten_nil, List.append_nil, List.cons_append, List.nil_append]
  after_results_simp
  rw [Pipeline.withArrays_arr spec0 launch0.win.arr_inj c _ _ 3, final_out m c,
    Pipeline.withArrays_of_ne _ c (V0 m c) _ main_v3 (by exact (by decide : ∀ w, Pipeline.arrRef spec0 w ≠ main_v3))]
  rfl

/-- The normals the lines before the region wrote are the reference's normals of the planes argument. -/
theorem normals_eq (c : Dev nD) :
    (V m c main_v3 : FVec Ideal S64x3x3 .f32) = Cert.ReferenceIdeal.Read.val_main_v3 (F := Ideal) (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The regularization term of the reference's normals is the reference's regularization term. -/
theorem regTerm_eq (x0 : FVec Ideal S64x3x4 .f32) :
    regTerm (Cert.ReferenceIdeal.Read.val_main_v3 (F := Ideal) x0) = Cert.ReferenceIdeal.Read.val_main_v74 (F := Ideal) x0 := by
  rfl

end Cert.KernelIdeal.Tail

end
-- ==== Proof.LibNonnegScale.lean ====
import Mathlib.Data.EReal.Basic
import Mathlib.Data.EReal.Operations
import Mathlib.Data.EReal.Inv
import Mathlib.Algebra.BigOperators.Group.Finset.Basic
import Idealize.ShloMosaic.PureOps.Ideal

/-!
# Scaling finite sums of extended reals by a nonnegative finite scalar

On the extended reals (`⊤ + ⊥ = ⊥`, `0 * x = 0`) multiplication does not distribute over
addition in general, but it does when the scalar `c` satisfies `0 ≤ c` and `c ≠ ⊤`; no
finiteness of the summands is needed.  Hence such a scalar moves in and out of arbitrary finite
sums.  As an application, the symmetric normalisation `d (src) * d (dst)` of a graph convolution
equals a row pre-scale by `d` followed by a row post-scale by `d`.
-/

noncomputable section

namespace Idealize.ShloMosaic.NonnegScale

open scoped BigOperators

/-- Left distributivity for a nonnegative scalar other than `⊤`; the summands are arbitrary. -/
theorem mul_add_of_nonneg_ne_top {c : EReal} (h0 : 0 ≤ c) (ht : c ≠ ⊤) (a b : EReal) :
    c * (a + b) = c * a + c * b :=
  EReal.left_distrib_of_nonneg_of_ne_top h0 ht a b

/-- Right distributivity for a nonnegative scalar other than `⊤`. -/
theorem add_mul_of_nonneg_ne_top {c : EReal} (h0 : 0 ≤ c) (ht : c ≠ ⊤) (a b : EReal) :
    (a + b) * c = a * c + b * c :=
  EReal.right_distrib_of_nonneg_of_ne_top h0 ht a b

/-- A nonnegative scalar other than `⊤` multiplies into a finite sum from the right. -/
theorem sum_mul_of_nonneg_ne_top {ι : Type*} (s : Finset ι) (f : ι → EReal) {c : EReal}
    (h0 : 0 ≤ c) (ht : c ≠ ⊤) : (∑ i ∈ s, f i) * c = ∑ i ∈ s, f i * c := by
  classical
  induction s using Finset.induction_on with
  | empty => simp
  | insert a s ha ih =>
    rw [Finset.sum_insert ha, Finset.sum_insert ha, add_mul_of_nonneg_ne_top h0 ht, ih]

/-- A nonnegative scalar other than `⊤` multiplies into a finite sum from the left. -/
theorem mul_sum_of_nonneg_ne_top {ι : Type*} (s : Finset ι) (f : ι → EReal) {c : EReal}
    (h0 : 0 ≤ c) (ht : c ≠ ⊤) : c * (∑ i ∈ s, f i) = ∑ i ∈ s, c * f i := by
  rw [mul_comm, sum_mul_of_nonneg_ne_top s f h0 ht]
  exact Finset.sum_congr rfl (fun i _ => mul_comm _ _)

/-- One message: the pre-scaled row contracted with `W` is the unscaled contraction, scaled. -/
theorem row_prescale {κ : Type*} [Fintype κ] (y : κ → EReal) (W : κ → EReal) {c : EReal}
    (h0 : 0 ≤ c) (ht : c ≠ ⊤) : (∑ k, (y k * c) * W k) = (∑ k, y k * W k) * c := by
  rw [sum_mul_of_nonneg_ne_top Finset.univ (fun k => y k * W k) h0 ht]
  exact Finset.sum_congr rfl (fun k _ => mul_right_comm _ _ _)

/-- Rows pre-scaled by `d`, summed over the edges into node `i`, then post-scaled by `d i`,
equal the per-edge symmetric factor `d (src) * d (dst)` applied to the unscaled messages. -/
theorem gcn_core {ι ε κ : Type*} [Fintype κ] (T : Finset ε) (s t : ε → ι) (i : ι)
    (ht : ∀ e ∈ T, t e = i) (x : ι → κ → EReal) (W : κ → EReal) (d : ι → EReal)
    (hd0 : ∀ n, 0 ≤ d n) (hdt : ∀ n, d n ≠ ⊤) :
    (∑ e ∈ T, ∑ k, (x (s e) k * d (s e)) * W k) * d i
      = ∑ e ∈ T, (∑ k, x (s e) k * W k) * (d (s e) * d (t e)) := by
  rw [sum_mul_of_nonneg_ne_top T _ (hd0 i) (hdt i)]
  refine Finset.sum_congr rfl (fun e he => ?_)
  rw [row_prescale (x (s e)) W (hd0 (s e)) (hdt (s e)), ht e he, mul_assoc]

/-- The reciprocal square root of a positive extended real lies in `[0, ⊤)`.  (At `0` the value
is `⊤` and at negative arguments it is `⊥`, so positivity cannot be dropped.) -/
theorem rsqrt_nonneg_ne_top (x : EReal) (hx : 0 < x) :
    0 ≤ Ideal.rsqrt x ∧ Ideal.rsqrt x ≠ ⊤ := by
  induction x using EReal.rec with
  | bot => exact absurd hx (not_lt_of_ge bot_le)
  | top => exact ⟨le_of_eq Ideal.rsqrt_top.symm, by rw [Ideal.rsqrt_top]; exact EReal.zero_ne_top⟩
  | coe r =>
    have hr : 0 < r := by exact_mod_cast hx
    have h1 : ¬ r < 0 := not_lt.mpr hr.le
    have h2 : ¬ r = 0 := hr.ne'
    have hE : Ideal.rsqrt (r : EReal) = (((Real.sqrt r)⁻¹ : ℝ) : EReal) := by
      rw [Ideal.rsqrt_coe, if_neg h1, if_neg h2]
    rw [hE]
    exact ⟨by exact_mod_cast inv_nonneg.mpr (Real.sqrt_nonneg r), EReal.coe_ne_top _⟩

end Idealize.ShloMosaic.NonnegScale
-- ==== Proof.LibSumReshape.lean ====
/-
  Sums over index sets of arrays, re-indexed.

  A reshape keeps the elements and their row-major order, so it is a bijection of index sets and a sum over the
  reshaped array is the sum over the original (`sum_reshapeEquiv`, `sum_shapeCast`). A rank-1 index set is its one
  coordinate range (`sum_idx1`). A rank-2 array of `m * n` rows cut into `m` consecutive blocks of `n` rows: the sum
  over the array is the sum over the blocks of each block's sum, the element `(r, l)` of block `t` being the
  array's `(n * t + r, l)` (`blockIdx`, `sum_rowBlocks`).
-/
import Idealize.ShloMosaic.Lib.ValueIdx

noncomputable section

open scoped BigOperators

namespace Idealize.ShloMosaic.SumReshape

open Idealize.ShloMosaic Idealize.ShloMosaic.ValueIdx

variable {M : Type*} [AddCommMonoid M]

/-- A sum read through the reshape bijection is the sum itself. -/
theorem sum_reshapeEquiv {s t : Shape} (h : t.numel = s.numel) (f : s.Idx → M) :
    ∑ j : t.Idx, f (Shape.reshapeEquiv h j) = ∑ i : s.Idx, f i :=
  Equiv.sum_comp (Shape.reshapeEquiv h) f

/-- The sum of the elements of a shape cast is the sum of the elements. -/
theorem sum_shapeCast_self {N : Type} [AddCommMonoid N] {s t : Shape} (x : s.Idx → N) (h : s.ShapeCasts t) :
    ∑ j : t.Idx, shapeCast t x h j = ∑ i : s.Idx, x i :=
  sum_reshapeEquiv h x

/-- The sum of a function of the elements of a shape cast is the sum of that function of the elements. -/
theorem sum_shapeCast {s t : Shape} {α : Type} (x : s.Idx → α) (h : s.ShapeCasts t) (g : α → M) :
    ∑ j : t.Idx, g (shapeCast t x h j) = ∑ i : s.Idx, g (x i) :=
  sum_reshapeEquiv h fun i => g (x i)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) :=
  (Equiv.sum_comp (idxEquiv1 (n := n)).symm f).symm

/-- Row `r` of block `t`, of `n` rows each, is row `n * t + r`. -/
def blockRow {m n : Nat} (t : Fin m) (r : Fin n) : Fin (m * n) :=
  ⟨n * t.val + r.val, by
    have h1 := t.isLt; have h2 := r.isLt
    calc n * t.val + r.val < n * t.val + n := by omega
      _ = n * (t.val + 1) := by ring
      _ ≤ n * m := Nat.mul_le_mul_left _ h1
      _ = m * n := Nat.mul_comm _ _⟩

theorem blockRow_val {m n : Nat} (t : Fin m) (r : Fin n) : (blockRow t r).val = n * t.val + r.val := rfl

/-- The rows of `m` consecutive blocks of `n` rows are all the `m * n` rows, each once. -/
theorem sum_blockRow {m n : Nat} (f : Fin (m * n) → M) : ∑ a, f a = ∑ t : Fin m, ∑ r : Fin n, f (blockRow t r) := by
  rw [← Fintype.sum_prod_type', ← Equiv.sum_comp finProdFinEquiv f]
  refine Finset.sum_congr rfl fun p _ => congrArg f (Fin.ext ?_)
  show p.2.val + n * p.1.val = n * p.1.val + p.2.val
  omega

/-- Entry `y` of block `t`, in the array of `N = m * n` rows: row `n * t + y₀`, column `y₁`. -/
def blockIdx {N k : Nat} (m n : Nat) (hN : N = m * n) (t : Fin m) (y : (⟨2, ![n, k]⟩ : Shape).Idx) :
    (⟨2, ![N, k]⟩ : Shape).Idx :=
  ix2 ⟨n * t.val + (y 0).val, by subst hN; exact (blockRow t ⟨(y 0).val, idx2_lt0 y⟩).isLt⟩ ⟨(y 1).val, idx2_lt1 y⟩

theorem blockIdx_row {N k : Nat} (m n : Nat) (hN : N = m * n) (t : Fin m) (y : (⟨2, ![n, k]⟩ : Shape).Idx) :
    (blockIdx m n hN t y 0).val = n * t.val + (y 0).val := rfl

theorem blockIdx_col {N k : Nat} (m n : Nat) (hN : N = m * n) (t : Fin m) (y : (⟨2, ![n, k]⟩ : Shape).Idx) :
    (blockIdx m n hN t y 1).val = (y 1).val := rfl

/-- A sum over an array of `N = m * n` rows is the sum over its `m` row blocks of the blocks' sums. -/
theorem sum_rowBlocks {N k : Nat} (m n : Nat) (hN : N = m * n) (f : (⟨2, ![N, k]⟩ : Shape).Idx → M) :
    ∑ i, f i = ∑ t : Fin m, ∑ y : (⟨2, ![n, k]⟩ : Shape).Idx, f (blockIdx m n hN t y) := by
  subst hN
  rw [sum_idx2, sum_blockRow]
  refine Finset.sum_congr rfl fun t _ => ?_
  rw [sum_idx2]
  rfl

end Idealize.ShloMosaic.SumReshape

end
-- ==== Proof.Regroup.lean ====
/-
  The last step of both programs, on the extended reals. The kernel sums the per-plane totals `A b h` over the batch
  and the planes and divides the grand total by 65536; the reference divides each per-plane total by 65536 (a mean
  over the 65536 sample points) and sums the means. Division by the real 65536 is multiplication by the nonnegative
  real 1/65536, which distributes over finite sums of extended reals whatever their values.
-/
import proofs.«118956_j35338990911546_2_alg».proof.Proof.LibNonnegScale
import proofs.«118956_j35338990911546_2_alg».proof.Proof.LibSumReshape
import Idealize.ShloMosaic.PureOps.Ideal
import Idealize.ShloMosaic.PureOps.Ideal.Laws
import Idealize.ShloMosaic.Lib.ValueIdx

noncomputable section

namespace SymDist

open Idealize.ShloMosaic Idealize.ShloMosaic.ValueIdx
open scoped BigOperators

/-- The word `0x47800000` is the real `65536`. -/
theorem lit_65536 : Ideal.ofBits .f32 0x47800000#32 = ((65536 : ℝ) : EReal) := by
  simp [Ideal.ofBits, Ideal.ieee, -EReal.coe_mul]; norm_num

/-- Division by the real 65536 distributes over a finite sum of extended reals. -/
theorem div_sum {ι : Type*} (s : Finset ι) (f : ι → EReal) :
    Ideal.div (∑ i ∈ s, f i) ((65536 : ℝ) : EReal) = ∑ i ∈ s, Ideal.div (f i) ((65536 : ℝ) : EReal) := by
  have hK : (65536 : ℝ) ≠ 0 := by norm_num
  rw [Ideal.div_coe hK]
  simp only [Ideal.div_coe hK]
  exact NonnegScale.sum_mul_of_nonneg_ne_top s f (EReal.coe_nonneg.mpr (by norm_num)) (EReal.coe_ne_top _)

/-- A sum over the indices of a rank-3 array as an iterated sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : Fin n0 × Fin n1 × Fin n2 ≃ (⟨3, ![n0, n1, n2]⟩ : Shape).Idx :=
    { toFun := fun p => ix3 p.1 p.2.1 p.2.2
      invFun := fun i => (i 0, i 1, i 2)
      left_inv := fun p => rfl
      right_inv := fun i => (eq_ix3 i).symm }
  rw [← Equiv.sum_comp e f, Fintype.sum_prod_type]
  refine Finset.sum_congr rfl fun a _ => ?_
  rw [Fintype.sum_prod_type]
  rfl

/-- The grand total divided by 65536 is the sum of the per-plane totals each divided by 65536 (sums started from
    the literal zero, as both programs start them). -/
theorem regroup (A : Fin 64 → Fin 3 → EReal) :
    Ideal.div (Ideal.ofBits .f32 0x00000000#32 + ∑ i : (⟨3, ![64, 3, 1]⟩ : Shape).Idx, A (i 0) (i 1)) (Ideal.ofBits .f32 0x47800000#32)
      = Ideal.ofBits .f32 0x00000000#32 + ∑ j : (⟨2, ![64, 3]⟩ : Shape).Idx,
          Ideal.div (Ideal.ofBits .f32 0x00000000#32 + A (j 0) (j 1)) (Ideal.ofBits .f32 0x47800000#32) := by
  rw [Ideal.ofBits_zero_f32, lit_65536, zero_add, zero_add, sum_idx3, sum_idx2]
  simp only [zero_add, Fin.sum_univ_one]
  rw [div_sum]
  refine Finset.sum_congr rfl fun a _ => ?_
  rw [div_sum]

end SymDist

end
-- ==== Proof.Bridge.lean ====
/-
  The kernel's result is the reference's. For batch element `b`, plane `h` and tile `s`, the share the body adds
  to the accumulator is the sum over the tile's 2048 points of the reference's per-point distance (the blocks the
  point stages are the rows `2048 s … 2048 s + 2047` of the points, the row `b` of the normalized planes and the table
  of `b`, whose entries are real by the precondition); so the region's output at `(b, h)` is the sum of that distance
  over all 65536 points, and the lines after the region regroup the grand total as the reference's sum of means.
-/
import proofs.«118956_j35338990911546_2_alg».proof.Proof.Blocks
import proofs.«118956_j35338990911546_2_alg».proof.Proof.HeadValue
import proofs.«118956_j35338990911546_2_alg».proof.Proof.RefPoint
import proofs.«118956_j35338990911546_2_alg».proof.Proof.VoxRange
import proofs.«118956_j35338990911546_2_alg».proof.Proof.Tail
import proofs.«118956_j35338990911546_2_alg».proof.Proof.Regroup

set_option maxRecDepth 16384

noncomputable section

open Idealize.ShloMosaic Idealize.ShloMosaic.TcCoe Idealize.SL.Sem
open Idealize.ShloMosaic.Pipeline (Dat)

namespace Cert.Proof.Bridge

open Cert.KernelIdeal Cert.KernelIdeal.Gen Cert.KernelIdeal.Head Cert.KernelIdeal.Pieces Cert.KernelIdeal.Accum
open Cert.KernelIdeal.OutArray Cert.KernelIdeal.Blocks Cert.KernelIdeal.Tail
open ValueIdx

variable (m : (ℓ : Loc nD τ sig) → Buf (Elt Ideal) ℓ) (c : Dev nD)

/-- The planes argument. -/
abbrev planes : FVec Ideal S64x3x4 .f32 := m ((c : Thread nD τ).loc main_arg0)
/-- The sample points argument. -/
abbrev points : FVec Ideal S64x65536x3 .f32 := m ((c : Thread nD τ).loc main_arg1)
/-- The closest-point grids argument. -/
abbrev grids : FVec Ideal S64x32x32x32x3 .f32 := m ((c : Thread nD τ).loc main_arg3)

/-- The reference's distance of point `n` of batch element `b` for plane `h`. -/
abbrev refDist (b : Fin 64) (h : Fin 3) (n : Fin 65536) : EReal :=
  Cert.ReferenceIdeal.Read.val_main_v52 (F := Ideal) (planes m c) (points m c) (grids m c) (ix3 b h n)

/-- Blocks that hold tile `s` of batch element `b`: the rows `2048 s + r` of `b`'s points, row `b` of the normalized
    planes (normals and offsets) and the table of `b`. -/
structure HoldsTile (x0 : Vec Ideal S1x2048x3 .f32) (x1 : Vec Ideal S1x3x4 .f32) (x2 : Vec Ideal S1x1024x96 .f32)
    (b : Fin 64) (s : Fin 32) : Prop where
  pts : ∀ (r : Fin 2048) (d : Fin 3), ptsOf x0 (ix2 r d) = points m c (ix3 b (SumReshape.blockRow (m := 32) (n := 2048) s r) d)
  n0 : ∀ d : Fin 3, (View.ld x1 (Rect.unit ![0, 0, 0] ![1, 1, 3] inb_S1x3x4_S1x1x3_0_0_0)) (ix3 0 0 d) = Cert.ReferenceIdeal.Read.val_main_v3 (F := Ideal) (planes m c) (ix3 b 0 d)
  n1 : ∀ d : Fin 3, (View.ld x1 (Rect.unit ![0, 1, 0] ![1, 1, 3] inb_S1x3x4_S1x1x3_0_1_0)) (ix3 0 0 d) = Cert.ReferenceIdeal.Read.val_main_v3 (F := Ideal) (planes m c) (ix3 b 1 d)
  n2 : ∀ d : Fin 3, (View.ld x1 (Rect.unit ![0, 2, 0] ![1, 1, 3] inb_S1x3x4_S1x1x3_0_2_0)) (ix3 0 0 d) = Cert.ReferenceIdeal.Read.val_main_v3 (F := Ideal) (planes m c) (ix3 b 2 d)
  o0 : (View.ld x1 (Rect.unit ![0, 0, 3] ![1, 1, 1] inb_S1x3x4_S1x1x1_0_0_3)) (ix3 0 0 0) = planes m c (ix3 b 0 3)
  o1 : (View.ld x1 (Rect.unit ![0, 1, 3] ![1, 1, 1] inb_S1x3x4_S1x1x1_0_1_3)) (ix3 0 0 0) = planes m c (ix3 b 1 3)
  o2 : (View.ld x1 (Rect.unit ![0, 2, 3] ![1, 1, 1] inb_S1x3x4_S1x1x1_0_2_3)) (ix3 0 0 0) = planes m c (ix3 b 2 3)
  tab : ∀ (i j k : Fin 32) (cc : Fin 3), tabOf x2 (ix2 (⟨i.val * 32 + j.val, by omega⟩ : Fin 1024) (⟨k.val * 3 + cc.val, by omega⟩ : Fin 96)) = grids m c (ix5 b i j k cc)

variable {m c}

/-- Every entry of such a table block is a real number, the grids being finite. -/
theorem HoldsTile.tab_real {x0 : Vec Ideal S1x2048x3 .f32} {x1 : Vec Ideal S1x3x4 .f32} {x2 : Vec Ideal S1x1024x96 .f32} {b : Fin 64} {s : Fin 32}
    (H : HoldsTile m c x0 x1 x2 b s) (hfin : ∀ i, ∃ r : ℝ, grids m c i = (r : EReal)) (i : S1024x96.Idx) :
    ∃ r : ℝ, tabOf x2 i = (r : EReal) := by
  have h0 : (i 0).val < 1024 := (i 0).isLt
  have h1 : (i 1).val < 96 := (i 1).isLt
  have e : i = ix2 (⟨(i 0).val / 32 * 32 + (i 0).val % 32, by omega⟩ : Fin 1024) (⟨(i 1).val / 3 * 3 + (i 1).val % 3, by omega⟩ : Fin 96) := by
    funext a
    match a with
    | ⟨0, _⟩ => exact Fin.ext (by show (i 0).val = (i 0).val / 32 * 32 + (i 0).val % 32; omega)
    | ⟨1, _⟩ => exact Fin.ext (by show (i 1).val = (i 1).val / 3 * 3 + (i 1).val % 3; omega)
  rw [e, H.tab ⟨(i 0).val / 32, by omega⟩ ⟨(i 0).val % 32, by omega⟩ ⟨(i 1).val / 3, by omega⟩ ⟨(i 1).val % 3, by omega⟩]
  exact hfin _

/-- One plane's share of such blocks is the sum of the reference's distances over the tile's points. -/
theorem HoldsTile.share {x0 : Vec Ideal S1x2048x3 .f32} {x1 : Vec Ideal S1x3x4 .f32} {x2 : Vec Ideal S1x1024x96 .f32} {b : Fin 64} {s : Fin 32}
    (H : HoldsTile m c x0 x1 x2 b s) (hfin : ∀ i, ∃ r : ℝ, grids m c i = (r : EReal)) (h : Fin 3)
    (nrm : Vec Ideal S1x1x3 .f32) (off : Vec Ideal S1x1x1 .f32)
    (hn : ∀ d : Fin 3, nrm (ix3 0 0 d) = Cert.ReferenceIdeal.Read.val_main_v3 (F := Ideal) (planes m c) (ix3 b h d))
    (ho : off (ix3 0 0 0) = planes m c (ix3 b h 3)) :
    planeShare (F := Ideal) x0 x2 nrm off = ∑ r : Fin 2048, refDist m c b h (SumReshape.blockRow (m := 32) (n := 2048) s r) := by
  show headDist (F := Ideal) _ _ _ _ _ _ _ = _
  rw [headDist_eq SymDist.voxWord_lt (ptsOf x0) (tabOf x2) (H.tab_real hfin) nrm off]
  refine Finset.sum_congr rfl fun r _ => ?_
  rw [refDist, Cert.ReferenceIdeal.RefPoint.dist_apply SymDist.voxWord_lt]
  congr 1
  · funext d; exact H.pts r d
  · funext d; exact hn d
  · funext i j k cc; exact H.tab i j k cc

/-- The shares of such blocks, plane by plane. -/
theorem HoldsTile.shares {x0 : Vec Ideal S1x2048x3 .f32} {x1 : Vec Ideal S1x3x4 .f32} {x2 : Vec Ideal S1x1024x96 .f32} {b : Fin 64} {s : Fin 32}
    (H : HoldsTile m c x0 x1 x2 b s) (hfin : ∀ i, ∃ r : ℝ, grids m c i = (r : EReal)) (h : Fin 3) :
    OutArray.shares x0 x1 x2 (ix3 0 h 0) = ∑ r : Fin 2048, refDist m c b h (SumReshape.blockRow (m := 32) (n := 2048) s r) := by
  match h with
  | ⟨0, _⟩ => exact (shares_0 x0 x1 x2).trans (H.share hfin 0 _ _ H.n0 H.o0)
  | ⟨1, _⟩ => exact (shares_1 x0 x1 x2).trans (H.share hfin 1 _ _ H.n1 H.o1)
  | ⟨2, _⟩ => exact (shares_2 x0 x1 x2).trans (H.share hfin 2 _ _ H.n2 H.o2)

variable (m c)

/-- The blocks a grid point stages hold its tile. -/
theorem holds_at (b : Fin 64) (s : Fin 32) (t : Fin cfg0.N) (ht : t.val = 32 * b.val + s.val) :
    HoldsTile m c (iblk m c 0 t) (iblk m c 1 t) (iblk m c 2 t) b s := by
  have hb : bOf t = b := Fin.ext (by show t.val / 32 = b.val; omega)
  refine ⟨fun r d => ?_, fun d => ?_, fun d => ?_, fun d => ?_, ?_, ?_, ?_, fun i j k cc => ?_⟩
  · rw [pts_apply m c t r d]
    refine congrArg (points m c) ?_
    funext a
    match a with
    | ⟨0, _⟩ => exact Fin.ext (by show t.val / 32 = b.val; omega)
    | ⟨1, _⟩ => exact Fin.ext (by show t.val % 32 * 2048 + r.val = 2048 * s.val + r.val; omega)
    | ⟨2, _⟩ => rfl
  · rw [← hb]; exact normal_apply_0 m c t d
  · rw [← hb]; exact normal_apply_1 m c t d
  · rw [← hb]; exact normal_apply_2 m c t d
  · rw [← hb]; exact offset_apply_0 m c t
  · rw [← hb]; exact offset_apply_1 m c t
  · rw [← hb]; exact offset_apply_2 m c t
  · rw [← hb]; exact table_apply m c t i j k cc

/-- Point `32 b + s`'s addend for plane `h` is the sum of the reference's distances over the points of tile `s`. -/
theorem addend_eq (hfin : ∀ i, ∃ r : ℝ, grids m c i = (r : EReal)) (b : Fin 64) (s : Fin 32) (h : Fin 3) :
    addend m c (32 * b.val + s.val) (ix3 0 h 0)
      = ∑ r : Fin 2048, refDist m c b h (SumReshape.blockRow (m := 32) (n := 2048) s r) := by
  have hlt : 32 * b.val + s.val < cfg0.N := by rw [show cfg0.N = 2048 from N_0]; omega
  unfold addend
  rw [dif_pos hlt]
  exact (holds_at m c b s ⟨32 * b.val + s.val, hlt⟩ rfl).shares hfin h

/-- The region's output at `(b, h)` is the sum of the reference's distances over all 65536 points. -/
theorem outArr_eq (hfin : ∀ i, ∃ r : ℝ, grids m c i = (r : EReal)) (b : Fin 64) (h : Fin 3) :
    outArr m c (ix3 b h 0) = ∑ n : Fin 65536, refDist m c b h n := by
  show 0 + ∑ s ∈ Finset.range 32, addend m c (32 * b.val + s) (ix3 0 h 0) = _
  rw [zero_add, Finset.sum_range (fun s => addend m c (32 * b.val + s) (ix3 0 h 0))]
  rw [show (∑ n : Fin 65536, refDist m c b h n) = ∑ s : Fin 32, ∑ r : Fin 2048, refDist m c b h (SumReshape.blockRow (m := 32) (n := 2048) s r)
    from SumReshape.sum_blockRow (m := 32) (n := 2048) (fun n => refDist m c b h n)]
  exact Finset.sum_congr rfl fun s _ => addend_eq m c hfin b s h

/-- The kernel's first summand: the total of the region's output array, divided by 65536. -/
theorem total_apply (o : FVec Ideal S64x3x1 .f32) (j : S_.Idx) :
    Host.divf (F := Ideal) (Host.reduceAdd (F := Ideal) o (constant (F := Ideal) S_ .f32 0x00000000#32) reducesTo_S64x3x1_S_d0_1_2 h_S_)
        (constant (F := Ideal) S_ .f32 0x47800000#32) j
      = Ideal.div (Ideal.ofBits .f32 0x00000000#32 + ∑ i : S64x3x1.Idx, o i) (Ideal.ofBits .f32 0x47800000#32) := by
  show Ideal.div (Host.reduceAdd (F := Ideal) o (constant (F := Ideal) S_ .f32 0x00000000#32) reducesTo_S64x3x1_S_d0_1_2 h_S_ j) _ = _
  simp only [Host.reduceAdd, Ideal.hostReduceAdd_def]
  rw [Ideal.hostReduceAdd_total reducesTo_S64x3x1_S_d0_1_2 (fun b => b.elim0)]
  rfl

/-- THE VALUE: what the kernel's @main returns is what the reference's returns. -/
theorem value_eq (hfin : ∀ i, ∃ r : ℝ, grids m c i = (r : EReal)) :
    tailOf (outArr m c) (Cert.ReferenceIdeal.Read.val_main_v3 (F := Ideal) (planes m c))
      = Cert.ReferenceIdeal.Read.val_main_v76 (F := Ideal) (planes m c) (points m c) (grids m c) := by
  have key : Host.divf (F := Ideal) (Host.reduceAdd (F := Ideal) (outArr m c) (constant (F := Ideal) S_ .f32 0x00000000#32) reducesTo_S64x3x1_S_d0_1_2 h_S_)
        (constant (F := Ideal) S_ .f32 0x47800000#32)
      = Cert.ReferenceIdeal.Read.val_main_v56 (F := Ideal) (planes m c) (points m c) (grids m c) := by
    funext j
    rw [total_apply, Cert.ReferenceIdeal.Read.val_main_v56_apply]
    have hA : ∀ i : S64x3x1.Idx, outArr m c i = ∑ n : Fin 65536, refDist m c (i 0) (i 1) n := fun i => by
      have e : i = ix3 (i 0) (i 1) 0 := by
        funext a
        match a with
        | ⟨0, _⟩ => rfl
        | ⟨1, _⟩ => rfl
        | ⟨2, _⟩ => exact Fin.ext (by have h2 : (i 2).val < 1 := (i 2).isLt; show (i 2).val = 0; omega)
      exact (congrArg (outArr m c) e).trans (outArr_eq m c hfin (i 0) (i 1))
    rw [Finset.sum_congr rfl (fun i _ => hA i)]
    simp only [Cert.ReferenceIdeal.Read.val_main_cst_10_apply, Cert.ReferenceIdeal.Read.val_main_v55_apply,
      Cert.ReferenceIdeal.Read.val_main_v53_apply, Cert.ReferenceIdeal.Read.val_main_v54_apply,
      Cert.ReferenceIdeal.Read.val_main_cst_9_apply, Cert.ReferenceIdeal.Read.val_main_cst_8_apply, Ideal.hostDivf_def,
      Ideal.ofBits_def]
    have hidx : ∀ (j : Cert.ReferenceIdeal.S64x3.Idx) (k : Fin 65536),
        Cert.ReferenceIdeal.Read.idx_main_v53 j k = ix3 (j 0) (j 1) k := fun j k => funext fun a => by
      match a with
      | ⟨0, _⟩ => rfl
      | ⟨1, _⟩ => rfl
      | ⟨2, _⟩ => rfl
    simp only [hidx]
    exact SymDist.regroup (fun b h => ∑ n : Fin 65536, refDist m c b h n)
  unfold tailOf
  rw [regTerm_eq, key]
  rfl

end Cert.Proof.Bridge

end
-- ==== Proof.lean ====
/-
  The certificate of the symmetry-loss kernel against its reference, on the extended reals.

  The loss sums, over 64 batch elements, 3 candidate planes and 65536 sample points, the distance between the
  point reflected in the plane and the closest surface point stored for the voxel the reflected point falls in,
  averages over the points, and adds a regularization of the planes' normals. The reference gathers the closest
  point with an index gather; the kernel selects it by two one-hot contractions over a table split into a high
  and a low bf16 part, accumulates per tile of 2048 points over a grid of 64 × 32 points, and divides the grand
  total instead of each per-plane total. On the extended reals the format changes are the identity, so the low part
  of the table is `x − x = 0` — this is the one place where the finiteness of the inputs is used —, the one-hot
  contractions select, and division by 65536 distributes over finite sums.

  The three frames are the generated ones (the reference's is its generated run with the result dropped); the
  ideal pass's one rewrite is its rule's statement; the value claim is assembled from the region's output array
  (Proof/OutArray.lean), the host lines after the region (Proof/Tail.lean) and the bridge to the reference's stages
  (Proof/Bridge.lean).
-/
import proofs.«118956_j35338990911546_2_alg».proof.Defs
import proofs.«118956_j35338990911546_2_alg».proof.Proof.Gen.Kernel
import proofs.«118956_j35338990911546_2_alg».proof.Proof.Gen.Kernel.Skeleton
import proofs.«118956_j35338990911546_2_alg».proof.Proof.Gen.Kernel.Launch
import proofs.«118956_j35338990911546_2_alg».proof.Proof.Gen.Kernel.Points
import proofs.«118956_j35338990911546_2_alg».proof.Proof.Gen.Kernel.Frame
import proofs.«118956_j35338990911546_2_alg».proof.Proof.Gen.KernelIdeal
import proofs.«118956_j35338990911546_2_alg».proof.Proof.Gen.KernelIdeal.Skeleton
import proofs.«118956_j35338990911546_2_alg».proof.Proof.Gen.KernelIdeal.Launch
import proofs.«118956_j35338990911546_2_alg».proof.Proof.Gen.KernelIdeal.Points
import proofs.«118956_j35338990911546_2_alg».proof.Proof.Gen.KernelIdeal.Frame
import proofs.«118956_j35338990911546_2_alg».proof.Proof.Gen.ReferenceIdeal
import proofs.«118956_j35338990911546_2_alg».proof.Proof.Gen.ReferenceIdeal.Run
import proofs.«118956_j35338990911546_2_alg».proof.Proof.Gen.ReferenceIdeal.Read
import proofs.«118956_j35338990911546_2_alg».proof.Proof.Gen.Pre_finite_inputs
import proofs.«118956_j35338990911546_2_alg».proof.Proof.Finite
import proofs.«118956_j35338990911546_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass's one rewrite: widening back a value narrowed to bf16 is the identity on the extended reals. -/
theorem preserves : Cert.preserves_Kernel_KernelIdeal :=
  IdealRules.truncf_extf.statement Cert.KernelIdeal.S1024x96 .f32 .bf16

section Value

open Cert.KernelIdeal Cert.KernelIdeal.Gen Cert.KernelIdeal.OutArray Cert.KernelIdeal.Tail

/-- The kernel's run, read: @main's result is `tailOf` of the region's output array and of the normals, and the
    arguments end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = tailOf (outArr m c) (V m c main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Value

/-- From memories agreeing on the arguments both programs end with the same one-element result. -/
theorem algebraic : Cert.algebraic_KernelIdeal_ReferenceIdeal := by
  intro m ρ m' ρ' hpre hagree
  refine ⟨fun c => Cert.KernelIdeal.Tail.tailOf (Cert.KernelIdeal.OutArray.outArr m c) (Cert.KernelIdeal.Gen.V m c Cert.KernelIdeal.main_v3),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.2]
  show _ = Cert.KernelIdeal.Tail.tailOf (Cert.KernelIdeal.OutArray.outArr m c) (Cert.KernelIdeal.Gen.V m c Cert.KernelIdeal.main_v3)
  rw [Cert.KernelIdeal.Tail.normals_eq m c]
  exact (Cert.Proof.Bridge.value_eq m c (Cert.Proof.Finite.arg3_real m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
